-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000x128 .f32) (main_arg3 : FVec F S128x128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S2000x128 : Shape := ⟨2, ![2000, 128]⟩

abbrev nBuf : Space → Nat
  | .hbm => 49
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x128, .f32⟩
  | .hbm, ⟨31, _⟩ => ⟨S1x128, .f32⟩
  | .hbm, ⟨32, _⟩ => ⟨S50000x128, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v42 : BitVec 1 := Scalar.cmpi .eq arg0 c24_i32
  let v43 : BitVec 32 := Scalar.extui v42
  let c0_i32_26 : BitVec 32 := 0#32
  let v44 : BitVec 1 := Scalar.cmpi .ne v43 c0_i32_26
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S1x128_S2000x128 : S1x128.Broadcasts S2000x128
  reduces_S2000x128_S128 : S2000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v18_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S_, .i32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_cst : Ref sig .tc := ⟨.hbm, 38, rfl⟩
abbrev main_call1_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_cst_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_cst_1 : Ref sig .tc := ⟨.hbm, 62, rfl⟩
abbrev main_call2_v8 : Ref sig .tc := ⟨.hbm, 63, rfl⟩
abbrev main_call2_cst_2 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_cst_3 : Ref sig .tc := ⟨.hbm, 68, rfl⟩
abbrev main_call2_v12 : Ref sig .tc := ⟨.hbm, 69, rfl⟩
abbrev main_call2_cst_4 : Ref sig .tc := ⟨.hbm, 70, rfl⟩
abbrev main_call2_call0_v0 : Ref sig .tc := ⟨.hbm, 71, rfl⟩
abbrev main_call2_call0_v1 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_5 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Kernel.Runs.lean ====
/-
  Region 0 (the perceptron stage with its running column sums), what its three control cases share.

  The grid has 25 points, one per tile of 2000 rows. The body zeroes its two carried accumulators at the first
  point only, and copies them into the two small outputs at the last point only; at every point it writes the
  tile of the residual output and adds the tile's column sums (of the entries and of their squares) to the
  accumulators. So there are three cases: the first point (A), the points strictly between (B), the last (C).
  Here: the two branch conditions in closed form over the grid, where the two small output windows are idle,
  the staging and scratch memrefs by name, and the region invariant of the class opened into the two scratch
  buffers, the scoped buffers the other region stages through, and the generator register.
-/
import proofs.«174337_j74947179316231_2_alg».proof.Proof.Gen.Kernel.Launch
import proofs.«174337_j74947179316231_2_alg».proof.Proof.Gen.Kernel.Skeleton
import proofs.«174337_j74947179316231_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first grid point": the condition of the accumulators' reset. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- "This is the last grid point": the condition of the copy into the two small outputs. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point the two small outputs are idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At the last point they are live. -/
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The memrefs the body is called with -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two carried accumulators: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view
/-- One staging buffer of each output window, through which its contents are stated. -/
abbrev VO0_6 : View sig .tc .vmem S2000x128 .f32 := (Memref.whole cc0_stg6_0 : Memref sig .tc .vmem S2000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view

/-! ## The class invariant, opened -/

/-- The scoped buffers region 0 never touches (the other region's staging buffers), each whole at some contents. -/
def Rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant is: both accumulators at some contents, those other scoped buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest8 (F := F) c) ∗ (∃ r, prngReg c r)) := by
  unfold Pipeline.ΦA Rest8; rw [scopedRest0_eq]; simp only [scM0_0, scM0_1, owns_whole]; try rfl

end Cert.Kernel.Hand

end
-- ==== Proof.Kernel.RunA.lean ====
/-
  Region 0's body at the first grid point: the accumulators are reset, the two small outputs untouched.

  On whole memrefs — the six inputs at their contents, the big output's buffer at anything, the two small outputs' at contents handed back as they were, the two accumulators at anything — the body runs
  to its end holding the inputs as they were and each buffer it stored into with its stores recorded as pieces (the last
  store first). The pieces are found by running the body symbolically; nothing the body computes is transcribed here.
-/
import proofs.«174337_j74947179316231_2_alg».proof.Proof.Kernel.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.Kernel.RunB.lean ====
/-
  Region 0's body at a grid point strictly between the first and the last: nothing reset, the two small outputs untouched.

  On whole memrefs — the six inputs at their contents, the big output's buffer at anything, the two small outputs' at contents handed back as they were, the two accumulators at what the point before left — the body runs
  to its end holding the inputs as they were and each buffer it stored into with its stores recorded as pieces (the last
  store first). The pieces are found by running the body symbolically; nothing the body computes is transcribed here.
-/
import proofs.«174337_j74947179316231_2_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.Kernel.RunC.lean ====
/-
  Region 0's body at the last grid point: nothing reset, the accumulators copied into the two small outputs.

  On whole memrefs — the six inputs at their contents, the big output's buffer at anything, the two small outputs' at anything, the two accumulators at what the point before left — the body runs
  to its end holding the inputs as they were and each buffer it stored into with its stores recorded as pieces (the last
  store first). The pieces are found by running the body symbolically; nothing the body computes is transcribed here.
-/
import proofs.«174337_j74947179316231_2_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.Kernel.Frame0.lean ====
/-
  Region 0's proof data and its body obligation.

  What each buffer holds after the body at grid point n is defined by recursion on n: the big output's staging buffer
  holds the point's tile of the residual output; the two accumulators hold, after the first point, that tile's column
  sums (of the entries, of their squares) added to zero, and after every later point the sums of the point before with
  the tile's column sums added; at the last point the two small outputs' buffers hold the accumulators' final contents.
  The region's invariant carries the two accumulators at those contents from each point to the next. The body obligation
  is then the symbolic run of the point's control case.
-/
import proofs.«174337_j74947179316231_2_alg».proof.Proof.Kernel.RunC
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The stores of each case cover the buffers they write -/

theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S2000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y

theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y

theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y

theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y

theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y

theorem cover0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

theorem cover0_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-! ## What the buffers hold after each point -/

/-- After a point: the big output's buffer, the two small outputs' buffers, the two accumulators. -/
abbrev Outs0 (F : FTy → Type) [FloatOps F] : Type := Vec F S2000x128 .f32 × Vec F S1x128 .f32 × Vec F S1x128 .f32 × Vec F S1x128 .f32 × Vec F S1x128 .f32

/-- The first point's run at the point's memrefs and input blocks. -/
abbrev rA (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t)
/-- A middle point's run, over what the point before left in the accumulators. -/
abbrev rB (c : Dev nD) (t : Fin cfg0.N) (h0 : ¬cond0_0 (grid0.coords t)) (h1 : ¬cond0_1 (grid0.coords t)) (xs0 : Vec F S1x128 .f32) (xs1 : Vec F S1x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) xs0 xs1
/-- The last point's run. -/
abbrev rC (c : Dev nD) (t : Fin cfg0.N) (h0 : ¬cond0_0 (grid0.coords t)) (h1 : cond0_1 (grid0.coords t)) (xs0 : Vec F S1x128 .f32) (xs1 : Vec F S1x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) xs0 xs1

def tupA (c : Dev nD) (t : Fin cfg0.N) (h0 : cond0_0 (grid0.coords t)) (h1 : ¬cond0_1 (grid0.coords t)) : Outs0 F :=
  (VO0_6.read (Elt F) (VO0_6.writes (Elt F) VO0_6.junk (rA V c t h0 h1).1),
   VO0_7.read (Elt F) VO0_7.junk, VO0_8.read (Elt F) VO0_8.junk,
   VS0_0.read (Elt F) (VS0_0.writes (Elt F) VS0_0.junk (rA V c t h0 h1).2.1),
   VS0_1.read (Elt F) (VS0_1.writes (Elt F) VS0_1.junk (rA V c t h0 h1).2.2.1))
def tupB (c : Dev nD) (t : Fin cfg0.N) (h0 : ¬cond0_0 (grid0.coords t)) (h1 : ¬cond0_1 (grid0.coords t)) (xs0 : Vec F S1x128 .f32) (xs1 : Vec F S1x128 .f32) : Outs0 F :=
  (VO0_6.read (Elt F) (VO0_6.writes (Elt F) VO0_6.junk (rB V c t h0 h1 xs0 xs1).1),
   VO0_7.read (Elt F) VO0_7.junk, VO0_8.read (Elt F) VO0_8.junk,
   VS0_0.read (Elt F) (VS0_0.writes (Elt F) VS0_0.junk (rB V c t h0 h1 xs0 xs1).2.1),
   VS0_1.read (Elt F) (VS0_1.writes (Elt F) VS0_1.junk (rB V c t h0 h1 xs0 xs1).2.2.1))
def tupC (c : Dev nD) (t : Fin cfg0.N) (h0 : ¬cond0_0 (grid0.coords t)) (h1 : cond0_1 (grid0.coords t)) (xs0 : Vec F S1x128 .f32) (xs1 : Vec F S1x128 .f32) : Outs0 F :=
  (VO0_6.read (Elt F) (VO0_6.writes (Elt F) VO0_6.junk (rC V c t h0 h1 xs0 xs1).1),
   VO0_7.read (Elt F) (VO0_7.writes (Elt F) VO0_7.junk (rC V c t h0 h1 xs0 xs1).2.1),
   VO0_8.read (Elt F) (VO0_8.writes (Elt F) VO0_8.junk (rC V c t h0 h1 xs0 xs1).2.2.1),
   VS0_0.read (Elt F) (VS0_0.writes (Elt F) VS0_0.junk (rC V c t h0 h1 xs0 xs1).2.2.2.1),
   VS0_1.read (Elt F) (VS0_1.writes (Elt F) VS0_1.junk (rC V c t h0 h1 xs0 xs1).2.2.2.2.1))

theorem lt25 {n : ℕ} (hn : n < cfg0.N) : n < 25 := lt_of_lt_of_eq hn (show cfg0.N = 25 from N_0)

/-- The accumulation, by recursion on the point. -/
def outsAt0 (c : Dev nD) : (n : ℕ) → n < cfg0.N → Outs0 F
  | 0, hn => tupA V c ⟨0, hn⟩ ((hcond0_0 ⟨0, hn⟩).mpr (Nat.zero_mod _)) (fun h => by have h' := (hcond0_1 ⟨0, hn⟩).mp h; simp at h')
  | n + 1, hn =>
    if h1 : (n + 1) % 25 = 24 then
      tupC V c ⟨n + 1, hn⟩ (fun h => by have := (hcond0_0 ⟨n + 1, hn⟩).mp h; have := lt25 hn; dsimp only at *; omega) ((hcond0_1 ⟨n + 1, hn⟩).mpr h1)
        (outsAt0 c n (Nat.lt_of_succ_lt hn)).2.2.2.1 (outsAt0 c n (Nat.lt_of_succ_lt hn)).2.2.2.2
    else
      tupB V c ⟨n + 1, hn⟩ (fun h => by have := (hcond0_0 ⟨n + 1, hn⟩).mp h; have := lt25 hn; dsimp only at *; omega) (fun h => h1 ((hcond0_1 ⟨n + 1, hn⟩).mp h))
        (outsAt0 c n (Nat.lt_of_succ_lt hn)).2.2.2.1 (outsAt0 c n (Nat.lt_of_succ_lt hn)).2.2.2.2

theorem outsAt0_A (c : Dev nD) (t : Fin cfg0.N) (h0 : t.val % 25 = 0) :
    outsAt0 V c t.val t.isLt = tupA V c t ((hcond0_0 t).mpr h0) (fun h => by have := (hcond0_1 t).mp h; omega) := by
  obtain ⟨n, hn⟩ := t
  cases n with
  | zero => rfl
  | succ n => exfalso; have := lt25 hn; dsimp only at h0; omega

theorem outsAt0_B (c : Dev nD) (t : Fin cfg0.N) (h0 : ¬t.val % 25 = 0) (h1 : ¬t.val % 25 = 24) :
    outsAt0 V c t.val t.isLt = tupB V c t (fun h => h0 ((hcond0_0 t).mp h)) (fun h => h1 ((hcond0_1 t).mp h))
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h1).trans rfl

theorem outsAt0_C (c : Dev nD) (t : Fin cfg0.N) (h0 : ¬t.val % 25 = 0) (h1 : t.val % 25 = 24) :
    outsAt0 V c t.val t.isLt = tupC V c t (fun h => h0 ((hcond0_0 t).mp h)) ((hcond0_1 t).mpr h1)
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_pos h1).trans rfl

/-! ## The region invariant -/

/-- Before the first point the class invariant; after point n the two accumulators at that point's contents. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ Rest8 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ Rest8 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ Rest8 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Cert.Kernel.Hand

end
-- ==== Proof.Kernel.Frame0b.lean ====
/-
  Region 0's body obligation: at every grid point the body, called with what the pipeline hands it, returns what the
  proof data say. The point's control case is read off the closed forms of the two conditions; the case's symbolic run
  applies; the invariant hands the body the two accumulators at what the point before left (at anything at the first
  point) and takes them back at this point's contents.
-/
import proofs.«174337_j74947179316231_2_alg».proof.Proof.Kernel.Frame0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 25 := lt25 t.isLt
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 25 = 0
  · have h1 : ¬t.val % 25 = 24 := by omega
    have hc1 : ¬cond0_1 (grid0.coords t) := fun h => h1 ((hcond0_1 t).mp h)
    rw [Dat.leavesExact_idle (dat0 V c) 7 t (idleAt0_7 t hc1) (noFlush0_7 t hc1),
      Dat.leavesExact_idle (dat0 V c) 8 t (idleAt0_8 t hc1) (noFlush0_8 t hc1)]
    rw [outsAt0_A V c t h0]
    unfold tupA; dsimp only
    have hz : t.val = 0 := by omega
    rw [PhiS_castSucc V c t, PhiS_zero V c _ _ hz, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((rA V c t ((hcond0_0 t).mpr h0) hc1).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · have hc0 : ¬cond0_0 (grid0.coords t) := fun h => h0 ((hcond0_0 t).mp h)
    have hz : t.val ≠ 0 := fun h => h0 (by rw [h])
    by_cases h1 : t.val % 25 = 24
    · rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold tupC; dsimp only
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((rC V c t hc0 ((hcond0_1 t).mpr h1) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 7 t (idleAt0_7 t hc1) (noFlush0_7 t hc1),
        Dat.leavesExact_idle (dat0 V c) 8 t (idleAt0_8 t hc1) (noFlush0_8 t hc1)]
      rw [outsAt0_B V c t h0 h1]
      unfold tupB; dsimp only
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((rB V c t hc0 hc1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 25 := N_0; omega)

end Cert.Kernel.Hand

end
-- ==== Proof.Kernel.Run1.lean ====
/-
  Region 1's body (the normalisation of one tile of rows) on whole memrefs: the five inputs at their contents, the
  output's buffer at anything; it runs to its end holding the inputs as they were and the output's buffer with its
  one store recorded. The store is found by running the body symbolically.
-/
import proofs.«174337_j74947179316231_2_alg».proof.Proof.Kernel.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (y0 : Vec F S2000x128 .f32) (y1 : Vec F S1x128 .f32) (y2 : Vec F S1x128 .f32) (y3 : Vec F S1x128 .f32) (y4 : Vec F S1x128 .f32) :
    { L5 : List (View.Piece (Elt F) S2000x128 .f32) //
      ∀ (E : Set ℕ) (K : PUnit → sProp 𝕄),
        iprop(owns (c : Thread nD τ) arg1 fullShare y0 ∗ owns (c : Thread nD τ) arg2 fullShare y1 ∗ owns (c : Thread nD τ) arg3 fullShare y2 ∗ owns (c : Thread nD τ) arg4 fullShare y3 ∗ owns (c : Thread nD τ) arg5 fullShare y4 ∗ (∃ d, owns (c : Thread nD τ) arg6 fullShare d)
            ∗ (iprop(owns (c : Thread nD τ) arg1 fullShare y0 ∗ owns (c : Thread nD τ) arg2 fullShare y1 ∗ owns (c : Thread nD τ) arg3 fullShare y2 ∗ owns (c : Thread nD τ) arg4 fullShare y3 ∗ owns (c : Thread nD τ) arg5 fullShare y4 ∗ (∃ f, arg6.view.loc (c : Thread nD τ) ↦[arg6.view.set]{fullShare} arg6.view.writes (Elt F) f L5)) -∗ K ⟨⟩))
          ⊢ wp frame (wpE (defs₀ (F := F)) Variants.none c none) E (cc1__stageB_kernel i arg1 harg1 arg2 harg2 arg3 harg3 arg4 harg4 arg5 harg5 arg6 harg6) K } := by
  refine ⟨?_, fun E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Hand

end
-- ==== Proof.Kernel.Frame1.lean ====
/-
  Region 1's proof data and body obligation: every window is live at every point, the body keeps nothing between
  points, so after the body each input's buffer holds its block and the output's buffer holds the point's tile of
  the normalised result; the class invariant passes through untouched.
-/
import proofs.«174337_j74947179316231_2_alg».proof.Proof.Kernel.Run1
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x128 .f32 := win1_5.stage (cfg1.slots t 5)
abbrev hs1_5 (t : Fin cfg1.N) : (ms1_5 t).IsWhole := hstage1_5 ((cfg1.slots t 5).cast nbuf1_5)
abbrev VO1_5 : View sig .tc .vmem S2000x128 .f32 := (Memref.whole cc1_stg5_0 : Memref sig .tc .vmem S2000x128 .f32).view

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem cover1_5 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (y0 : Vec F S2000x128 .f32) (y1 : Vec F S1x128 .f32) (y2 : Vec F S1x128 .f32) (y3 : Vec F S1x128 .f32) (y4 : Vec F S1x128 .f32) (y : S2000x128.Idx) :
    ∃ pc ∈ (kernelRun1 c i arg1 harg1 arg2 harg2 arg3 harg3 arg4 harg4 arg5 harg5 arg6 harg6 y0 y1 y2 y3 y4).1, y ∈ pc.1.set :=
  View.cover_of_tiledL (kernelRun1 c i arg1 harg1 arg2 harg2 arg3 harg3 arg4 harg4 arg5 harg5 arg6 harg6 y0 y1 y2 y3 y4).1 S2000x128.size (by sl_kernel_rfl) y

/-- The run at a point's memrefs and input blocks. -/
abbrev r1 (c : Dev nD) (t : Fin cfg1.N) :=
  kernelRun1 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

/-- What the output's buffer holds after the body at point t. -/
def out1 (c : Dev nD) (t : Fin cfg1.N) : Vec F S2000x128 .f32 :=
  VO1_5.read (Elt F) (VO1_5.writes (Elt F) VO1_5.junk (r1 V c t).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1
  iintro ⟨HΦ, Ho, ⟨%d0, H0⟩, ⟨%d1, H1⟩, ⟨%d2, H2⟩, ⟨%d3, H3⟩, ⟨%d4, H4⟩, ⟨%d5, H5⟩⟩
  iapply ((r1 V c t).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The whole program as six segments — three stretches of host operations (the gather, add, relu, scatter-add that
  build the aggregated messages, and two reshapes), region 0, the stretch that turns the column sums into mean and
  clamped variance, region 1 — run one after the other from the launch memory. The contents of every unscoped buffer at
  each boundary are named: a host stretch folds its operations over the contents before it; a region replaces its
  windows' arrays by what its write-backs leave and keeps every other buffer. The run ends with every buffer at the last
  boundary's contents; in particular the result buffer, and each argument as launched (no stretch writes an argument
  and a region only reads one).
-/
import proofs.«174337_j74947179316231_2_alg».proof.Proof.Kernel.Frame0b
import proofs.«174337_j74947179316231_2_alg».proof.Proof.Kernel.Frame1
import proofs.«174337_j74947179316231_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := (W4_arr m ρ c 2).trans (((dat0 (V3 m ρ) c).arrAt_in 2 rfl _).trans (A_eq0 (V3 m ρ) c 2))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := (W4_arr m ρ c 4).trans (((dat0 (V3 m ρ) c).arrAt_in 4 rfl _).trans (A_eq0 (V3 m ρ) c 4))
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m ρ) c)
    unfold Pipeline.ΦA
    iintro ⟨Hp, -, Hr⟩
    isplitl [Hr]; · iexact Hr
    iexact Hp
  hout c := by
    rw [Pipeline.ownSems0_none]
    refine BIBase.Entails.trans (hout0 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with the result
    buffer at the last boundary's contents and every argument as launched. -/
theorem run_all : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_all m ρ)

end Cert.Kernel.Hand

end
-- ==== Proof.KernelIdeal.Runs.lean ====
/-
  Region 0 (the perceptron stage with its running column sums), what its three control cases share.

  The grid has 25 points, one per tile of 2000 rows. The body zeroes its two carried accumulators at the first
  point only, and copies them into the two small outputs at the last point only; at every point it writes the
  tile of the residual output and adds the tile's column sums (of the entries and of their squares) to the
  accumulators. So there are three cases: the first point (A), the points strictly between (B), the last (C).
  Here: the two branch conditions in closed form over the grid, where the two small output windows are idle,
  the staging and scratch memrefs by name, and the region invariant of the class opened into the two scratch
  buffers, the scoped buffers the other region stages through, and the generator register.
-/
import proofs.«174337_j74947179316231_2_alg».proof.Proof.Gen.KernelIdeal.Launch
import proofs.«174337_j74947179316231_2_alg».proof.Proof.Gen.KernelIdeal.Skeleton
import proofs.«174337_j74947179316231_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first grid point": the condition of the accumulators' reset. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- "This is the last grid point": the condition of the copy into the two small outputs. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point the two small outputs are idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At the last point they are live. -/
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The memrefs the body is called with -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two carried accumulators: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view
/-- One staging buffer of each output window, through which its contents are stated. -/
abbrev VO0_6 : View sig .tc .vmem S2000x128 .f32 := (Memref.whole cc0_stg6_0 : Memref sig .tc .vmem S2000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view

/-! ## The class invariant, opened -/

/-- The scoped buffers region 0 never touches (the other region's staging buffers), each whole at some contents. -/
def Rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant is: both accumulators at some contents, those other scoped buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest8 (F := F) c) ∗ (∃ r, prngReg c r)) := by
  unfold Pipeline.ΦA Rest8; rw [scopedRest0_eq]; simp only [scM0_0, scM0_1, owns_whole]; try rfl

end Cert.KernelIdeal.Hand

end
-- ==== Proof.KernelIdeal.RunA.lean ====
/-
  Region 0's body at the first grid point: the accumulators are reset, the two small outputs untouched.

  On whole memrefs — the six inputs at their contents, the big output's buffer at anything, the two small outputs' at contents handed back as they were, the two accumulators at anything — the body runs
  to its end holding the inputs as they were and each buffer it stored into with its stores recorded as pieces (the last
  store first). The pieces are found by running the body symbolically; nothing the body computes is transcribed here.
-/
import proofs.«174337_j74947179316231_2_alg».proof.Proof.KernelIdeal.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    Σ' (L6 : List (View.Piece (Elt F) S2000x128 .f32)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KernelIdeal.RunB.lean ====
/-
  Region 0's body at a grid point strictly between the first and the last: nothing reset, the two small outputs untouched.

  On whole memrefs — the six inputs at their contents, the big output's buffer at anything, the two small outputs' at contents handed back as they were, the two accumulators at what the point before left — the body runs
  to its end holding the inputs as they were and each buffer it stored into with its stores recorded as pieces (the last
  store first). The pieces are found by running the body symbolically; nothing the body computes is transcribed here.
-/
import proofs.«174337_j74947179316231_2_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KernelIdeal.RunC.lean ====
/-
  Region 0's body at the last grid point: nothing reset, the accumulators copied into the two small outputs.

  On whole memrefs — the six inputs at their contents, the big output's buffer at anything, the two small outputs' at anything, the two accumulators at what the point before left — the body runs
  to its end holding the inputs as they were and each buffer it stored into with its stores recorded as pieces (the last
  store first). The pieces are found by running the body symbolically; nothing the body computes is transcribed here.
-/
import proofs.«174337_j74947179316231_2_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__stageA_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__stageA_kernel_eq_skeleton]; unfold cc0__stageA_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KernelIdeal.Frame0.lean ====
/-
  Region 0's proof data and its body obligation.

  What each buffer holds after the body at grid point n is defined by recursion on n: the big output's staging buffer
  holds the point's tile of the residual output; the two accumulators hold, after the first point, that tile's column
  sums (of the entries, of their squares) added to zero, and after every later point the sums of the point before with
  the tile's column sums added; at the last point the two small outputs' buffers hold the accumulators' final contents.
  The region's invariant carries the two accumulators at those contents from each point to the next. The body obligation
  is then the symbolic run of the point's control case.
-/
import proofs.«174337_j74947179316231_2_alg».proof.Proof.KernelIdeal.RunC
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The stores of each case cover the buffers they write -/

theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S2000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y

theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y

theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y

theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y

theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S2000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y

theorem cover0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

theorem cover0_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-! ## What the buffers hold after each point -/

/-- After a point: the big output's buffer, the two small outputs' buffers, the two accumulators. -/
abbrev Outs0 (F : FTy → Type) [FloatOps F] : Type := Vec F S2000x128 .f32 × Vec F S1x128 .f32 × Vec F S1x128 .f32 × Vec F S1x128 .f32 × Vec F S1x128 .f32

/-- The first point's run at the point's memrefs and input blocks. -/
abbrev rA (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t)
/-- A middle point's run, over what the point before left in the accumulators. -/
abbrev rB (c : Dev nD) (t : Fin cfg0.N) (h0 : ¬cond0_0 (grid0.coords t)) (h1 : ¬cond0_1 (grid0.coords t)) (xs0 : Vec F S1x128 .f32) (xs1 : Vec F S1x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) xs0 xs1
/-- The last point's run. -/
abbrev rC (c : Dev nD) (t : Fin cfg0.N) (h0 : ¬cond0_0 (grid0.coords t)) (h1 : cond0_1 (grid0.coords t)) (xs0 : Vec F S1x128 .f32) (xs1 : Vec F S1x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) xs0 xs1

def tupA (c : Dev nD) (t : Fin cfg0.N) (h0 : cond0_0 (grid0.coords t)) (h1 : ¬cond0_1 (grid0.coords t)) : Outs0 F :=
  (VO0_6.read (Elt F) (VO0_6.writes (Elt F) VO0_6.junk (rA V c t h0 h1).1),
   VO0_7.read (Elt F) VO0_7.junk, VO0_8.read (Elt F) VO0_8.junk,
   VS0_0.read (Elt F) (VS0_0.writes (Elt F) VS0_0.junk (rA V c t h0 h1).2.1),
   VS0_1.read (Elt F) (VS0_1.writes (Elt F) VS0_1.junk (rA V c t h0 h1).2.2.1))
def tupB (c : Dev nD) (t : Fin cfg0.N) (h0 : ¬cond0_0 (grid0.coords t)) (h1 : ¬cond0_1 (grid0.coords t)) (xs0 : Vec F S1x128 .f32) (xs1 : Vec F S1x128 .f32) : Outs0 F :=
  (VO0_6.read (Elt F) (VO0_6.writes (Elt F) VO0_6.junk (rB V c t h0 h1 xs0 xs1).1),
   VO0_7.read (Elt F) VO0_7.junk, VO0_8.read (Elt F) VO0_8.junk,
   VS0_0.read (Elt F) (VS0_0.writes (Elt F) VS0_0.junk (rB V c t h0 h1 xs0 xs1).2.1),
   VS0_1.read (Elt F) (VS0_1.writes (Elt F) VS0_1.junk (rB V c t h0 h1 xs0 xs1).2.2.1))
def tupC (c : Dev nD) (t : Fin cfg0.N) (h0 : ¬cond0_0 (grid0.coords t)) (h1 : cond0_1 (grid0.coords t)) (xs0 : Vec F S1x128 .f32) (xs1 : Vec F S1x128 .f32) : Outs0 F :=
  (VO0_6.read (Elt F) (VO0_6.writes (Elt F) VO0_6.junk (rC V c t h0 h1 xs0 xs1).1),
   VO0_7.read (Elt F) (VO0_7.writes (Elt F) VO0_7.junk (rC V c t h0 h1 xs0 xs1).2.1),
   VO0_8.read (Elt F) (VO0_8.writes (Elt F) VO0_8.junk (rC V c t h0 h1 xs0 xs1).2.2.1),
   VS0_0.read (Elt F) (VS0_0.writes (Elt F) VS0_0.junk (rC V c t h0 h1 xs0 xs1).2.2.2.1),
   VS0_1.read (Elt F) (VS0_1.writes (Elt F) VS0_1.junk (rC V c t h0 h1 xs0 xs1).2.2.2.2.1))

theorem lt25 {n : ℕ} (hn : n < cfg0.N) : n < 25 := lt_of_lt_of_eq hn (show cfg0.N = 25 from N_0)

/-- The accumulation, by recursion on the point. -/
def outsAt0 (c : Dev nD) : (n : ℕ) → n < cfg0.N → Outs0 F
  | 0, hn => tupA V c ⟨0, hn⟩ ((hcond0_0 ⟨0, hn⟩).mpr (Nat.zero_mod _)) (fun h => by have h' := (hcond0_1 ⟨0, hn⟩).mp h; simp at h')
  | n + 1, hn =>
    if h1 : (n + 1) % 25 = 24 then
      tupC V c ⟨n + 1, hn⟩ (fun h => by have := (hcond0_0 ⟨n + 1, hn⟩).mp h; have := lt25 hn; dsimp only at *; omega) ((hcond0_1 ⟨n + 1, hn⟩).mpr h1)
        (outsAt0 c n (Nat.lt_of_succ_lt hn)).2.2.2.1 (outsAt0 c n (Nat.lt_of_succ_lt hn)).2.2.2.2
    else
      tupB V c ⟨n + 1, hn⟩ (fun h => by have := (hcond0_0 ⟨n + 1, hn⟩).mp h; have := lt25 hn; dsimp only at *; omega) (fun h => h1 ((hcond0_1 ⟨n + 1, hn⟩).mp h))
        (outsAt0 c n (Nat.lt_of_succ_lt hn)).2.2.2.1 (outsAt0 c n (Nat.lt_of_succ_lt hn)).2.2.2.2

theorem outsAt0_A (c : Dev nD) (t : Fin cfg0.N) (h0 : t.val % 25 = 0) :
    outsAt0 V c t.val t.isLt = tupA V c t ((hcond0_0 t).mpr h0) (fun h => by have := (hcond0_1 t).mp h; omega) := by
  obtain ⟨n, hn⟩ := t
  cases n with
  | zero => rfl
  | succ n => exfalso; have := lt25 hn; dsimp only at h0; omega

theorem outsAt0_B (c : Dev nD) (t : Fin cfg0.N) (h0 : ¬t.val % 25 = 0) (h1 : ¬t.val % 25 = 24) :
    outsAt0 V c t.val t.isLt = tupB V c t (fun h => h0 ((hcond0_0 t).mp h)) (fun h => h1 ((hcond0_1 t).mp h))
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h1).trans rfl

theorem outsAt0_C (c : Dev nD) (t : Fin cfg0.N) (h0 : ¬t.val % 25 = 0) (h1 : t.val % 25 = 24) :
    outsAt0 V c t.val t.isLt = tupC V c t (fun h => h0 ((hcond0_0 t).mp h)) ((hcond0_1 t).mpr h1)
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_pos h1).trans rfl

/-! ## The region invariant -/

/-- Before the first point the class invariant; after point n the two accumulators at that point's contents. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ Rest8 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ Rest8 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ Rest8 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Cert.KernelIdeal.Hand

end
-- ==== Proof.KernelIdeal.Run1.lean ====
/-
  Region 1's body (the normalisation of one tile of rows) on whole memrefs: the five inputs at their contents, the
  output's buffer at anything; it runs to its end holding the inputs as they were and the output's buffer with its
  one store recorded. The store is found by running the body symbolically.
-/
import proofs.«174337_j74947179316231_2_alg».proof.Proof.KernelIdeal.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (y0 : Vec F S2000x128 .f32) (y1 : Vec F S1x128 .f32) (y2 : Vec F S1x128 .f32) (y3 : Vec F S1x128 .f32) (y4 : Vec F S1x128 .f32) :
    { L5 : List (View.Piece (Elt F) S2000x128 .f32) //
      ∀ (E : Set ℕ) (K : PUnit → sProp 𝕄),
        iprop(owns (c : Thread nD τ) arg1 fullShare y0 ∗ owns (c : Thread nD τ) arg2 fullShare y1 ∗ owns (c : Thread nD τ) arg3 fullShare y2 ∗ owns (c : Thread nD τ) arg4 fullShare y3 ∗ owns (c : Thread nD τ) arg5 fullShare y4 ∗ (∃ d, owns (c : Thread nD τ) arg6 fullShare d)
            ∗ (iprop(owns (c : Thread nD τ) arg1 fullShare y0 ∗ owns (c : Thread nD τ) arg2 fullShare y1 ∗ owns (c : Thread nD τ) arg3 fullShare y2 ∗ owns (c : Thread nD τ) arg4 fullShare y3 ∗ owns (c : Thread nD τ) arg5 fullShare y4 ∗ (∃ f, arg6.view.loc (c : Thread nD τ) ↦[arg6.view.set]{fullShare} arg6.view.writes (Elt F) f L5)) -∗ K ⟨⟩))
          ⊢ wp frame (wpE (defs₀ (F := F)) Variants.none c none) E (cc1__stageB_kernel i arg1 harg1 arg2 harg2 arg3 harg3 arg4 harg4 arg5 harg5 arg6 harg6) K } := by
  refine ⟨?_, fun E K => ?run⟩
  case run =>
    simp only [cc1__stageB_kernel_eq_skeleton]; unfold cc1__stageB_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Hand

end
-- ==== Proof.KernelIdeal.Frame1.lean ====
/-
  Region 1's proof data and body obligation: every window is live at every point, the body keeps nothing between
  points, so after the body each input's buffer holds its block and the output's buffer holds the point's tile of
  the normalised result; the class invariant passes through untouched.
-/
import proofs.«174337_j74947179316231_2_alg».proof.Proof.KernelIdeal.Run1
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x128 .f32 := win1_5.stage (cfg1.slots t 5)
abbrev hs1_5 (t : Fin cfg1.N) : (ms1_5 t).IsWhole := hstage1_5 ((cfg1.slots t 5).cast nbuf1_5)
abbrev VO1_5 : View sig .tc .vmem S2000x128 .f32 := (Memref.whole cc1_stg5_0 : Memref sig .tc .vmem S2000x128 .f32).view

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem cover1_5 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (y0 : Vec F S2000x128 .f32) (y1 : Vec F S1x128 .f32) (y2 : Vec F S1x128 .f32) (y3 : Vec F S1x128 .f32) (y4 : Vec F S1x128 .f32) (y : S2000x128.Idx) :
    ∃ pc ∈ (kernelRun1 c i arg1 harg1 arg2 harg2 arg3 harg3 arg4 harg4 arg5 harg5 arg6 harg6 y0 y1 y2 y3 y4).1, y ∈ pc.1.set :=
  View.cover_of_tiledL (kernelRun1 c i arg1 harg1 arg2 harg2 arg3 harg3 arg4 harg4 arg5 harg5 arg6 harg6 y0 y1 y2 y3 y4).1 S2000x128.size (by sl_kernel_rfl) y

/-- The run at a point's memrefs and input blocks. -/
abbrev r1 (c : Dev nD) (t : Fin cfg1.N) :=
  kernelRun1 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

/-- What the output's buffer holds after the body at point t. -/
def out1 (c : Dev nD) (t : Fin cfg1.N) : Vec F S2000x128 .f32 :=
  VO1_5.read (Elt F) (VO1_5.writes (Elt F) VO1_5.junk (r1 V c t).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1
  iintro ⟨HΦ, Ho, ⟨%d0, H0⟩, ⟨%d1, H1⟩, ⟨%d2, H2⟩, ⟨%d3, H3⟩, ⟨%d4, H4⟩, ⟨%d5, H5⟩⟩
  iapply ((r1 V c t).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Pieces.lean ====
/-
  What each control case's stores leave, read back as values: the big output's buffer holds the tile of the residual
  output (one function of the six loaded blocks); an accumulator holds its previous contents — zero at the first
  point, where the reset precedes the load — with the tile's column sums added; at the last point the two small
  outputs hold the accumulators' final contents. Region 1's output buffer holds the normalised tile.
-/
import proofs.«174337_j74947179316231_2_alg».proof.Proof.KernelIdeal.Frame0
import proofs.«174337_j74947179316231_2_alg».proof.Proof.KernelIdeal.Frame1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## Region 0, case by case -/

theorem big_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1) = k0_pay5 x0 x1 x2 x3 x4 x5 := by
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  try sl_unfold_words
  first | rw [View.canon_unit_zero hz2] | rw [View.canon_cons_unit_zero (S := S2000x128) hz2]
  try rw [View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S1x128) hz2]

theorem s0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1) = k0_pay1 (k0_pay6 x0 x1 x2 x3 x4 x5 (k0_pay3 (F := F))) := by
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  try sl_unfold_words
  first | rw [View.canon_unit_zero hz2] | rw [View.canon_cons_unit_zero (S := S1x128) hz2]
  try rw [View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S1x128) hz2]

theorem s1_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) :
    VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1) = k0_pay2 (k0_pay5 x0 x1 x2 x3 x4 x5) (k0_pay4 (F := F)) := by
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  try sl_unfold_words
  first | rw [View.canon_unit_zero hz2] | rw [View.canon_cons_unit_zero (S := S1x128) hz2]
  try rw [View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S1x128) hz2]

theorem big_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1) = k0_pay5 x0 x1 x2 x3 x4 x5 := by
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  try sl_unfold_words
  first | rw [View.canon_unit_zero hz2] | rw [View.canon_cons_unit_zero (S := S2000x128) hz2]
  try rw [View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S1x128) hz2]

theorem s0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1) = k0_pay1 (k0_pay6 x0 x1 x2 x3 x4 x5 xs0) := by
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  try sl_unfold_words
  first | rw [View.canon_unit_zero hz2] | rw [View.canon_cons_unit_zero (S := S1x128) hz2]
  try rw [View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S1x128) hz2]

theorem s1_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1) = k0_pay2 (k0_pay5 x0 x1 x2 x3 x4 x5) xs1 := by
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  try sl_unfold_words
  first | rw [View.canon_unit_zero hz2] | rw [View.canon_cons_unit_zero (S := S1x128) hz2]
  try rw [View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S1x128) hz2]

theorem big_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1) = k0_pay5 x0 x1 x2 x3 x4 x5 := by
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  first | rw [View.canon_unit_zero hz2] | rw [View.canon_cons_unit_zero (S := S2000x128) hz2]
  try rw [View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S1x128) hz2]

theorem o7_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1) = k0_pay1 (k0_pay6 x0 x1 x2 x3 x4 x5 xs0) := by
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  first | rw [View.canon_unit_zero hz2] | rw [View.canon_cons_unit_zero (S := S1x128) hz2]
  try rw [View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S1x128) hz2]

theorem o8_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1) = k0_pay2 (k0_pay5 x0 x1 x2 x3 x4 x5) xs1 := by
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  first | rw [View.canon_unit_zero hz2] | rw [View.canon_cons_unit_zero (S := S1x128) hz2]
  try rw [View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S1x128) hz2]

theorem s0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1) = k0_pay1 (k0_pay6 x0 x1 x2 x3 x4 x5 xs0) := by
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  first | rw [View.canon_unit_zero hz2] | rw [View.canon_cons_unit_zero (S := S1x128) hz2]
  try rw [View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S1x128) hz2]

theorem s1_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (xs0 xs1 : Vec F S1x128 .f32) :
    VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1) = k0_pay2 (k0_pay5 x0 x1 x2 x3 x4 x5) xs1 := by
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  try sl_unfold_words
  first | rw [View.canon_unit_zero hz2] | rw [View.canon_cons_unit_zero (S := S1x128) hz2]
  try rw [View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S1x128) hz2]

/-! ## Region 1 -/

theorem out1_piece (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (y0 : Vec F S2000x128 .f32) (y1 : Vec F S1x128 .f32) (y2 : Vec F S1x128 .f32) (y3 : Vec F S1x128 .f32) (y4 : Vec F S1x128 .f32) :
    VO1_5.read (Elt F) (VO1_5.writes (Elt F) VO1_5.junk (kernelRun1 c i arg1 harg1 arg2 harg2 arg3 harg3 arg4 harg4 arg5 harg5 arg6 harg6 y0 y1 y2 y3 y4).1) = k1_pay1 y2 y0 y1 y3 y4 := by
  rw [View.read_writes_eq_canon _ _ _ (cover1_5 c i arg1 harg1 arg2 harg2 arg3 harg3 arg4 harg4 arg5 harg5 arg6 harg6 y0 y1 y2 y3 y4)]
  unfold kernelRun1
  dsimp only
  try sl_unfold_words
  rw [View.canon_unit_zero hz2]
  simp only [View.readAt_eq_ld, harg1.read_unread, harg2.read_unread, harg3.read_unread, harg4.read_unread, harg5.read_unread, View.ld_unit_zero (S := S2000x128) hz2, View.ld_unit_zero (S := S128x128) hz2, View.ld_unit_zero (S := S1x128) hz2]

/-! ## At a grid point -/

variable (V : (c : Dev nD) → (b : Ref sig .tc) → Buf (Elt F) ((c : Thread nD τ).loc b))

/-- The residual tile at point t: the body's one big payload of the point's six input blocks. -/
def tile0 (c : Dev nD) (t : Fin cfg0.N) : FVec F S2000x128 .f32 :=
  k0_pay5 (iblk0 V c 0 t) (iblk0 V c 1 t) (iblk0 V c 2 t) (iblk0 V c 3 t) (iblk0 V c 4 t) (iblk0 V c 5 t)

theorem tupA_eq (c : Dev nD) (t : Fin cfg0.N) (h0 : cond0_0 (grid0.coords t)) (h1 : ¬cond0_1 (grid0.coords t)) :
    tupA V c t h0 h1 = (tile0 V c t, VO0_7.read (Elt F) VO0_7.junk, VO0_8.read (Elt F) VO0_8.junk,
      k0_pay1 (k0_pay6 (iblk0 V c 0 t) (iblk0 V c 1 t) (iblk0 V c 2 t) (iblk0 V c 3 t) (iblk0 V c 4 t) (iblk0 V c 5 t) (k0_pay3 (F := F))),
      k0_pay2 (tile0 V c t) (k0_pay4 (F := F))) := by
  unfold tupA tile0
  rw [big_A, s0_A, s1_A]

theorem tupB_eq (c : Dev nD) (t : Fin cfg0.N) (h0 : ¬cond0_0 (grid0.coords t)) (h1 : ¬cond0_1 (grid0.coords t)) (xs0 xs1 : Vec F S1x128 .f32) :
    tupB V c t h0 h1 xs0 xs1 = (tile0 V c t, VO0_7.read (Elt F) VO0_7.junk, VO0_8.read (Elt F) VO0_8.junk,
      k0_pay1 (k0_pay6 (iblk0 V c 0 t) (iblk0 V c 1 t) (iblk0 V c 2 t) (iblk0 V c 3 t) (iblk0 V c 4 t) (iblk0 V c 5 t) xs0),
      k0_pay2 (tile0 V c t) xs1) := by
  unfold tupB tile0
  rw [big_B, s0_B, s1_B]

set_option maxHeartbeats 2000000 in
theorem tupC_eq (c : Dev nD) (t : Fin cfg0.N) (h0 : ¬cond0_0 (grid0.coords t)) (h1 : cond0_1 (grid0.coords t)) (xs0 xs1 : Vec F S1x128 .f32) :
    tupC V c t h0 h1 xs0 xs1 = (tile0 V c t,
      k0_pay1 (k0_pay6 (iblk0 V c 0 t) (iblk0 V c 1 t) (iblk0 V c 2 t) (iblk0 V c 3 t) (iblk0 V c 4 t) (iblk0 V c 5 t) xs0),
      k0_pay2 (tile0 V c t) xs1,
      k0_pay1 (k0_pay6 (iblk0 V c 0 t) (iblk0 V c 1 t) (iblk0 V c 2 t) (iblk0 V c 3 t) (iblk0 V c 4 t) (iblk0 V c 5 t) xs0),
      k0_pay2 (tile0 V c t) xs1) := by
  unfold tupC tile0
  rw [big_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) xs0 xs1]
  rw [o7_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) xs0 xs1]
  rw [o8_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) xs0 xs1]
  rw [s0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) xs0 xs1]
  rw [s1_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) h0 h1 (iblk0 V c 0 t) (iblk0 V c 1 t) (iblk0 V c 2 t) (iblk0 V c 3 t) (iblk0 V c 4 t) (iblk0 V c 5 t) xs0 xs1]

theorem out1_eq (c : Dev nD) (t : Fin cfg1.N) :
    out1 V c t = k1_pay1 (iblk1 V c 2 t) (iblk1 V c 0 t) (iblk1 V c 1 t) (iblk1 V c 3 t) (iblk1 V c 4 t) := by
  unfold out1
  rw [out1_piece]

end Cert.KernelIdeal.Hand

end
-- ==== Proof.KernelIdeal.Blocks0.lean ====
/-
  Region 0, from blocks to arrays.

  The region walks 25 grid points. At point t the two tiled inputs' blocks are rows 2000·t … 2000·t + 1999 of their
  arrays, the four whole-array inputs' blocks are the arrays themselves, the tiled output's block is rows
  2000·t … 2000·t + 1999 of its array and is written back at every point, and the two one-row outputs' block is
  the whole array, written back at the last point only. So after the region the tiled output holds, at row r, what
  point r / 2000 left at row r % 2000 of its buffer, each one-row output holds what the last point left in its
  buffer, and the inputs' arrays are as the region found them.
-/
import proofs.«174337_j74947179316231_2_alg».proof.Proof.KernelIdeal.Frame0
import Idealize.ShloMosaic.Lib.Pipeline.Value
import Idealize.ShloMosaic.Lib.Pipeline.Cells
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The printed index maps over the 25 grid points: the tiled windows' block index is (t, 0), the others' (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## The input blocks read at an index -/

/-- Window 0's block at point t is rows 2000·t … 2000·t + 1999 of the first argument. -/
theorem iblk0_0_apply (c : Dev nD) (t : Fin cfg0.N) (p : Fin 2000) (j : Fin 128) :
    (iblk0 V c 0 t : Vec F S2000x128 .f32) (ix2 p j)
      = (V c main_arg0 : S50000x128.Idx → Elt F .f32)
          (ix2 (⟨2000 * t.val + p.val, by have := lt25 t.isLt; omega⟩ : Fin 50000) j) := by
  obtain ⟨⟨h0, h1⟩, -⟩ := idx0 t
  unfold iblk0
  rw [View.read_apply]
  show V c main_arg0 _ = V c main_arg0 _
  congr 1
  funext a
  apply Fin.ext
  match a with
  | ⟨0, _⟩ => show win0_0.index t (0 : Fin 2) * 2000 + 1 * p.val = 2000 * t.val + p.val; rw [h0]; omega
  | ⟨1, _⟩ => show win0_0.index t (1 : Fin 2) * 128 + 1 * j.val = j.val; rw [h1]; omega

/-- Window 1's block at point t is rows 2000·t … 2000·t + 1999 of the aggregated messages. -/
theorem iblk0_1_apply (c : Dev nD) (t : Fin cfg0.N) (p : Fin 2000) (j : Fin 128) :
    (iblk0 V c 1 t : Vec F S2000x128 .f32) (ix2 p j)
      = (V c main_v15 : S50000x128.Idx → Elt F .f32)
          (ix2 (⟨2000 * t.val + p.val, by have := lt25 t.isLt; omega⟩ : Fin 50000) j) := by
  obtain ⟨-, ⟨h0, h1⟩, -⟩ := idx0 t
  unfold iblk0
  rw [View.read_apply]
  show V c main_v15 _ = V c main_v15 _
  congr 1
  funext a
  apply Fin.ext
  match a with
  | ⟨0, _⟩ => show win0_1.index t (0 : Fin 2) * 2000 + 1 * p.val = 2000 * t.val + p.val; rw [h0]; omega
  | ⟨1, _⟩ => show win0_1.index t (1 : Fin 2) * 128 + 1 * j.val = j.val; rw [h1]; omega

/-- Window 2's block is the first weight matrix. -/
theorem iblk0_2_apply (c : Dev nD) (t : Fin cfg0.N) (l k : Fin 128) :
    (iblk0 V c 2 t : Vec F S128x128 .f32) (ix2 l k) = (V c main_arg3 : S128x128.Idx → Elt F .f32) (ix2 l k) := by
  obtain ⟨-, -, ⟨h0, h1⟩, -⟩ := idx0 t
  unfold iblk0
  rw [View.read_apply]
  show V c main_arg3 _ = V c main_arg3 _
  congr 1
  funext a
  apply Fin.ext
  match a with
  | ⟨0, _⟩ => show win0_2.index t (0 : Fin 2) * 128 + 1 * l.val = l.val; rw [h0]; omega
  | ⟨1, _⟩ => show win0_2.index t (1 : Fin 2) * 128 + 1 * k.val = k.val; rw [h1]; omega

/-- Window 3's block is the first bias, as one row. -/
theorem iblk0_3_apply (c : Dev nD) (t : Fin cfg0.N) (k : Fin 128) :
    (iblk0 V c 3 t : Vec F S1x128 .f32) (ix2 (0 : Fin 1) k)
      = (V c main_v16 : S1x128.Idx → Elt F .f32) (ix2 (0 : Fin 1) k) := by
  obtain ⟨-, -, -, ⟨h0, h1⟩, -⟩ := idx0 t
  unfold iblk0
  rw [View.read_apply]
  show V c main_v16 _ = V c main_v16 _
  congr 1
  funext a
  apply Fin.ext
  match a with
  | ⟨0, _⟩ => show win0_3.index t (0 : Fin 2) * 1 + 1 * 0 = 0; rw [h0]
  | ⟨1, _⟩ => show win0_3.index t (1 : Fin 2) * 128 + 1 * k.val = k.val; rw [h1]; omega

/-- Window 4's block is the second weight matrix. -/
theorem iblk0_4_apply (c : Dev nD) (t : Fin cfg0.N) (l k : Fin 128) :
    (iblk0 V c 4 t : Vec F S128x128 .f32) (ix2 l k) = (V c main_arg5 : S128x128.Idx → Elt F .f32) (ix2 l k) := by
  obtain ⟨-, -, -, -, ⟨h0, h1⟩, -⟩ := idx0 t
  unfold iblk0
  rw [View.read_apply]
  show V c main_arg5 _ = V c main_arg5 _
  congr 1
  funext a
  apply Fin.ext
  match a with
  | ⟨0, _⟩ => show win0_4.index t (0 : Fin 2) * 128 + 1 * l.val = l.val; rw [h0]; omega
  | ⟨1, _⟩ => show win0_4.index t (1 : Fin 2) * 128 + 1 * k.val = k.val; rw [h1]; omega

/-- Window 5's block is the second bias, as one row. -/
theorem iblk0_5_apply (c : Dev nD) (t : Fin cfg0.N) (k : Fin 128) :
    (iblk0 V c 5 t : Vec F S1x128 .f32) (ix2 (0 : Fin 1) k)
      = (V c main_v17 : S1x128.Idx → Elt F .f32) (ix2 (0 : Fin 1) k) := by
  obtain ⟨-, -, -, -, -, ⟨h0, h1⟩, -⟩ := idx0 t
  unfold iblk0
  rw [View.read_apply]
  show V c main_v17 _ = V c main_v17 _
  congr 1
  funext a
  apply Fin.ext
  match a with
  | ⟨0, _⟩ => show win0_5.index t (0 : Fin 2) * 1 + 1 * 0 = 0; rw [h0]
  | ⟨1, _⟩ => show win0_5.index t (1 : Fin 2) * 128 + 1 * k.val = k.val; rw [h1]; omega

/-! ## The inputs' arrays are never written -/

theorem arr0_in_0 (c : Dev nD) : (dat0 V c).arrAt 0 cfg0.N = V c main_arg0 :=
  ((dat0 V c).arrAt_in 0 rfl cfg0.N).trans (A_eq0 V c 0)
theorem arr0_in_1 (c : Dev nD) : (dat0 V c).arrAt 1 cfg0.N = V c main_v15 :=
  ((dat0 V c).arrAt_in 1 rfl cfg0.N).trans (A_eq0 V c 1)
theorem arr0_in_2 (c : Dev nD) : (dat0 V c).arrAt 2 cfg0.N = V c main_arg3 :=
  ((dat0 V c).arrAt_in 2 rfl cfg0.N).trans (A_eq0 V c 2)
theorem arr0_in_3 (c : Dev nD) : (dat0 V c).arrAt 3 cfg0.N = V c main_v16 :=
  ((dat0 V c).arrAt_in 3 rfl cfg0.N).trans (A_eq0 V c 3)
theorem arr0_in_4 (c : Dev nD) : (dat0 V c).arrAt 4 cfg0.N = V c main_arg5 :=
  ((dat0 V c).arrAt_in 4 rfl cfg0.N).trans (A_eq0 V c 4)
theorem arr0_in_5 (c : Dev nD) : (dat0 V c).arrAt 5 cfg0.N = V c main_v17 :=
  ((dat0 V c).arrAt_in 5 rfl cfg0.N).trans (A_eq0 V c 5)

/-- An input window's array after the region is the array as the region found it. -/
theorem arr0_in (c : Dev nD) (w : Fin cfg0.W) (hw : w.val < 6) :
    (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨n + 6, _⟩, h => exact absurd h (by simp)
  exact ((dat0 V c).arrAt_in w hin cfg0.N).trans (A_eq0 V c w)

/-! ## The output arrays after the region -/

theorem lt_cfg0N {n : ℕ} (h : n < 25) : n < cfg0.N := lt_of_lt_of_eq h (show cfg0.N = 25 from N_0).symm

/-- What the buffers hold after a point depends on the point's number only. -/
theorem outsAt0_congr (c : Dev nD) {n n' : ℕ} (h : n = n') (hn : n < cfg0.N) (hn' : n' < cfg0.N) :
    outsAt0 V c n hn = outsAt0 V c n' hn' := by
  subst h; rfl

/-- The tiled output, assembled: at row r, what point r / 2000 left at row r % 2000 of the output's buffer. -/
def tiles0_6 (c : Dev nD) (r : Fin 50000) (j : Fin 128) : Elt F .f32 :=
  (outsAt0 V c (r.val / 2000) (lt_cfg0N (by have := r.isLt; omega))).1
    (ix2 (⟨r.val % 2000, Nat.mod_lt _ (by norm_num)⟩ : Fin 2000) j)

/-- Row 2000·n + p of the assembled output is row p of what point n left. -/
theorem tiles0_6_at (c : Dev nD) (n : ℕ) (hn : n < cfg0.N) (p : Fin 2000) (j : Fin 128)
    (r : Fin 50000) (j' : Fin 128) (hr : r.val = 2000 * n + p.val) (hj : j'.val = j.val) :
    tiles0_6 V c r j' = (outsAt0 V c n hn).1 (ix2 p j) := by
  unfold tiles0_6
  have hq : r.val / 2000 = n := by have := p.isLt; omega
  have hm : r.val % 2000 = p.val := by have := p.isLt; omega
  have key : ∀ (q : ℕ) (hq' : q < cfg0.N) (m : Fin 2000) (jj : Fin 128), q = n → m = p → jj = j →
      (outsAt0 V c q hq').1 (ix2 m jj) = (outsAt0 V c n hn).1 (ix2 p j) := by
    intro q hq' m jj e1 e2 e3; subst e1; subst e2; subst e3; rfl
  exact key _ _ _ _ hq (Fin.ext hm) (Fin.ext hj)

/-- The assembled output as an array. -/
def G0_6 (c : Dev nD) : S50000x128.Idx → Elt F .f32 := fun i => tiles0_6 V c (i 0) (i 1)

/-- What point t writes back of the tiled output is block t of the assembled output. -/
theorem flushed0_6_eq (c : Dev nD) (t : Fin cfg0.N) :
    (dat0 V c).flushed 6 t = ((cfg0.win 6).blk t).view.read (Elt F) (G0_6 V c) := by
  obtain ⟨-, -, -, -, -, -, ⟨h0, h1⟩, -⟩ := idx0 t
  show (cfg0.win 6).cut (grid0.coords t) ((dat0 V c).after 6 t) = _
  rw [after0_6]
  funext y
  obtain ⟨p, j, rfl⟩ : ∃ (p : Fin 2000) (j : Fin 128), y = ix2 p j := ⟨y 0, y 1, eq_ix2 y⟩
  rw [View.read_apply]
  have hx : (cfg0.win 6).xinj (grid0.coords t) (ix2 p j) = ix2 p j :=
    funext fun a => Fin.ext (by match a with | ⟨0, _⟩ => rfl | ⟨1, _⟩ => rfl)
  show (outsAt0 V c t.val t.isLt).1 ((cfg0.win 6).xinj (grid0.coords t) (ix2 p j)) = _
  rw [hx]
  refine (tiles0_6_at V c t.val t.isLt p j _ _ ?_ ?_).symm
  · show win0_6.index t (0 : Fin 2) * 2000 + 1 * p.val = 2000 * t.val + p.val
    rw [h0]; omega
  · show win0_6.index t (1 : Fin 2) * 128 + 1 * j.val = j.val
    rw [h1]; omega

/-- An index of the tiled output's array is in point t's block iff each coordinate is in the block's range. -/
theorem mem_blk0_6 (t : Fin cfg0.N) (i : S50000x128.Idx) :
    i ∈ ((cfg0.win 6).blk t).view.set
      ↔ ∀ a : Fin 2, win0_6.index t a * S2000x128.size a ≤ (i a).val
          ∧ (i a).val < win0_6.index t a * S2000x128.size a + S2000x128.size a := by
  show i ∈ ((View.whole main_v18_0).slice (win0_6.rect t)).set ↔ _
  rw [View.set_slice_whole, Rect.mem_set_unit]
  exact Iff.rfl

/-- THE TILED OUTPUT after the region, at (r, j). -/
theorem arr0_6_apply (c : Dev nD) (r : Fin 50000) (j : Fin 128) :
    ((dat0 V c).arrAt 6 cfg0.N : S50000x128.Idx → Elt F .f32) (ix2 r j)
      = (outsAt0 V c (r.val / 2000) (lt_cfg0N (by have := r.isLt; omega))).1
          (ix2 (⟨r.val % 2000, Nat.mod_lt _ (by norm_num)⟩ : Fin 2000) j) := by
  have hfin : (dat0 V c).arrAt 6 cfg0.N = G0_6 V c :=
    (dat0 V c).arrAt_eq_of_cover 6 (G0_6 V c) (fun t _ => flushed0_6_eq V c t) fun i => by
      have hi0 : (i 0).val < 50000 := (i 0).isLt
      have hi1 : (i 1).val < 128 := (i 1).isLt
      refine ⟨⟨(i 0).val / 2000, lt_cfg0N (by omega)⟩, flush0_6 _, ?_⟩
      rw [mem_blk0_6]
      obtain ⟨-, -, -, -, -, -, ⟨h0, h1⟩, -⟩ := idx0 ⟨(i 0).val / 2000, lt_cfg0N (by omega)⟩
      intro a
      match a with
      | ⟨0, _⟩ =>
        show win0_6.index _ (0 : Fin 2) * 2000 ≤ (i 0).val ∧ (i 0).val < win0_6.index _ (0 : Fin 2) * 2000 + 2000
        rw [h0]; dsimp only; omega
      | ⟨1, _⟩ =>
        show win0_6.index _ (1 : Fin 2) * 128 ≤ (i 1).val ∧ (i 1).val < win0_6.index _ (1 : Fin 2) * 128 + 128
        rw [h1]; omega
  rw [hfin]
  rfl

/-- What the buffers hold after the last point. -/
def last0 (c : Dev nD) : Outs0 F := outsAt0 V c 24 (lt_cfg0N (by norm_num))

theorem last0_eq (c : Dev nD) : last0 V c = outsAt0 V c 24 (lt_cfg0N (by norm_num)) := by
  unfold last0; rfl

/-- An index of the first one-row output's array is in point t's block iff each coordinate is in the block's range. -/
theorem mem_blk0_7 (t : Fin cfg0.N) (i : S1x128.Idx) :
    i ∈ ((cfg0.win 7).blk t).view.set
      ↔ ∀ a : Fin 2, win0_7.index t a * S1x128.size a ≤ (i a).val
          ∧ (i a).val < win0_7.index t a * S1x128.size a + S1x128.size a := by
  show i ∈ ((View.whole main_v18_1).slice (win0_7.rect t)).set ↔ _
  rw [View.set_slice_whole, Rect.mem_set_unit]
  exact Iff.rfl

/-- The block of the first one-row output is the whole row: moving a buffer's contents out through it, or reading
    an array through it, gives the same row. -/
theorem cut0_7_eq_read (t : Fin cfg0.N) (X : Vec F S1x128 .f32) :
    (cfg0.win 7).cut (grid0.coords t) X = ((cfg0.win 7).blk t).view.read (Elt F) X := by
  obtain ⟨-, -, -, -, -, -, -, ⟨h0, h1⟩, -⟩ := idx0 t
  funext y
  rw [View.read_apply]
  show X ((cfg0.win 7).xinj (grid0.coords t) y) = X _
  congr 1
  funext a
  apply Fin.ext
  match a with
  | ⟨0, _⟩ => show (y 0).val = win0_7.index t (0 : Fin 2) * 1 + 1 * (y 0).val; rw [h0]; omega
  | ⟨1, _⟩ => show (y 1).val = win0_7.index t (1 : Fin 2) * 128 + 1 * (y 1).val; rw [h1]; omega

/-- The one write-back of the first one-row output, at the last point, writes what that point left in its buffer. -/
theorem flushed0_7_eq (c : Dev nD) (t : Fin cfg0.N) (hf : (cfg0.win 7).flush t = true) :
    (dat0 V c).flushed 7 t = ((cfg0.win 7).blk t).view.read (Elt F) (last0 V c).2.1 := by
  have ht : t.val = 24 := by have := (flush0_7 t).mp hf; have := lt25 t.isLt; omega
  show (cfg0.win 7).cut (grid0.coords t) ((dat0 V c).after 7 t) = _
  rw [after0_7, outsAt0_congr V c ht t.isLt (lt_cfg0N (by norm_num)), ← last0_eq]
  exact cut0_7_eq_read t _

/-- THE FIRST ONE-ROW OUTPUT after the region: what the last point left in its buffer. -/
theorem arr0_7_eq (c : Dev nD) : (dat0 V c).arrAt 7 cfg0.N = (last0 V c).2.1 :=
  (dat0 V c).arrAt_eq_of_cover 7 _ (flushed0_7_eq V c) fun i => by
    have hi0 : (i 0).val < 1 := (i 0).isLt
    have hi1 : (i 1).val < 128 := (i 1).isLt
    refine ⟨⟨24, lt_cfg0N (by norm_num)⟩, (flush0_7 _).mpr (by norm_num), ?_⟩
    rw [mem_blk0_7]
    obtain ⟨-, -, -, -, -, -, -, ⟨h0, h1⟩, -⟩ := idx0 ⟨24, lt_cfg0N (by norm_num)⟩
    intro a
    match a with
    | ⟨0, _⟩ =>
      show win0_7.index _ (0 : Fin 2) * 1 ≤ (i 0).val ∧ (i 0).val < win0_7.index _ (0 : Fin 2) * 1 + 1
      rw [h0]; omega
    | ⟨1, _⟩ =>
      show win0_7.index _ (1 : Fin 2) * 128 ≤ (i 1).val ∧ (i 1).val < win0_7.index _ (1 : Fin 2) * 128 + 128
      rw [h1]; omega

theorem arr0_7_apply (c : Dev nD) (j : Fin 128) :
    ((dat0 V c).arrAt 7 cfg0.N : S1x128.Idx → Elt F .f32) (ix2 (0 : Fin 1) j)
      = (outsAt0 V c 24 (lt_cfg0N (by norm_num))).2.1 (ix2 (0 : Fin 1) j) := by
  rw [arr0_7_eq, last0_eq]

/-- An index of the second one-row output's array is in point t's block iff each coordinate is in the block's range. -/
theorem mem_blk0_8 (t : Fin cfg0.N) (i : S1x128.Idx) :
    i ∈ ((cfg0.win 8).blk t).view.set
      ↔ ∀ a : Fin 2, win0_8.index t a * S1x128.size a ≤ (i a).val
          ∧ (i a).val < win0_8.index t a * S1x128.size a + S1x128.size a := by
  show i ∈ ((View.whole main_v18_2).slice (win0_8.rect t)).set ↔ _
  rw [View.set_slice_whole, Rect.mem_set_unit]
  exact Iff.rfl

/-- The block of the second one-row output is the whole row: moving a buffer's contents out through it, or reading
    an array through it, gives the same row. -/
theorem cut0_8_eq_read (t : Fin cfg0.N) (X : Vec F S1x128 .f32) :
    (cfg0.win 8).cut (grid0.coords t) X = ((cfg0.win 8).blk t).view.read (Elt F) X := by
  obtain ⟨-, -, -, -, -, -, -, -, ⟨h0, h1⟩⟩ := idx0 t
  funext y
  rw [View.read_apply]
  show X ((cfg0.win 8).xinj (grid0.coords t) y) = X _
  congr 1
  funext a
  apply Fin.ext
  match a with
  | ⟨0, _⟩ => show (y 0).val = win0_8.index t (0 : Fin 2) * 1 + 1 * (y 0).val; rw [h0]; omega
  | ⟨1, _⟩ => show (y 1).val = win0_8.index t (1 : Fin 2) * 128 + 1 * (y 1).val; rw [h1]; omega

/-- The one write-back of the second one-row output, at the last point, writes what that point left in its buffer. -/
theorem flushed0_8_eq (c : Dev nD) (t : Fin cfg0.N) (hf : (cfg0.win 8).flush t = true) :
    (dat0 V c).flushed 8 t = ((cfg0.win 8).blk t).view.read (Elt F) (last0 V c).2.2.1 := by
  have ht : t.val = 24 := by have := (flush0_8 t).mp hf; have := lt25 t.isLt; omega
  show (cfg0.win 8).cut (grid0.coords t) ((dat0 V c).after 8 t) = _
  rw [after0_8, outsAt0_congr V c ht t.isLt (lt_cfg0N (by norm_num)), ← last0_eq]
  exact cut0_8_eq_read t _

/-- THE SECOND ONE-ROW OUTPUT after the region: what the last point left in its buffer. -/
theorem arr0_8_eq (c : Dev nD) : (dat0 V c).arrAt 8 cfg0.N = (last0 V c).2.2.1 :=
  (dat0 V c).arrAt_eq_of_cover 8 _ (flushed0_8_eq V c) fun i => by
    have hi0 : (i 0).val < 1 := (i 0).isLt
    have hi1 : (i 1).val < 128 := (i 1).isLt
    refine ⟨⟨24, lt_cfg0N (by norm_num)⟩, (flush0_8 _).mpr (by norm_num), ?_⟩
    rw [mem_blk0_8]
    obtain ⟨-, -, -, -, -, -, -, -, ⟨h0, h1⟩⟩ := idx0 ⟨24, lt_cfg0N (by norm_num)⟩
    intro a
    match a with
    | ⟨0, _⟩ =>
      show win0_8.index _ (0 : Fin 2) * 1 ≤ (i 0).val ∧ (i 0).val < win0_8.index _ (0 : Fin 2) * 1 + 1
      rw [h0]; omega
    | ⟨1, _⟩ =>
      show win0_8.index _ (1 : Fin 2) * 128 ≤ (i 1).val ∧ (i 1).val < win0_8.index _ (1 : Fin 2) * 128 + 128
      rw [h1]; omega

theorem arr0_8_apply (c : Dev nD) (j : Fin 128) :
    ((dat0 V c).arrAt 8 cfg0.N : S1x128.Idx → Elt F .f32) (ix2 (0 : Fin 1) j)
      = (outsAt0 V c 24 (lt_cfg0N (by norm_num))).2.2.1 (ix2 (0 : Fin 1) j) := by
  rw [arr0_8_eq, last0_eq]

end Cert.KernelIdeal.Hand

end
-- ==== Proof.Spec.lean ====
/-
  The batch-normalised graph layer, as plain formulas over the extended reals.

  For a node-feature matrix x (50000 × 128), an aggregated-message matrix agg of the same size, two weight
  matrices W1, W2 (128 × 128) with biases b1, b2, and a scale gamma and shift beta per feature:

    H r j      = x r j + ( Σ_k max( Σ_l (x r l + agg r l) · W1 l k + b1 k , 0 ) · W2 k j + b2 j )
    mean j     = ( Σ_r H r j ) / n                                   (n the f32 word of 50000)
    varK j     = max( ( Σ_r H r j · H r j ) / n − mean j · mean j , 0 )   (mean of squares minus squared mean, clamped)
    varR j     = ( Σ_r (H r j − mean j) · (H r j − mean j) ) / n          (mean of the squared deviations)
    out var r j = (H r j − mean j) · rsqrt( var j + eps ) · gamma j + beta j

  The two variances agree when every H r j is a real number (the variance law); on the extended reals
  they differ at infinities, so that agreement is where finiteness of the inputs is used.
-/
import Idealize.ShloMosaic.PureOps.Ideal

noncomputable section

namespace Cert.Spec

open Idealize.ShloMosaic

/-- An a × b matrix over the extended reals. -/
abbrev Mat (a b : ℕ) : Type := Fin a → Fin b → EReal

/-- The number of rows, as the f32 word the programs divide by (50000.0). -/
def nN : EReal := Ideal.ofBits .f32 0x47435000#32
/-- The stabiliser added to the variance (the f32 word nearest 1e-5). -/
def eps : EReal := Ideal.ofBits .f32 0x3727C5AC#32

variable (x agg : Mat 50000 128) (W1 W2 : Mat 128 128) (b1 b2 gamma beta : Fin 128 → EReal)

/-- The hidden layer: relu of the first affine map applied to x + agg. -/
def hid (r : Fin 50000) (k : Fin 128) : EReal :=
  max ((∑ l : Fin 128, (x r l + agg r l) * W1 l k) + b1 k) 0

/-- The residual output of the two-layer perceptron. -/
def H (r : Fin 50000) (j : Fin 128) : EReal :=
  x r j + ((∑ k : Fin 128, hid x agg W1 b1 r k * W2 k j) + b2 j)

/-- Column sums of H and of its squares. -/
def colSum (j : Fin 128) : EReal := ∑ r : Fin 50000, H x agg W1 W2 b1 b2 r j
def colSumSq (j : Fin 128) : EReal := ∑ r : Fin 50000, H x agg W1 W2 b1 b2 r j * H x agg W1 W2 b1 b2 r j

/-- The column mean. -/
def mean (j : Fin 128) : EReal := Ideal.div (colSum x agg W1 W2 b1 b2 j) nN

/-- The variance as mean of squares minus squared mean, clamped at zero. -/
def varK (j : Fin 128) : EReal :=
  max (Ideal.div (colSumSq x agg W1 W2 b1 b2 j) nN - mean x agg W1 W2 b1 b2 j * mean x agg W1 W2 b1 b2 j) 0

/-- The variance as mean of the squared deviations from the mean. -/
def varR (j : Fin 128) : EReal :=
  Ideal.div (∑ r : Fin 50000, (H x agg W1 W2 b1 b2 r j - mean x agg W1 W2 b1 b2 j)
    * (H x agg W1 W2 b1 b2 r j - mean x agg W1 W2 b1 b2 j)) nN

/-- The normalised output for a given variance. -/
def outWith (var : Fin 128 → EReal) (r : Fin 50000) (j : Fin 128) : EReal :=
  (H x agg W1 W2 b1 b2 r j - mean x agg W1 W2 b1 b2 j) * Ideal.rsqrt (var j + eps) * gamma j + beta j

/-- With the clamped difference-of-means variance. -/
def outK : Mat 50000 128 := outWith x agg W1 W2 b1 b2 gamma beta (varK x agg W1 W2 b1 b2)
/-- With the mean-of-squared-deviations variance. -/
def outR : Mat 50000 128 := outWith x agg W1 W2 b1 b2 gamma beta (varR x agg W1 W2 b1 b2)

/-- "Is a real number" for an extended real. -/
def IsReal (a : EReal) : Prop := ∃ r : ℝ, a = (r : EReal)

end Cert.Spec

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibColSum.lean ====
/-
  A column sum read at an index, over the extended reals.

  For an a × b matrix, a `vector.multi_reduction <add>` over the leading axis (the rows) from the neutral
  accumulator reads, at column q, the sum over the a rows p of the entries (p, q): what `jnp.sum(x, axis=0)` is,
  lane by lane, at the exact values.
-/
import Idealize.ShloMosaic.Lib.ValueIdx
import Idealize.ShloMosaic.PureOps.Ideal.Laws

noncomputable section

open scoped BigOperators

namespace Idealize.ShloMosaic.ColSum

open Idealize.ShloMosaic Idealize.ShloMosaic.ValueIdx

/-- The sum over the rows of an `[a, b]` array, at column `q`: the sum over `p` of the entries `(p, q)`. -/
theorem multiReduction_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = ∑ p : Fin a, src (ix2 p q)
  refine Finset.sum_congr rfl fun p _ => congrArg src ?_
  exact funext fun c => Fin.ext (by match c with | ⟨0, _⟩ => rfl | ⟨1, _⟩ => rfl)

end Idealize.ShloMosaic.ColSum

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.KernelIdeal.Payloads.lean ====
/-
  The tile computations of the two kernels, read entry by entry over the extended reals.

  The first kernel works on one tile of 2000 rows. From the tile's rows of x and of the aggregated messages it
  forms the residual layer: (x + agg) times the first weight matrix, plus the first bias, clamped below at zero,
  times the second weight matrix, plus the second bias, plus x. A change of float format is the identity on the
  extended reals, a matrix product into a zero accumulator reads at (p, j) as the sum over k of the products, a
  one-row bias spread over the tile reads its entry (0, j) in every row, and a reshape to the same shape is the
  identity: the entry (p, j) is the formula of the residual layer on row p of the tile. The kernel then adds to a
  running one-row sum the column sums of the tile, and to a second one the column sums of the squares.

  The second kernel normalises a tile: (H − mean) · rsqrt(var + eps) · gamma + beta, with the one-row mean,
  variance, scale and shift spread over the tile's rows.
-/
import proofs.«174337_j74947179316231_2_alg».proof.Proof.Gen.KernelIdeal.Skeleton
import proofs.«174337_j74947179316231_2_alg».proof.Proof.Spec
import proofs.«174337_j74947179316231_2_alg».proof.Proof.LibPlainDot
import proofs.«174337_j74947179316231_2_alg».proof.Proof.LibColSum
import proofs.«174337_j74947179316231_2_alg».proof.Proof.LibRowSpread
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The printed dimension numbers of the two products are those of a plain 2000×128 by 128×128 product. -/
theorem dot_eq_plain : dot_S2000x128_S128x128_S2000x128_1_0_0_1_n_n = DotDims.plain 2000 128 128 := rfl

/-- A product into the zero accumulator at (p, j): the sum over k of lhs (p, k) · rhs (k, j). -/
theorem mm_apply (lhs : FVec Ideal S2000x128 .bf16) (rhs : FVec Ideal S128x128 .bf16) (p : Fin 2000) (j : Fin 128) :
    matmul dot_S2000x128_S128x128_S2000x128_1_0_0_1_n_n none lhs rhs
        (constant (F := Ideal) S2000x128 .f32 0x00000000#32) (ix2 p j)
      = ∑ k : Fin 128, lhs (ix2 p k) * rhs (ix2 k j) := by
  rw [dot_eq_plain]
  exact PlainDot.matmul_zero_apply none lhs rhs p j

/-- A vector of 128 entries reshaped to one row reads its entry j at (0, j). -/
theorem row_of_vec (v : FVec Ideal S128 .f32) (h : S128.ShapeCasts S1x128) (j : Fin 128) :
    shapeCast S1x128 v h (ix2 (0 : Fin 1) j) = v (ix1 j) :=
  shapeCast_apply v h (ix2 (0 : Fin 1) j) (ix1 j) (by
    rw [Shape.rowMajor_val_two, Shape.rowMajor_val_one]
    show j.val = 0 * 128 + j.val
    omega)

/-- The sum over the tile's rows at column j. -/
theorem colsum_apply (src : FVec Ideal S2000x128 .f32) (h : S2000x128.Reduces [0] S128) (j : Fin 128) :
    multiReduction .add [0] S128 src 0x00000000#32 h (.inl rfl) rfl (ix1 j)
      = ∑ p : Fin 2000, src (ix2 p j) :=
  ColSum.multiReduction_rows_apply src 0x00000000#32 h (.inl rfl) rfl j

/-- The scalar zero word is zero. -/
theorem scalar_zero : Scalar.ofBits (F := Ideal) .f32 0x00000000#32 = (0 : EReal) := Ideal.ofBits_zero_f32

/-- The residual layer on one tile, at (p, j). -/
theorem pay5_apply (x0 x1 : Vec Ideal S2000x128 .f32) (w1 : Vec Ideal S128x128 .f32) (c1 : Vec Ideal S1x128 .f32)
    (w2 : Vec Ideal S128x128 .f32) (c2 : Vec Ideal S1x128 .f32) (p : Fin 2000) (j : Fin 128) :
    k0_pay5 (F := Ideal) x0 x1 w1 c1 w2 c2 (ix2 p j)
      = x0 (ix2 p j) + ((∑ k : Fin 128, max ((∑ l : Fin 128, (x0 (ix2 p l) + x1 (ix2 p l)) * w1 (ix2 l k))
          + c1 (ix2 (0 : Fin 1) k)) 0 * w2 (ix2 k j)) + c2 (ix2 (0 : Fin 1) j)) := by
  unfold k0_pay5
  simp only [addf_apply, mm_apply, RowSpread.rowBcast_apply, shapeCast_self, truncf_apply, maximumf_apply,
    broadcast_apply, scalar_zero]

/-- The running column sums after one tile: the sums so far plus the tile's column sums of the residual layer. -/
theorem pay6_apply (x0 x1 : Vec Ideal S2000x128 .f32) (w1 : Vec Ideal S128x128 .f32) (c1 : Vec Ideal S1x128 .f32)
    (w2 : Vec Ideal S128x128 .f32) (c2 : Vec Ideal S1x128 .f32) (v27 : Vec Ideal S1x128 .f32) (j : Fin 128) :
    k0_pay6 (F := Ideal) x0 x1 w1 c1 w2 c2 v27 (ix2 (0 : Fin 1) j)
      = v27 (ix2 (0 : Fin 1) j) + ∑ p : Fin 2000, k0_pay5 (F := Ideal) x0 x1 w1 c1 w2 c2 (ix2 p j) := by
  unfold k0_pay6
  exact congrArg (v27 (ix2 (0 : Fin 1) j) + ·) ((row_of_vec _ _ j).trans (colsum_apply _ _ j))

/-- The running column sums of squares after one tile: the sums so far plus the tile's column sums of the squares. -/
theorem pay2_apply (v25 : FVec Ideal S2000x128 .f32) (v34 : Vec Ideal S1x128 .f32) (j : Fin 128) :
    k0_pay2 (F := Ideal) v25 v34 (ix2 (0 : Fin 1) j)
      = v34 (ix2 (0 : Fin 1) j) + ∑ p : Fin 2000, v25 (ix2 p j) * v25 (ix2 p j) := by
  unfold k0_pay2
  rw [shapeCast_self]
  exact congrArg (v34 (ix2 (0 : Fin 1) j) + ·) ((row_of_vec _ _ j).trans (colsum_apply _ _ j))

/-- The row stored back is the row computed. -/
theorem pay1_eq (v30 : FVec Ideal S1x128 .f32) : k0_pay1 (F := Ideal) v30 = v30 := by
  unfold k0_pay1
  exact shapeCast_self _ _

/-- The first running sum starts at zero. -/
theorem pay3_apply (i : S1x128.Idx) : k0_pay3 (F := Ideal) i = 0 := by
  unfold k0_pay3
  rw [shapeCast_self]
  exact scalar_zero

/-- The second running sum starts at zero. -/
theorem pay4_apply (i : S1x128.Idx) : k0_pay4 (F := Ideal) i = 0 := by
  unfold k0_pay4
  rw [shapeCast_self]
  exact scalar_zero

/-- The normalised tile at (p, j): v0 the variance row, v5 the tile, v7 the mean row, v13 the scale, v17 the shift. -/
theorem k1_pay1_apply (v0 : Vec Ideal S1x128 .f32) (v5 : Vec Ideal S2000x128 .f32) (v7 v13 v17 : Vec Ideal S1x128 .f32)
    (p : Fin 2000) (j : Fin 128) :
    k1_pay1 (F := Ideal) v0 v5 v7 v13 v17 (ix2 p j)
      = (v5 (ix2 p j) - v7 (ix2 (0 : Fin 1) j)) * Ideal.rsqrt (v0 (ix2 (0 : Fin 1) j) + Cert.Spec.eps)
          * v13 (ix2 (0 : Fin 1) j) + v17 (ix2 (0 : Fin 1) j) := by
  unfold k1_pay1 Cert.Spec.eps
  simp only [addf_apply, mulf_apply, subf_apply, RowSpread.rowBcast_apply, shapeCast_self]
  rfl

end Cert.KernelIdeal.Hand

end
-- ==== Proof.LibTileSum.lean ====
/-
  A sum over N = T·W consecutive positions, taken tile by tile.

  The positions 0 … N−1 split into T tiles of W consecutive positions each; position w of tile k is W·k + w.
  In any commutative monoid the sum over all positions is the sum over the tiles of each tile's sum. A running
  total that starts from a value z and adds one tile's sum per step therefore ends, after all T steps, at z plus
  the whole sum. Tile numbers are also taken as plain naturals (the position then wraps around past the last
  tile, where it is never used), so that a running total can be stated over an initial segment of the naturals.
-/
import Idealize.ShloMosaic.Lib.ValueIdx

open scoped BigOperators

namespace Idealize.ShloMosaic.TileSum

/-- Position `w` of tile `k` among `N = T·W` positions. -/
def pos {T W N : ℕ} (hN : T * W = N) (k : Fin T) (w : Fin W) : Fin N :=
  ⟨W * k.val + w.val, by
    have hk := k.isLt
    have hw := w.isLt
    calc W * k.val + w.val < W * k.val + W := by omega
      _ = W * (k.val + 1) := by ring
      _ ≤ W * T := Nat.mul_le_mul_left _ hk
      _ = N := by rw [Nat.mul_comm]; exact hN⟩

/-- The sum over all positions is the sum over the tiles of each tile's sum. -/
theorem sum_tiles {M : Type*} [AddCommMonoid M] {T W N : ℕ} (hN : T * W = N) (g : Fin N → M) :
    ∑ f : Fin N, g f = ∑ k : Fin T, ∑ w : Fin W, g (pos hN k w) := by
  subst hN
  rw [← Equiv.sum_comp finProdFinEquiv g, Fintype.sum_prod_type]
  refine Finset.sum_congr rfl fun k _ => Finset.sum_congr rfl fun w _ => congrArg g (Fin.ext ?_)
  show w.val + W * k.val = W * k.val + w.val
  exact Nat.add_comm _ _

/-- Position `w` of the tile numbered `j`, for any natural `j`. -/
def posN {W N : ℕ} (hpos : 0 < N) (j : ℕ) (w : Fin W) : Fin N :=
  ⟨(W * j + w.val) % N, Nat.mod_lt _ hpos⟩

/-- For a tile number below `T` it is that tile's position. -/
theorem posN_eq {T W N : ℕ} (hN : T * W = N) (hpos : 0 < N) (k : Fin T) (w : Fin W) :
    posN hpos k.val w = pos hN k w :=
  Fin.ext (Nat.mod_eq_of_lt (pos hN k w).isLt)

/-- Its value, for a tile number below `T`. -/
theorem posN_val {T W N : ℕ} (hN : T * W = N) (hpos : 0 < N) (j : ℕ) (hj : j < T) (w : Fin W) :
    (posN hpos j w : Fin N).val = W * j + w.val :=
  congrArg Fin.val (posN_eq hN hpos ⟨j, hj⟩ w)

/-- The tiles numbered below `T`, summed, give the whole sum. -/
theorem sum_range_tiles {M : Type*} [AddCommMonoid M] {T W N : ℕ} (hN : T * W = N) (hpos : 0 < N) (g : Fin N → M) :
    ∑ j ∈ Finset.range T, ∑ w : Fin W, g (posN hpos j w) = ∑ f : Fin N, g f := by
  rw [Finset.sum_range, sum_tiles hN g]
  exact Finset.sum_congr rfl fun k _ => Finset.sum_congr rfl fun w _ => congrArg g (posN_eq hN hpos k w)

/-- A running total: what is there after the steps below `n`, plus step `n`'s addend, is what is there after the
    steps below `n + 1`. -/
theorem run_succ {M : Type*} [AddCommMonoid M] (z : M) (a : ℕ → M) (n : ℕ) :
    (z + ∑ j ∈ Finset.range n, a j) + a n = z + ∑ j ∈ Finset.range (n + 1), a j := by
  rw [Finset.sum_range_succ, add_assoc]

/-- A running total after its first step. -/
theorem run_one {M : Type*} [AddCommMonoid M] (z : M) (a : ℕ → M) :
    z + a 0 = z + ∑ j ∈ Finset.range 1, a j := by
  rw [Finset.sum_range_one]

end Idealize.ShloMosaic.TileSum
-- ==== Proof.KernelIdeal.Accum.lean ====
/-
  A running total over 25 tiles of 2000 rows is the total over all 50000 rows.

  The total starts at zero, and step n adds the sum of f over the 2000 rows of tile n (rows 2000·n … 2000·n + 1999).
  After the 25th step it is the sum of f over every row: addition on the extended reals is commutative and
  associative, so regrouping the rows by tiles needs no finiteness.
-/
import proofs.«174337_j74947179316231_2_alg».proof.Proof.Spec
import proofs.«174337_j74947179316231_2_alg».proof.Proof.LibTileSum

noncomputable section

open scoped BigOperators

namespace Cert.KernelIdeal.Hand

open Idealize.ShloMosaic

/-- The running total after the last tile is the sum over all rows. -/
theorem acc_total (f : Fin 50000 → EReal) (s : ℕ → EReal)
    (h0 : s 0 = 0 + ∑ p : Fin 2000, f ⟨p.val, by omega⟩)
    (hs : ∀ n, (hn : n + 1 < 25) → s (n + 1) = s n + ∑ p : Fin 2000, f ⟨2000 * (n + 1) + p.val, by omega⟩) :
    s 24 = ∑ r : Fin 50000, f r := by
  have hN : 25 * 2000 = 50000 := by norm_num
  have hpos : 0 < 50000 := by norm_num
  have key : ∀ n, n < 25 → s n = ∑ j ∈ Finset.range (n + 1), ∑ w : Fin 2000, f (TileSum.posN hpos j w) := by
    intro n
    induction n with
    | zero =>
      intro _
      rw [h0, zero_add, Finset.sum_range_one]
      refine Finset.sum_congr rfl fun w _ => congrArg f (Fin.ext ?_)
      show w.val = (TileSum.posN hpos 0 w).val
      rw [TileSum.posN_val hN hpos 0 (by norm_num) w]
      omega
    | succ n ih =>
      intro hn
      rw [hs n hn, ih (by omega), Finset.sum_range_succ _ (n + 1)]
      refine congrArg (_ + ·) (Finset.sum_congr rfl fun w _ => congrArg f (Fin.ext ?_))
      show 2000 * (n + 1) + w.val = (TileSum.posN hpos (n + 1) w).val
      rw [TileSum.posN_val hN hpos (n + 1) hn w]
  rw [key 24 (by norm_num)]
  exact TileSum.sum_range_tiles hN hpos f

end Cert.KernelIdeal.Hand

end
-- ==== Proof.KernelIdeal.Value0.lean ====
/-
  Region 0's results as formulas of the region's entry contents (F := Ideal).

  Write x, a, W1, b1, W2, b2 for the six input arrays as the region finds them, and H for the specification's residual
  layer on them. The tile written at grid point t is H on rows 2000·t … 2000·t + 1999. The first accumulator starts, at
  the first point, from zero plus that tile's column sums and gains each later tile's column sums, so after the last
  point it holds the column sums of H over all 50000 rows (a sum regrouped tile by tile: addition of extended reals is
  commutative and associative, no finiteness); likewise the second accumulator with the squares. At the last point the
  two small outputs receive the accumulators' contents.
-/
import proofs.«174337_j74947179316231_2_alg».proof.Proof.KernelIdeal.Pieces
import proofs.«174337_j74947179316231_2_alg».proof.Proof.KernelIdeal.Blocks0
import proofs.«174337_j74947179316231_2_alg».proof.Proof.KernelIdeal.Payloads
import proofs.«174337_j74947179316231_2_alg».proof.Proof.KernelIdeal.Accum
import proofs.«174337_j74947179316231_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b)) (c : Dev nD)

/-! ## The entry contents as matrices -/

def eX : Cert.Spec.Mat 50000 128 := fun r j => (V c main_arg0 : S50000x128.Idx → EReal) (ix2 r j)
def eA : Cert.Spec.Mat 50000 128 := fun r j => (V c main_v15 : S50000x128.Idx → EReal) (ix2 r j)
def eW1 : Cert.Spec.Mat 128 128 := fun l k => (V c main_arg3 : S128x128.Idx → EReal) (ix2 l k)
def eW2 : Cert.Spec.Mat 128 128 := fun k j => (V c main_arg5 : S128x128.Idx → EReal) (ix2 k j)
def eB1 : Fin 128 → EReal := fun k => (V c main_v16 : S1x128.Idx → EReal) (ix2 (0 : Fin 1) k)
def eB2 : Fin 128 → EReal := fun j => (V c main_v17 : S1x128.Idx → EReal) (ix2 (0 : Fin 1) j)
/-- The residual layer on the entry contents. -/
def eH : Cert.Spec.Mat 50000 128 := Cert.Spec.H (eX V c) (eA V c) (eW1 V c) (eW2 V c) (eB1 V c) (eB2 V c)

/-! ## The tile -/

theorem tile_apply (t : Fin cfg0.N) (p : Fin 2000) (j : Fin 128) :
    (tile0 V c t : S2000x128.Idx → EReal) (ix2 p j) = eH V c ⟨2000 * t.val + p.val, by have := lt25 t.isLt; omega⟩ j := by
  unfold tile0
  refine (pay5_apply (iblk0 V c 0 t) (iblk0 V c 1 t) (iblk0 V c 2 t) (iblk0 V c 3 t) (iblk0 V c 4 t) (iblk0 V c 5 t) p j).trans ?_
  simp only [iblk0_0_apply, iblk0_1_apply, iblk0_2_apply, iblk0_3_apply, iblk0_4_apply, iblk0_5_apply]
  rfl

/-- What the big output's buffer holds after point t is the tile. -/
theorem out6_eq (t : Fin cfg0.N) : (outsAt0 V c t.val t.isLt).1 = tile0 V c t := by
  by_cases h0 : t.val % 25 = 0
  · rw [outsAt0_A V c t h0, tupA_eq]
  · by_cases h1 : t.val % 25 = 24
    · rw [outsAt0_C V c t h0 h1, tupC_eq]
    · rw [outsAt0_B V c t h0 h1, tupB_eq]

/-! ## The accumulators, point by point -/

theorem acc0_first (t : Fin cfg0.N) (h0 : t.val % 25 = 0) :
    (outsAt0 V c t.val t.isLt).2.2.2.1 = k0_pay1 (k0_pay6 (iblk0 V c 0 t) (iblk0 V c 1 t) (iblk0 V c 2 t) (iblk0 V c 3 t) (iblk0 V c 4 t) (iblk0 V c 5 t) (k0_pay3 (F := Ideal))) := by
  rw [outsAt0_A V c t h0, tupA_eq]
theorem acc1_first (t : Fin cfg0.N) (h0 : t.val % 25 = 0) :
    (outsAt0 V c t.val t.isLt).2.2.2.2 = k0_pay2 (tile0 V c t) (k0_pay4 (F := Ideal)) := by
  rw [outsAt0_A V c t h0, tupA_eq]
theorem acc0_step (t : Fin cfg0.N) (h0 : ¬t.val % 25 = 0) :
    (outsAt0 V c t.val t.isLt).2.2.2.1 = k0_pay1 (k0_pay6 (iblk0 V c 0 t) (iblk0 V c 1 t) (iblk0 V c 2 t) (iblk0 V c 3 t) (iblk0 V c 4 t) (iblk0 V c 5 t)
      (outsAt0 V c (t.val - 1) (Nat.lt_of_le_of_lt (Nat.sub_le _ _) t.isLt)).2.2.2.1) := by
  by_cases h1 : t.val % 25 = 24
  · rw [outsAt0_C V c t h0 h1, tupC_eq]
  · rw [outsAt0_B V c t h0 h1, tupB_eq]
theorem acc1_step (t : Fin cfg0.N) (h0 : ¬t.val % 25 = 0) :
    (outsAt0 V c t.val t.isLt).2.2.2.2 = k0_pay2 (tile0 V c t)
      (outsAt0 V c (t.val - 1) (Nat.lt_of_le_of_lt (Nat.sub_le _ _) t.isLt)).2.2.2.2 := by
  by_cases h1 : t.val % 25 = 24
  · rw [outsAt0_C V c t h0 h1, tupC_eq]
  · rw [outsAt0_B V c t h0 h1, tupB_eq]
/-- At the last point the small outputs receive the accumulators. -/
theorem small7_last (t : Fin cfg0.N) (h1 : t.val % 25 = 24) :
    (outsAt0 V c t.val t.isLt).2.1 = (outsAt0 V c t.val t.isLt).2.2.2.1 := by
  have h0 : ¬t.val % 25 = 0 := by omega
  rw [outsAt0_C V c t h0 h1, tupC_eq]
theorem small8_last (t : Fin cfg0.N) (h1 : t.val % 25 = 24) :
    (outsAt0 V c t.val t.isLt).2.2.1 = (outsAt0 V c t.val t.isLt).2.2.2.2 := by
  have h0 : ¬t.val % 25 = 0 := by omega
  rw [outsAt0_C V c t h0 h1, tupC_eq]

/-! ## The running sums -/

/-- Entry j of the first accumulator after point n (zero past the grid). -/
def sAcc0 (j : Fin 128) (n : ℕ) : EReal :=
  if h : n < cfg0.N then ((outsAt0 V c n h).2.2.2.1 : S1x128.Idx → EReal) (ix2 (0 : Fin 1) j) else 0
def sAcc1 (j : Fin 128) (n : ℕ) : EReal :=
  if h : n < cfg0.N then ((outsAt0 V c n h).2.2.2.2 : S1x128.Idx → EReal) (ix2 (0 : Fin 1) j) else 0

theorem tile_sum (t : Fin cfg0.N) (j : Fin 128) (g : EReal → EReal) :
    ∑ p : Fin 2000, g ((tile0 V c t : S2000x128.Idx → EReal) (ix2 p j))
      = ∑ p : Fin 2000, g (eH V c ⟨2000 * t.val + p.val, by have := lt25 t.isLt; omega⟩ j) :=
  Finset.sum_congr rfl fun p _ => by rw [tile_apply]

theorem sAcc0_total (j : Fin 128) : sAcc0 V c j 24 = ∑ r : Fin 50000, eH V c r j := by
  refine acc_total (fun r => eH V c r j) (sAcc0 V c j) ?_ ?_
  · have hN : 0 < cfg0.N := lt_cfg0N (by norm_num)
    unfold sAcc0; rw [dif_pos hN, acc0_first V c ⟨0, hN⟩ rfl, pay1_eq]
    refine (pay6_apply (iblk0 V c 0 ⟨0, hN⟩) (iblk0 V c 1 ⟨0, hN⟩) (iblk0 V c 2 ⟨0, hN⟩) (iblk0 V c 3 ⟨0, hN⟩) (iblk0 V c 4 ⟨0, hN⟩) (iblk0 V c 5 ⟨0, hN⟩) _ j).trans ?_
    rw [pay3_apply]
    refine congrArg (fun s => (0 : EReal) + s) ?_
    refine ((tile_sum V c ⟨0, hN⟩ j id).trans ?_)
    exact Finset.sum_congr rfl fun p _ => congrArg (fun r => eH V c r j) (Fin.ext (by simp))
  · intro n hn
    have hN : n + 1 < cfg0.N := lt_cfg0N hn
    have hN' : n < cfg0.N := lt_cfg0N (by omega)
    unfold sAcc0; rw [dif_pos hN, dif_pos hN']
    rw [acc0_step V c ⟨n + 1, hN⟩ (by dsimp only; omega), pay1_eq]
    refine (pay6_apply (iblk0 V c 0 ⟨n + 1, hN⟩) (iblk0 V c 1 ⟨n + 1, hN⟩) (iblk0 V c 2 ⟨n + 1, hN⟩) (iblk0 V c 3 ⟨n + 1, hN⟩) (iblk0 V c 4 ⟨n + 1, hN⟩) (iblk0 V c 5 ⟨n + 1, hN⟩) _ j).trans ?_
    refine congrArg₂ (· + ·) ?_ ?_
    · exact congrArg (fun o : Outs0 Ideal => (o.2.2.2.1 : S1x128.Idx → EReal) (ix2 (0 : Fin 1) j)) (outsAt0_congr V c (by simp) _ _)
    · exact tile_sum V c ⟨n + 1, hN⟩ j id

theorem sAcc1_total (j : Fin 128) : sAcc1 V c j 24 = ∑ r : Fin 50000, eH V c r j * eH V c r j := by
  refine acc_total (fun r => eH V c r j * eH V c r j) (sAcc1 V c j) ?_ ?_
  · have hN : 0 < cfg0.N := lt_cfg0N (by norm_num)
    unfold sAcc1; rw [dif_pos hN, acc1_first V c ⟨0, hN⟩ rfl]
    refine (pay2_apply (tile0 V c ⟨0, hN⟩) _ j).trans ?_
    rw [pay4_apply]
    refine congrArg (fun s => (0 : EReal) + s) ?_
    refine ((tile_sum V c ⟨0, hN⟩ j (fun z => z * z)).trans ?_)
    exact Finset.sum_congr rfl fun p _ => congrArg (fun r => eH V c r j * eH V c r j) (Fin.ext (by simp))
  · intro n hn
    have hN : n + 1 < cfg0.N := lt_cfg0N hn
    have hN' : n < cfg0.N := lt_cfg0N (by omega)
    unfold sAcc1; rw [dif_pos hN, dif_pos hN']
    rw [acc1_step V c ⟨n + 1, hN⟩ (by dsimp only; omega)]
    refine (pay2_apply (tile0 V c ⟨n + 1, hN⟩) _ j).trans ?_
    refine congrArg₂ (· + ·) ?_ ?_
    · exact congrArg (fun o : Outs0 Ideal => (o.2.2.2.2 : S1x128.Idx → EReal) (ix2 (0 : Fin 1) j)) (outsAt0_congr V c (by simp) _ _)
    · exact tile_sum V c ⟨n + 1, hN⟩ j (fun z => z * z)

/-! ## The three output arrays after the region -/

theorem arr6_eq (r : Fin 50000) (j : Fin 128) :
    ((dat0 V c).arrAt 6 cfg0.N : S50000x128.Idx → EReal) (ix2 r j) = eH V c r j := by
  rw [arr0_6_apply]
  have hq : r.val / 2000 < cfg0.N := lt_cfg0N (by have := r.isLt; omega)
  rw [out6_eq V c ⟨r.val / 2000, hq⟩, tile_apply]
  exact congrArg (fun r' => eH V c r' j) (Fin.ext (by dsimp only; omega))

theorem arr7_eq (j : Fin 128) :
    ((dat0 V c).arrAt 7 cfg0.N : S1x128.Idx → EReal) (ix2 (0 : Fin 1) j) = Cert.Spec.colSum (eX V c) (eA V c) (eW1 V c) (eW2 V c) (eB1 V c) (eB2 V c) j := by
  have h24 : 24 < cfg0.N := lt_cfg0N (by norm_num)
  rw [arr0_7_apply, small7_last V c ⟨24, h24⟩ rfl]
  have := sAcc0_total V c j
  unfold sAcc0 at this; rw [dif_pos h24] at this
  exact this

theorem arr8_eq (j : Fin 128) :
    ((dat0 V c).arrAt 8 cfg0.N : S1x128.Idx → EReal) (ix2 (0 : Fin 1) j) = Cert.Spec.colSumSq (eX V c) (eA V c) (eW1 V c) (eW2 V c) (eB1 V c) (eB2 V c) j := by
  have h24 : 24 < cfg0.N := lt_cfg0N (by norm_num)
  rw [arr0_8_apply, small8_last V c ⟨24, h24⟩ rfl]
  have := sAcc1_total V c j
  unfold sAcc1 at this; rw [dif_pos h24] at this
  exact this

end Cert.KernelIdeal.Hand

end
-- ==== Proof.KernelIdeal.Blocks1.lean ====
/-
  Region 1, from blocks to arrays.

  The region walks 25 grid points. At point t the tiled input's block is rows 2000·t … 2000·t + 1999 of its array,
  the four one-row inputs' blocks are their arrays, and the output's block is rows 2000·t … 2000·t + 1999 of its
  array, written back at every point. So after the region the output holds, at row r, what point r / 2000 left
  at row r % 2000 of its buffer, and the inputs' arrays are as the region found them.
-/
import proofs.«174337_j74947179316231_2_alg».proof.Proof.KernelIdeal.Frame1
import Idealize.ShloMosaic.Lib.Pipeline.Value
import Idealize.ShloMosaic.Lib.Pipeline.Cells
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem lt25' {n : ℕ} (hn : n < cfg1.N) : n < 25 := lt_of_lt_of_eq hn (show cfg1.N = 25 from N_1)
theorem lt_cfg1N {n : ℕ} (h : n < 25) : n < cfg1.N := lt_of_lt_of_eq h (show cfg1.N = 25 from N_1).symm

/-- The printed index maps over the 25 grid points: the tiled windows' block index is (t, 0), the others' (0, 0). -/
theorem idx1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-! ## The input blocks read at an index -/

/-- Window 0's block at point t is rows 2000·t … 2000·t + 1999 of the residual layer's array. -/
theorem iblk1_0_apply (c : Dev nD) (t : Fin cfg1.N) (p : Fin 2000) (j : Fin 128) :
    (iblk1 V c 0 t : Vec F S2000x128 .f32) (ix2 p j)
      = (V c main_v18_0 : S50000x128.Idx → Elt F .f32)
          (ix2 (⟨2000 * t.val + p.val, by have := lt25' t.isLt; omega⟩ : Fin 50000) j) := by
  obtain ⟨⟨h0, h1⟩, -⟩ := idx1 t
  unfold iblk1
  rw [View.read_apply]
  show V c main_v18_0 _ = V c main_v18_0 _
  congr 1
  funext a
  apply Fin.ext
  match a with
  | ⟨0, _⟩ => show win1_0.index t (0 : Fin 2) * 2000 + 1 * p.val = 2000 * t.val + p.val; rw [h0]; omega
  | ⟨1, _⟩ => show win1_0.index t (1 : Fin 2) * 128 + 1 * j.val = j.val; rw [h1]; omega

/-- Window 1's block is its one-row array. -/
theorem iblk1_1_apply (c : Dev nD) (t : Fin cfg1.N) (k : Fin 128) :
    (iblk1 V c 1 t : Vec F S1x128 .f32) (ix2 (0 : Fin 1) k)
      = (V c main_v20 : S1x128.Idx → Elt F .f32) (ix2 (0 : Fin 1) k) := by
  obtain ⟨-, ⟨h0, h1⟩, -⟩ := idx1 t
  unfold iblk1
  rw [View.read_apply]
  show V c main_v20 _ = V c main_v20 _
  congr 1
  funext a
  apply Fin.ext
  match a with
  | ⟨0, _⟩ => show win1_1.index t (0 : Fin 2) * 1 + 1 * 0 = 0; rw [h0]
  | ⟨1, _⟩ => show win1_1.index t (1 : Fin 2) * 128 + 1 * k.val = k.val; rw [h1]; omega

/-- Window 2's block is its one-row array. -/
theorem iblk1_2_apply (c : Dev nD) (t : Fin cfg1.N) (k : Fin 128) :
    (iblk1 V c 2 t : Vec F S1x128 .f32) (ix2 (0 : Fin 1) k)
      = (V c main_v26 : S1x128.Idx → Elt F .f32) (ix2 (0 : Fin 1) k) := by
  obtain ⟨-, -, ⟨h0, h1⟩, -⟩ := idx1 t
  unfold iblk1
  rw [View.read_apply]
  show V c main_v26 _ = V c main_v26 _
  congr 1
  funext a
  apply Fin.ext
  match a with
  | ⟨0, _⟩ => show win1_2.index t (0 : Fin 2) * 1 + 1 * 0 = 0; rw [h0]
  | ⟨1, _⟩ => show win1_2.index t (1 : Fin 2) * 128 + 1 * k.val = k.val; rw [h1]; omega

/-- Window 3's block is its one-row array. -/
theorem iblk1_3_apply (c : Dev nD) (t : Fin cfg1.N) (k : Fin 128) :
    (iblk1 V c 3 t : Vec F S1x128 .f32) (ix2 (0 : Fin 1) k)
      = (V c main_v27 : S1x128.Idx → Elt F .f32) (ix2 (0 : Fin 1) k) := by
  obtain ⟨-, -, -, ⟨h0, h1⟩, -⟩ := idx1 t
  unfold iblk1
  rw [View.read_apply]
  show V c main_v27 _ = V c main_v27 _
  congr 1
  funext a
  apply Fin.ext
  match a with
  | ⟨0, _⟩ => show win1_3.index t (0 : Fin 2) * 1 + 1 * 0 = 0; rw [h0]
  | ⟨1, _⟩ => show win1_3.index t (1 : Fin 2) * 128 + 1 * k.val = k.val; rw [h1]; omega

/-- Window 4's block is its one-row array. -/
theorem iblk1_4_apply (c : Dev nD) (t : Fin cfg1.N) (k : Fin 128) :
    (iblk1 V c 4 t : Vec F S1x128 .f32) (ix2 (0 : Fin 1) k)
      = (V c main_v28 : S1x128.Idx → Elt F .f32) (ix2 (0 : Fin 1) k) := by
  obtain ⟨-, -, -, -, ⟨h0, h1⟩, -⟩ := idx1 t
  unfold iblk1
  rw [View.read_apply]
  show V c main_v28 _ = V c main_v28 _
  congr 1
  funext a
  apply Fin.ext
  match a with
  | ⟨0, _⟩ => show win1_4.index t (0 : Fin 2) * 1 + 1 * 0 = 0; rw [h0]
  | ⟨1, _⟩ => show win1_4.index t (1 : Fin 2) * 128 + 1 * k.val = k.val; rw [h1]; omega

/-! ## The inputs' arrays are never written -/

theorem arr1_in_0 (c : Dev nD) : (dat1 V c).arrAt 0 cfg1.N = V c main_v18_0 :=
  ((dat1 V c).arrAt_in 0 rfl cfg1.N).trans (A_eq1 V c 0)
theorem arr1_in_1 (c : Dev nD) : (dat1 V c).arrAt 1 cfg1.N = V c main_v20 :=
  ((dat1 V c).arrAt_in 1 rfl cfg1.N).trans (A_eq1 V c 1)
theorem arr1_in_2 (c : Dev nD) : (dat1 V c).arrAt 2 cfg1.N = V c main_v26 :=
  ((dat1 V c).arrAt_in 2 rfl cfg1.N).trans (A_eq1 V c 2)
theorem arr1_in_3 (c : Dev nD) : (dat1 V c).arrAt 3 cfg1.N = V c main_v27 :=
  ((dat1 V c).arrAt_in 3 rfl cfg1.N).trans (A_eq1 V c 3)
theorem arr1_in_4 (c : Dev nD) : (dat1 V c).arrAt 4 cfg1.N = V c main_v28 :=
  ((dat1 V c).arrAt_in 4 rfl cfg1.N).trans (A_eq1 V c 4)

/-- An input window's array after the region is the array as the region found it. -/
theorem arr1_in (c : Dev nD) (w : Fin cfg1.W) (hw : w.val < 5) :
    (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨n + 5, _⟩, h => exact absurd h (by simp)
  exact ((dat1 V c).arrAt_in w hin cfg1.N).trans (A_eq1 V c w)

/-! ## The output array after the region -/

/-- The output, assembled: at row r, what point r / 2000 left at row r % 2000 of the output's buffer. -/
def tiles1_5 (c : Dev nD) (r : Fin 50000) (j : Fin 128) : Elt F .f32 :=
  out1 V c ⟨r.val / 2000, lt_cfg1N (by have := r.isLt; omega)⟩
    (ix2 (⟨r.val % 2000, Nat.mod_lt _ (by norm_num)⟩ : Fin 2000) j)

/-- Row 2000·t + p of the assembled output is row p of what point t left. -/
theorem tiles1_5_at (c : Dev nD) (t : Fin cfg1.N) (p : Fin 2000) (j : Fin 128)
    (r : Fin 50000) (j' : Fin 128) (hr : r.val = 2000 * t.val + p.val) (hj : j'.val = j.val) :
    tiles1_5 V c r j' = out1 V c t (ix2 p j) := by
  unfold tiles1_5
  have hq : r.val / 2000 = t.val := by have := p.isLt; omega
  have hm : r.val % 2000 = p.val := by have := p.isLt; omega
  have key : ∀ (q : Fin cfg1.N) (m : Fin 2000) (jj : Fin 128), q = t → m = p → jj = j →
      out1 V c q (ix2 m jj) = out1 V c t (ix2 p j) := by
    intro q m jj e1 e2 e3; subst e1; subst e2; subst e3; rfl
  exact key _ _ _ (Fin.ext hq) (Fin.ext hm) (Fin.ext hj)

/-- The assembled output as an array. -/
def G1_5 (c : Dev nD) : S50000x128.Idx → Elt F .f32 := fun i => tiles1_5 V c (i 0) (i 1)

/-- The output's block at point t is rows 2000·t … 2000·t + 1999: moving a buffer X out through it gives block t of
    any array that holds X's row p at its row 2000·t + p. -/
theorem cut1_5_eq_read (t : Fin cfg1.N) (X : Vec F S2000x128 .f32) (T : Fin 50000 → Fin 128 → Elt F .f32)
    (hT : ∀ (p : Fin 2000) (j : Fin 128) (r : Fin 50000) (j' : Fin 128),
      r.val = 2000 * t.val + p.val → j'.val = j.val → T r j' = X (ix2 p j)) :
    (cfg1.win 5).cut (grid1.coords t) X
      = ((cfg1.win 5).blk t).view.read (Elt F) (fun i : S50000x128.Idx => T (i 0) (i 1)) := by
  obtain ⟨-, -, -, -, -, ⟨h0, h1⟩⟩ := idx1 t
  funext y
  obtain ⟨p, j, rfl⟩ : ∃ (p : Fin 2000) (j : Fin 128), y = ix2 p j := ⟨y 0, y 1, eq_ix2 y⟩
  rw [View.read_apply]
  have hx : (cfg1.win 5).xinj (grid1.coords t) (ix2 p j) = ix2 p j :=
    funext fun a => Fin.ext (by match a with | ⟨0, _⟩ => rfl | ⟨1, _⟩ => rfl)
  show X ((cfg1.win 5).xinj (grid1.coords t) (ix2 p j)) = _
  rw [hx]
  refine (hT p j _ _ ?_ ?_).symm
  · show win1_5.index t (0 : Fin 2) * 2000 + 1 * p.val = 2000 * t.val + p.val
    rw [h0]; omega
  · show win1_5.index t (1 : Fin 2) * 128 + 1 * j.val = j.val
    rw [h1]; omega

/-- What point t writes back of the output is block t of the assembled output. -/
theorem flushed1_5_eq (c : Dev nD) (t : Fin cfg1.N) :
    (dat1 V c).flushed 5 t = ((cfg1.win 5).blk t).view.read (Elt F) (G1_5 V c) := by
  show (cfg1.win 5).cut (grid1.coords t) ((dat1 V c).after 5 t) = _
  rw [after1_5]
  exact cut1_5_eq_read t (out1 V c t) (tiles1_5 V c) (fun p j r j' hr hj => tiles1_5_at V c t p j r j' hr hj)

/-- An index of the output's array is in point t's block iff each coordinate is in the block's range. -/
theorem mem_blk1_5 (t : Fin cfg1.N) (i : S50000x128.Idx) :
    i ∈ ((cfg1.win 5).blk t).view.set
      ↔ ∀ a : Fin 2, win1_5.index t a * S2000x128.size a ≤ (i a).val
          ∧ (i a).val < win1_5.index t a * S2000x128.size a + S2000x128.size a := by
  show i ∈ ((View.whole main_v29).slice (win1_5.rect t)).set ↔ _
  rw [View.set_slice_whole, Rect.mem_set_unit]
  exact Iff.rfl

/-- THE OUTPUT after the region, at (r, j). -/
theorem arr1_5_apply (c : Dev nD) (r : Fin 50000) (j : Fin 128) :
    ((dat1 V c).arrAt 5 cfg1.N : S50000x128.Idx → Elt F .f32) (ix2 r j)
      = out1 V c ⟨r.val / 2000, lt_cfg1N (by have := r.isLt; omega)⟩
          (ix2 (⟨r.val % 2000, Nat.mod_lt _ (by norm_num)⟩ : Fin 2000) j) := by
  have hfin : (dat1 V c).arrAt 5 cfg1.N = G1_5 V c :=
    (dat1 V c).arrAt_eq_of_cover 5 (G1_5 V c) (fun t _ => flushed1_5_eq V c t) fun i => by
      have hi0 : (i 0).val < 50000 := (i 0).isLt
      have hi1 : (i 1).val < 128 := (i 1).isLt
      refine ⟨⟨(i 0).val / 2000, lt_cfg1N (by omega)⟩, flush1_5 _, ?_⟩
      rw [mem_blk1_5]
      obtain ⟨-, -, -, -, -, ⟨h0, h1⟩⟩ := idx1 ⟨(i 0).val / 2000, lt_cfg1N (by omega)⟩
      intro a
      match a with
      | ⟨0, _⟩ =>
        show win1_5.index _ (0 : Fin 2) * 2000 ≤ (i 0).val ∧ (i 0).val < win1_5.index _ (0 : Fin 2) * 2000 + 2000
        rw [h0]; dsimp only; omega
      | ⟨1, _⟩ =>
        show win1_5.index _ (1 : Fin 2) * 128 ≤ (i 1).val ∧ (i 1).val < win1_5.index _ (1 : Fin 2) * 128 + 128
        rw [h1]; omega
  rw [hfin]
  rfl

end Cert.KernelIdeal.Hand

end
-- ==== Proof.KernelIdeal.Frame0b.lean ====
/-
  Region 0's body obligation: at every grid point the body, called with what the pipeline hands it, returns what the
  proof data say. The point's control case is read off the closed forms of the two conditions; the case's symbolic run
  applies; the invariant hands the body the two accumulators at what the point before left (at anything at the first
  point) and takes them back at this point's contents.
-/
import proofs.«174337_j74947179316231_2_alg».proof.Proof.KernelIdeal.Frame0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 25 := lt25 t.isLt
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 25 = 0
  · have h1 : ¬t.val % 25 = 24 := by omega
    have hc1 : ¬cond0_1 (grid0.coords t) := fun h => h1 ((hcond0_1 t).mp h)
    rw [Dat.leavesExact_idle (dat0 V c) 7 t (idleAt0_7 t hc1) (noFlush0_7 t hc1),
      Dat.leavesExact_idle (dat0 V c) 8 t (idleAt0_8 t hc1) (noFlush0_8 t hc1)]
    rw [outsAt0_A V c t h0]
    unfold tupA; dsimp only
    have hz : t.val = 0 := by omega
    rw [PhiS_castSucc V c t, PhiS_zero V c _ _ hz, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((rA V c t ((hcond0_0 t).mpr h0) hc1).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · have hc0 : ¬cond0_0 (grid0.coords t) := fun h => h0 ((hcond0_0 t).mp h)
    have hz : t.val ≠ 0 := fun h => h0 (by rw [h])
    by_cases h1 : t.val % 25 = 24
    · rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold tupC; dsimp only
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((rC V c t hc0 ((hcond0_1 t).mpr h1) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 7 t (idleAt0_7 t hc1) (noFlush0_7 t hc1),
        Dat.leavesExact_idle (dat0 V c) 8 t (idleAt0_8 t hc1) (noFlush0_8 t hc1)]
      rw [outsAt0_B V c t h0 h1]
      unfold tupB; dsimp only
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((rB V c t hc0 hc1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 25 := N_0; omega)

end Cert.KernelIdeal.Hand

end
-- ==== Proof.KernelIdeal.Run.lean ====
/-
  The whole program as six segments — three stretches of host operations (the gather, add, relu, scatter-add that
  build the aggregated messages, and two reshapes), region 0, the stretch that turns the column sums into mean and
  clamped variance, region 1 — run one after the other from the launch memory. The contents of every unscoped buffer at
  each boundary are named: a host stretch folds its operations over the contents before it; a region replaces its
  windows' arrays by what its write-backs leave and keeps every other buffer. The run ends with every buffer at the last
  boundary's contents; in particular the result buffer, and each argument as launched (no stretch writes an argument
  and a region only reads one).
-/
import proofs.«174337_j74947179316231_2_alg».proof.Proof.KernelIdeal.Frame0b
import proofs.«174337_j74947179316231_2_alg».proof.Proof.KernelIdeal.Frame1
import proofs.«174337_j74947179316231_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := (W4_arr m ρ c 2).trans (((dat0 (V3 m ρ) c).arrAt_in 2 rfl _).trans (A_eq0 (V3 m ρ) c 2))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := (W4_arr m ρ c 4).trans (((dat0 (V3 m ρ) c).arrAt_in 4 rfl _).trans (A_eq0 (V3 m ρ) c 4))
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m ρ) c)
    unfold Pipeline.ΦA
    iintro ⟨Hp, -, Hr⟩
    isplitl [Hr]; · iexact Hr
    iexact Hp
  hout c := by
    rw [Pipeline.ownSems0_none]
    refine BIBase.Entails.trans (hout0 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with the result
    buffer at the last boundary's contents and every argument as launched. -/
theorem run_all : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_all m ρ)

end Cert.KernelIdeal.Hand

end
-- ==== Proof.RefRun.lean ====
/-
  The reference program's run, read back.

  The reference's @main is a straight line of 81 host operations once its four calls (the two relus, the variance
  function and the where inside it) are opened at their call sites.  The line is cut where the mathematics cuts it:

    stretch A (21 operations): the message aggregation  agg = scatter-add over the target nodes of relu(x[src] + edge_attr);
    stretch B (16 operations): the residual perceptron   h = x + (relu((1·x + agg)·W1 + b1)·W2 + b2);
    stretch C (44 operations): the batch normalisation   (h − mean h) · rsqrt(var h + eps) · gamma + beta,
                               mean h the column sums over 50000, var h the column sums of the squared deviations
                               over 50000 − 0 (chosen by a comparison 50000 − 0 > 0 against a NaN word).

  Each stretch's result is named as a function of what the stretch reads (`agg`, `hval`, `norm`), each exactly the term
  its operations compose to, in printed order; `res` is their composition, and `run` says every weakly fair execution of
  @main ends with the result buffer at `res` of the nine argument arrays and the arguments unchanged.
-/
import proofs.«174337_j74947179316231_2_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The operations -/

section Ops

variable {F : FTy → Type} [FloatOps F]

/-- Stretch A: the edge endpoints out of the index table, the wrapped gather of source rows, the added edge features,
    relu, and the scatter-add at the target rows. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v10 main_arg2 main_v11 (addf : (⟨S800000x128, .f32⟩ : BufTy).Contents (Elt F) → (⟨S800000x128, .f32⟩ : BufTy).Contents (Elt F) → (⟨S800000x128, .f32⟩ : BufTy).Contents (Elt F)),
    TRef.nullary main_call0.cst (constant S_ .f32 0x00000000#32),
    TRef.unary main_call0.cst main_call0.v0 (broadcastInDim S800000x128 ![] bcast_S_S800000x128),
    TRef.binary (TRef.of (T := ⟨S800000x128, .f32⟩) main_v11) main_call0.v0 main_call0.v1 maximumf,
    nullary main_cst (constant S_ .f32 0x00000000#32),
    unary main_cst main_v13 (broadcastInDim S50000x128 ![] bcast_S_S50000x128 : (⟨S_, .f32⟩ : BufTy).Contents (Elt F) → (⟨S50000x128, .f32⟩ : BufTy).Contents (Elt F)),
    unary main_v3 main_v14 (broadcastInDim S800000x1 ![0] bcast_S800000_S800000x1_0 : (⟨S800000, .i32⟩ : BufTy).Contents (Elt F) → (⟨S800000x1, .i32⟩ : BufTy).Contents (Elt F)),
    ternary main_v13 main_v14 main_v12 main_v15 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- Stretch B: 1·x + agg, the first affine map, relu, the second affine map, the residual sum. -/
abbrev opsB : List (HloOp τ sig (Elt F)) :=
  [ nullary main_cst_1 (constant S_ .f32 0x3F800000#32),
    unary main_cst_1 main_v16 (broadcastInDim S50000x128 ![] bcast_S_S50000x128 : (⟨S_, .f32⟩ : BufTy).Contents (Elt F) → (⟨S50000x128, .f32⟩ : BufTy).Contents (Elt F)),
    binary main_v16 main_arg0 main_v17 (mulf : (⟨S50000x128, .f32⟩ : BufTy).Contents (Elt F) → (⟨S50000x128, .f32⟩ : BufTy).Contents (Elt F) → (⟨S50000x128, .f32⟩ : BufTy).Contents (Elt F)),
    binary main_v17 main_v15 main_v18 (addf : (⟨S50000x128, .f32⟩ : BufTy).Contents (Elt F) → (⟨S50000x128, .f32⟩ : BufTy).Contents (Elt F) → (⟨S50000x128, .f32⟩ : BufTy).Contents (Elt F)),
    binary main_v18 main_arg3 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v19 main_v21 main_v22 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (TRef.of (T := ⟨S50000x128, .f32⟩) main_v22) main_call1.v0 main_call1.v1 maximumf,
    binary main_v23 main_arg5 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    binary main_arg0 main_v27 main_v28 (addf : (⟨S50000x128, .f32⟩ : BufTy).Contents (Elt F) → (⟨S50000x128, .f32⟩ : BufTy).Contents (Elt F) → (⟨S50000x128, .f32⟩ : BufTy).Contents (Elt F)) ]

/-- Stretch C: the column mean, the variance function opened (with the where inside it), and the normalisation. -/
abbrev opsC : List (HloOp τ sig (Elt F)) :=
  [ nullary main_cst_2 (constant S_ .f32 0x00000000#32),
    binary main_v28 main_cst_2 main_v29 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_3 (constant S_ .f32 0x47435000#32),
    unary main_cst_3 main_v30 (broadcastInDim S128 ![] bcast_S_S128 : (⟨S_, .f32⟩ : BufTy).Contents (Elt F) → (⟨S128, .f32⟩ : BufTy).Contents (Elt F)),
    binary main_v29 main_v30 main_v31 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call2.cst (constant S_ .f32 0x00000000#32),
    TRef.binary (TRef.of (T := ⟨S50000x128, .f32⟩) main_v28) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (TRef.of (T := ⟨S50000x128, .f32⟩) main_v28) main_call2.v4 main_call2.v5 subf,
    TRef.binary main_call2.v5 main_call2.v5 main_call2.v6 mulf,
    TRef.unary (TRef.of (T := ⟨S_, .i32⟩) main_c_4) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v31 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v28 main_v34 main_v35 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v36 (broadcastInDim S128 ![] bcast_S_S128 : (⟨S_, .f32⟩ : BufTy).Contents (Elt F) → (⟨S128, .f32⟩ : BufTy).Contents (Elt F)),
    binary main_v32 main_v36 main_v37 (addf : (⟨S128, .f32⟩ : BufTy).Contents (Elt F) → (⟨S128, .f32⟩ : BufTy).Contents (Elt F) → (⟨S128, .f32⟩ : BufTy).Contents (Elt F)),
    unary main_v37 main_v38 (Host.rsqrt : (⟨S128, .f32⟩ : BufTy).Contents (Elt F) → (⟨S128, .f32⟩ : BufTy).Contents (Elt F)),
    unary main_v38 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v35 main_v40 main_v41 (mulf : (⟨S50000x128, .f32⟩ : BufTy).Contents (Elt F) → (⟨S50000x128, .f32⟩ : BufTy).Contents (Elt F) → (⟨S50000x128, .f32⟩ : BufTy).Contents (Elt F)),
    unary main_arg7 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v41 main_v43 main_v44 (mulf : (⟨S50000x128, .f32⟩ : BufTy).Contents (Elt F) → (⟨S50000x128, .f32⟩ : BufTy).Contents (Elt F) → (⟨S50000x128, .f32⟩ : BufTy).Contents (Elt F)),
    unary main_arg8 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)) ]

/-- @main's 81 operations, in order. -/
abbrev ops : List (HloOp τ sig (Elt F)) := opsA ++ (opsB ++ opsC)

end Ops

/-! ## The program is the line -/

section Line

variable {F : FTy → Type} [FloatOps F]

/-- @main is the straight line: the called functions' bodies unfold at their calls, each over that call's buffers. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub ..⟩
theorem opsB_sub : (opsB : List (HloOp τ sig (Elt F))).Forall fun op => op.bufs ⊆ tcRefs τ sig :=
  ⟨nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩
theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsA_sub op h, List.forall_iff_forall_mem.mp opsB_sub op h,
      List.forall_iff_forall_mem.mp opsC_sub op h]

/-- The contents after two stretches run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

end Line

/-! ## What each stretch computes -/

/-- Stretch A's result (the buffer of %15): the scatter-add, into a zero array at the target node of each edge, of
    relu(x[src] + edge_attr), the source index wrapped by 50000 when negative. -/
def agg (x : FVec Ideal S50000x128 .f32) (ei : IVec S2x800000 32) (ea : FVec Ideal S800000x128 .f32) :
    FVec Ideal S50000x128 .f32 :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast S800000 (extractStridedSlice S1x800000 ![1, 0] ei slices_S2x800000_S1x800000_1_0) shapeCasts_S1x800000_S800000)) (maximumf (addf (Host.gather gather_S50000x128_S800000x1_S800000x128_1_0_n_n_0_1_1128 x (broadcastInDim S800000x1 ![0] bcast_S800000_S800000x1_0 (select (cmpi .slt (shapeCast S800000 (extractStridedSlice S1x800000 ![0, 0] ei slices_S2x800000_S1x800000_0_0) shapeCasts_S1x800000_S800000) (broadcastInDim S800000 ![] bcast_S_S800000 (constantI S_ 32 0#32))) (addi (shapeCast S800000 (extractStridedSlice S1x800000 ![0, 0] ei slices_S2x800000_S1x800000_0_0) shapeCasts_S1x800000_S800000) (broadcastInDim S800000 ![] bcast_S_S800000 (constantI S_ 32 50000#32))) (shapeCast S800000 (extractStridedSlice S1x800000 ![0, 0] ei slices_S2x800000_S1x800000_0_0) shapeCasts_S1x800000_S800000)))) ea) (broadcastInDim S800000x128 ![] bcast_S_S800000x128 (constant (F := Ideal) S_ .f32 0x00000000#32)))

/-- Stretch B's result (the buffer of %28) from x and the aggregated messages `a`:
    x + (relu((1·x + a)·W1 + b1)·W2 + b2). -/
def hval (x a : FVec Ideal S50000x128 .f32) (W1 : FVec Ideal S128x128 .f32) (b1 : FVec Ideal S128 .f32)
    (W2 : FVec Ideal S128x128 .f32) (b2 : FVec Ideal S128 .f32) : FVec Ideal S50000x128 .f32 :=
  addf x (addf (Host.dotGeneral (F := Ideal) dot_S50000x128_S128x128_S50000x128_1_0_0_1_n_n none (maximumf (addf (Host.dotGeneral (F := Ideal) dot_S50000x128_S128x128_S50000x128_1_0_0_1_n_n none (addf (mulf (broadcastInDim S50000x128 ![] bcast_S_S50000x128 (constant (F := Ideal) S_ .f32 0x3F800000#32)) x) a) W1) (broadcastInDim S50000x128 ![0, 1] bcast_S1x128_S50000x128_0_1 (broadcastInDim S1x128 ![1] bcast_S128_S1x128_1 b1))) (broadcastInDim S50000x128 ![] bcast_S_S50000x128 (constant (F := Ideal) S_ .f32 0x00000000#32))) W2) (broadcastInDim S50000x128 ![0, 1] bcast_S1x128_S50000x128_0_1 (broadcastInDim S1x128 ![1] bcast_S128_S1x128_1 b2)))

/-- The column means (the buffer of %31): the column sums from the zero word, over the word of 50000. -/
def meanV (h : FVec Ideal S50000x128 .f32) : FVec Ideal S128 .f32 :=
  Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32))

/-- The deviations inside the variance function (its %5): h minus its own column means spread over the rows. -/
def devV (h : FVec Ideal S50000x128 .f32) : FVec Ideal S50000x128 .f32 :=
  subf h (broadcastInDim S50000x128 ![0, 1] bcast_S1x128_S50000x128_0_1 (Host.divf (F := Ideal) (broadcastInDim S1x128 ![1] bcast_S128_S1x128_1 (Host.reduceAdd (F := Ideal) h (constant (F := Ideal) S_ .f32 0x00000000#32) reducesTo_S50000x128_S128_d0 h_S_)) (broadcastInDim S1x128 ![] bcast_S_S1x128 (constant (F := Ideal) S_ .f32 0x47435000#32))))

/-- The variance function's result (the buffer of %32): where 50000 − 0 > 0, the column sums of the squared deviations
    over 50000 − 0, elsewhere the NaN word. -/
def varV (h : FVec Ideal S50000x128 .f32) : FVec Ideal S128 .f32 :=
  select (broadcastInDim S128 ![] bcast_S_S128 (cmpf .ogt (subf (constant (F := Ideal) S_ .f32 0x47435000#32) (sitofp (F := Ideal) .f32 (constantI S_ 32 0#32))) (constant (F := Ideal) S_ .f32 0x00000000#32))) (Host.divf (F := Ideal) (Host.reduceAdd (F := Ideal) (mulf (devV h) (devV h)) (constant (F := Ideal) S_ .f32 0x00000000#32) reducesTo_S50000x128_S128_d0 h_S_) (broadcastInDim S128 ![] bcast_S_S128 (subf (constant (F := Ideal) S_ .f32 0x47435000#32) (sitofp (F := Ideal) .f32 (constantI S_ 32 0#32))))) (broadcastInDim S128 ![] bcast_S_S128 ((constant (F := Ideal) S_ .f32 0x7FC00000#32)))

/-- Stretch C's result (the buffer of %47): (h − mean) · rsqrt(var + eps) · gamma + beta, each row vector spread over
    the rows. -/
def norm (h : FVec Ideal S50000x128 .f32) (gamma beta : FVec Ideal S128 .f32) : FVec Ideal S50000x128 .f32 :=
  addf (mulf (mulf (subf h (broadcastInDim S50000x128 ![0, 1] bcast_S1x128_S50000x128_0_1 (broadcastInDim S1x128 ![1] bcast_S128_S1x128_1 (meanV h)))) (broadcastInDim S50000x128 ![0, 1] bcast_S1x128_S50000x128_0_1 (broadcastInDim S1x128 ![1] bcast_S128_S1x128_1 (Host.rsqrt (F := Ideal) (addf (varV h) (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 gamma))) (broadcastInDim S50000x128 ![0, 1] bcast_S1x128_S50000x128_0_1 (broadcastInDim S1x128 ![1] bcast_S128_S1x128_1 beta))

/-- The result array as a function of the nine argument arrays. -/
def res (x : FVec Ideal S50000x128 .f32) (ei : IVec S2x800000 32) (ea : FVec Ideal S800000x128 .f32)
    (W1 : FVec Ideal S128x128 .f32) (b1 : FVec Ideal S128 .f32) (W2 : FVec Ideal S128x128 .f32) (b2 : FVec Ideal S128 .f32)
    (gamma beta : FVec Ideal S128 .f32) : FVec Ideal S50000x128 .f32 :=
  norm (hval x (agg x ei ea) W1 b1 W2 b2) gamma beta

/-! ## Each stretch read back -/

section Values

/-- The buffers stretch A writes. -/
abbrev opsA_W : List (Ref sig .tc) := [main_v0, main_v1, main_v2, main_v3, main_c, main_v4, main_v5, main_c_0, main_v6, main_v7, main_v8, main_v9, main_v10, main_v11, main_call0_cst, main_call0_v0, main_v12, main_cst, main_v13, main_v14, main_v15]
theorem opsA_writes : (opsA : List (HloOp τ sig (Elt Ideal))).Forall fun op =>
    op.writes ⊆ (opsA_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [TRef.nullary, TRef.unary, TRef.binary, TRef.ternary, nullary_writes, unary_writes, binary_writes,
      ternary_writes, reshape_writes, Finset.singleton_subset_iff, List.mem_toFinset]; exact List.mem_map_of_mem (by decide))
/-- A buffer stretch A does not write keeps its contents through it. -/
theorem keepA (V : Valuation τ sig (Elt Ideal)) (r : Ref sig .tc) (h : r ∉ opsA_W) :
    after opsA V (Proc.devRef .tc r) = V (Proc.devRef .tc r) :=
  after_of_writes_sub opsA _ opsA_writes h

/-- The buffers stretch B writes. -/
abbrev opsB_W : List (Ref sig .tc) := [main_cst_1, main_v16, main_v17, main_v18, main_v19, main_v20, main_v21, main_v22, main_call1_cst, main_call1_v0, main_v23, main_v24, main_v25, main_v26, main_v27, main_v28]
theorem opsB_writes : (opsB : List (HloOp τ sig (Elt Ideal))).Forall fun op =>
    op.writes ⊆ (opsB_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [TRef.nullary, TRef.unary, TRef.binary, TRef.ternary, nullary_writes, unary_writes, binary_writes,
      ternary_writes, reshape_writes, Finset.singleton_subset_iff, List.mem_toFinset]; exact List.mem_map_of_mem (by decide))
/-- A buffer stretch B does not write keeps its contents through it. -/
theorem keepB (V : Valuation τ sig (Elt Ideal)) (r : Ref sig .tc) (h : r ∉ opsB_W) :
    after opsB V (Proc.devRef .tc r) = V (Proc.devRef .tc r) :=
  after_of_writes_sub opsB _ opsB_writes h

/-- The buffers stretch C writes. -/
abbrev opsC_W : List (Ref sig .tc) := [main_cst_2, main_v29, main_cst_3, main_v30, main_v31, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v32, main_v33, main_v34, main_v35, main_cst_5, main_v36, main_v37, main_v38, main_v39, main_v40, main_v41, main_v42, main_v43, main_v44, main_v45, main_v46, main_v47]
theorem opsC_writes : (opsC : List (HloOp τ sig (Elt Ideal))).Forall fun op =>
    op.writes ⊆ (opsC_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.nullary, TRef.unary, TRef.binary, TRef.ternary, nullary_writes, unary_writes, binary_writes,
      ternary_writes, reshape_writes, Finset.singleton_subset_iff, List.mem_toFinset]; exact List.mem_map_of_mem (by decide))
/-- A buffer stretch C does not write keeps its contents through it. -/
theorem keepC (V : Valuation τ sig (Elt Ideal)) (r : Ref sig .tc) (h : r ∉ opsC_W) :
    after opsC V (Proc.devRef .tc r) = V (Proc.devRef .tc r) :=
  after_of_writes_sub opsC _ opsC_writes h

variable (V : Valuation τ sig (Elt Ideal))

/-- After stretch A the buffer of %15 holds `agg` of the three arrays the stretch reads. -/
theorem afterA_v15 : after opsA V (main_v15 : DevRef τ sig) = agg (V (main_arg0 : DevRef τ sig)) (V (main_arg1 : DevRef τ sig)) (V (main_arg2 : DevRef τ sig)) := by
  after_results_simp <;> rfl

/-- After stretch B the buffer of %28 holds `hval` of x, the contents of %15, and the two layers' weights and biases. -/
theorem afterB_v28 : after opsB V (main_v28 : DevRef τ sig)
    = hval (V (main_arg0 : DevRef τ sig)) (V (main_v15 : DevRef τ sig)) (V (main_arg3 : DevRef τ sig)) (V (main_arg4 : DevRef τ sig)) (V (main_arg5 : DevRef τ sig)) (V (main_arg6 : DevRef τ sig)) := by
  after_results_simp <;> rfl

/-- After stretch C the result buffer holds `norm` of the contents of %28 and the scale and shift. -/
theorem afterC_v47 : after opsC V (main_v47 : DevRef τ sig) = norm (V (main_v28 : DevRef τ sig)) (V (main_arg7 : DevRef τ sig)) (V (main_arg8 : DevRef τ sig)) := by
  after_results_simp <;> rfl

/-- The whole line at the result buffer. -/
theorem after_v47 : after ops V (main_v47 : DevRef τ sig)
    = res (V (main_arg0 : DevRef τ sig)) (V (main_arg1 : DevRef τ sig)) (V (main_arg2 : DevRef τ sig)) (V (main_arg3 : DevRef τ sig)) (V (main_arg4 : DevRef τ sig))
        (V (main_arg5 : DevRef τ sig)) (V (main_arg6 : DevRef τ sig)) (V (main_arg7 : DevRef τ sig)) (V (main_arg8 : DevRef τ sig)) := by
  unfold res
  rw [show (ops : List (HloOp τ sig (Elt Ideal))) = opsA ++ (opsB ++ opsC) from rfl, after_app, after_app, afterC_v47, afterB_v28,
    afterA_v15, keepB _ main_arg7 (by decide), keepB _ main_arg8 (by decide), keepA _ main_arg0 (by decide),
    keepA _ main_arg3 (by decide), keepA _ main_arg4 (by decide), keepA _ main_arg5 (by decide), keepA _ main_arg6 (by decide),
    keepA _ main_arg7 (by decide), keepA _ main_arg8 (by decide)]

/-- The whole line at an argument buffer: no operation writes it. -/
theorem after_arg (r : Ref sig .tc) (hA : r ∉ opsA_W) (hB : r ∉ opsB_W) (hC : r ∉ opsC_W) :
    after ops V (Proc.devRef .tc r) = V (Proc.devRef .tc r) := by
  rw [show (ops : List (HloOp τ sig (Elt Ideal))) = opsA ++ (opsB ++ opsC) from rfl, after_app, after_app, keepC _ r hC, keepB _ r hB, keepA _ r hA]

end Values

/-! ## The run -/

/-- From any memory with zero counters, every weakly fair execution of @main terminates with the result buffer at `res`
    of the nine argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47)
        = res (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => ⟨(h c main_v47).trans (after_v47 (launchContents m c)),
      (h c main_arg0).trans (after_arg (launchContents m c) main_arg0 (by decide) (by decide) (by decide)),
      (h c main_arg1).trans (after_arg (launchContents m c) main_arg1 (by decide) (by decide) (by decide)),
      (h c main_arg2).trans (after_arg (launchContents m c) main_arg2 (by decide) (by decide) (by decide)),
      (h c main_arg3).trans (after_arg (launchContents m c) main_arg3 (by decide) (by decide) (by decide)),
      (h c main_arg4).trans (after_arg (launchContents m c) main_arg4 (by decide) (by decide) (by decide)),
      (h c main_arg5).trans (after_arg (launchContents m c) main_arg5 (by decide) (by decide) (by decide)),
      (h c main_arg6).trans (after_arg (launchContents m c) main_arg6 (by decide) (by decide) (by decide)),
      (h c main_arg7).trans (after_arg (launchContents m c) main_arg7 (by decide) (by decide) (by decide)),
      (h c main_arg8).trans (after_arg (launchContents m c) main_arg8 (by decide) (by decide) (by decide))⟩)
    (run_seq scopedRefs_eq scopedSems_eq (defs (F := Ideal)) (main (F := Ideal)) (fun _ => ops) main_eq (fun _ => ops_sub) m ρ)

end Cert.ReferenceIdeal.Hand

end
-- ==== Proof.KernelIdeal.HostK.lean ====
/-
  The host operations of the kernel's program, read back.

  Before the first region the program computes the aggregated messages by the same operations as the reference
  (the edge endpoints out of the index table, the wrapped gather of source rows, the added edge features, relu, the
  scatter-add at the target rows) and lays the two bias vectors out as one-row matrices.  Between the two regions
  it turns the two accumulated column sums s1 = Σ H and s2 = Σ H² into the mean s1 / n and the clamped variance
  max(s2 / n − (s1 / n)², 0), n the word of 50000, and lays the scale and shift out as one-row matrices.
  Each stretch is read from ARBITRARY contents before it: what it writes as a function of what it reads, and every
  buffer it does not write unchanged.
-/
import proofs.«174337_j74947179316231_2_alg».proof.Proof.Gen.KernelIdeal.Launch
import proofs.«174337_j74947179316231_2_alg».proof.Proof.Gen.KernelIdeal.Regions
import proofs.«174337_j74947179316231_2_alg».proof.Proof.Spec
import proofs.«174337_j74947179316231_2_alg».proof.Proof.RefRun
import proofs.«174337_j74947179316231_2_alg».proof.Proof.LibRowSpread
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

/-- The aggregated messages as the kernel's program computes them: the scatter-add, into a zero array at the target
    node of each edge, of relu(x[src] + edge_attr), the source index wrapped by 50000 when negative. -/
def aggK (x : FVec Ideal S50000x128 .f32) (ei : IVec S2x800000 32) (ea : FVec Ideal S800000x128 .f32) :
    FVec Ideal S50000x128 .f32 :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast S800000 (extractStridedSlice S1x800000 ![1, 0] ei slices_S2x800000_S1x800000_1_0) shapeCasts_S1x800000_S800000)) (maximumf (addf (Host.gather gather_S50000x128_S800000x1_S800000x128_1_0_n_n_0_1_1128 x (broadcastInDim S800000x1 ![0] bcast_S800000_S800000x1_0 (select (cmpi .slt (shapeCast S800000 (extractStridedSlice S1x800000 ![0, 0] ei slices_S2x800000_S1x800000_0_0) shapeCasts_S1x800000_S800000) (broadcastInDim S800000 ![] bcast_S_S800000 (constantI S_ 32 0#32))) (addi (shapeCast S800000 (extractStridedSlice S1x800000 ![0, 0] ei slices_S2x800000_S1x800000_0_0) shapeCasts_S1x800000_S800000) (broadcastInDim S800000 ![] bcast_S_S800000 (constantI S_ 32 50000#32))) (shapeCast S800000 (extractStridedSlice S1x800000 ![0, 0] ei slices_S2x800000_S1x800000_0_0) shapeCasts_S1x800000_S800000)))) ea) (broadcastInDim S800000x128 ![] bcast_S_S800000x128 (constant (F := Ideal) S_ .f32 0x00000000#32)))

variable (W : Valuation τ sig (Elt Ideal))

/-! ## Before the first region -/

/-- After the three stretches the buffer of %15 holds the aggregated messages of the three arrays they read. -/
theorem host0_v15 : StableHlo.after hostOps0_2 (StableHlo.after hostOps0_1 (StableHlo.after hostOps0 W)) (main_v15 : DevRef τ sig)
    = aggK (W (main_arg0 : DevRef τ sig)) (W (main_arg1 : DevRef τ sig)) (W (main_arg2 : DevRef τ sig)) := by
  after_results_simp <;> rfl

/-- The buffer of %16 is the first bias vector laid out as one row. -/
theorem host0_v16 : StableHlo.after hostOps0_2 (StableHlo.after hostOps0_1 (StableHlo.after hostOps0 W)) (main_v16 : DevRef τ sig)
    = shapeCast S1x128 (W (main_arg4 : DevRef τ sig)) shapeCasts_S128_S1x128 := by
  after_results_simp <;> rfl

/-- The buffer of %17 is the second bias vector laid out as one row. -/
theorem host0_v17 : StableHlo.after hostOps0_2 (StableHlo.after hostOps0_1 (StableHlo.after hostOps0 W)) (main_v17 : DevRef τ sig)
    = shapeCast S1x128 (W (main_arg6 : DevRef τ sig)) shapeCasts_S128_S1x128 := by
  after_results_simp <;> rfl

/-- The one-row first bias at (0, k) is the bias at k. -/
theorem host0_v16_apply (k : Fin 128) :
    StableHlo.after hostOps0_2 (StableHlo.after hostOps0_1 (StableHlo.after hostOps0 W)) (main_v16 : DevRef τ sig) (ix2 (0 : Fin 1) k) = W (main_arg4 : DevRef τ sig) (ix1 k) := by
  rw [host0_v16]
  exact shapeCast_a_1a_apply (W (main_arg4 : DevRef τ sig)) shapeCasts_S128_S1x128 (0 : Fin 1) k

/-- The one-row second bias at (0, k) is the bias at k. -/
theorem host0_v17_apply (k : Fin 128) :
    StableHlo.after hostOps0_2 (StableHlo.after hostOps0_1 (StableHlo.after hostOps0 W)) (main_v17 : DevRef τ sig) (ix2 (0 : Fin 1) k) = W (main_arg6 : DevRef τ sig) (ix1 k) := by
  rw [host0_v17]
  exact shapeCast_a_1a_apply (W (main_arg6 : DevRef τ sig)) shapeCasts_S128_S1x128 (0 : Fin 1) k

/-- A buffer none of the three stretches writes keeps its contents. -/
theorem host0_keep (r : Ref sig .tc) (h0 : r ∉ hostOps0_W) (h1 : r ∉ hostOps0_1_W) (h2 : r ∉ hostOps0_2_W) :
    StableHlo.after hostOps0_2 (StableHlo.after hostOps0_1 (StableHlo.after hostOps0 W)) (r : DevRef τ sig) = W (r : DevRef τ sig) := by
  rw [after_of_writes_sub hostOps0_2 _ hostOps0_2_writes h2, after_of_writes_sub hostOps0_1 _ hostOps0_1_writes h1,
    after_of_writes_sub hostOps0 _ hostOps0_writes h0]

/-! ## Between the two regions -/

/-- The buffer of %20: the first accumulated row over the word of 50000, entry by entry. -/
theorem host1_v20 : StableHlo.after hostOps1 W (main_v20 : DevRef τ sig)
    = Host.divf (F := Ideal) (W (main_v18_1 : DevRef τ sig)) (broadcastInDim S1x128 ![] bcast_S_S1x128 (constant (F := Ideal) S_ .f32 0x47435000#32)) := by
  after_results_simp <;> rfl

/-- The buffer of %26: the second accumulated row over the word of 50000, minus the square of %20, clamped at zero. -/
theorem host1_v26 : StableHlo.after hostOps1 W (main_v26 : DevRef τ sig)
    = maximumf (subf (Host.divf (F := Ideal) (W (main_v18_2 : DevRef τ sig)) (broadcastInDim S1x128 ![] bcast_S_S1x128 (constant (F := Ideal) S_ .f32 0x47435000#32)))
        (mulf (Host.divf (F := Ideal) (W (main_v18_1 : DevRef τ sig)) (broadcastInDim S1x128 ![] bcast_S_S1x128 (constant (F := Ideal) S_ .f32 0x47435000#32)))
          (Host.divf (F := Ideal) (W (main_v18_1 : DevRef τ sig)) (broadcastInDim S1x128 ![] bcast_S_S1x128 (constant (F := Ideal) S_ .f32 0x47435000#32)))))
        (broadcastInDim S1x128 ![] bcast_S_S1x128 (constant (F := Ideal) S_ .f32 0x00000000#32)) := by
  after_results_simp <;> rfl

/-- The buffer of %27 is the scale vector laid out as one row. -/
theorem host1_v27 : StableHlo.after hostOps1 W (main_v27 : DevRef τ sig)
    = shapeCast S1x128 (W (main_arg7 : DevRef τ sig)) shapeCasts_S128_S1x128 := by
  after_results_simp <;> rfl

/-- The buffer of %28 is the shift vector laid out as one row. -/
theorem host1_v28 : StableHlo.after hostOps1 W (main_v28 : DevRef τ sig)
    = shapeCast S1x128 (W (main_arg8 : DevRef τ sig)) shapeCasts_S128_S1x128 := by
  after_results_simp <;> rfl

/-- A scalar word spread over a one-row matrix reads the word's value everywhere. -/
theorem wordRow_apply (w : BitVec 32) (j : Fin 128) :
    broadcastInDim S1x128 ![] bcast_S_S1x128 (constant (F := Ideal) S_ .f32 w) (ix2 (0 : Fin 1) j) = Ideal.ofBits .f32 w :=
  RowSpread.scalarInDim_apply (constant (F := Ideal) S_ .f32 w) bcast_S_S1x128 (ix2 (0 : Fin 1) j)

/-- The mean row at (0, j): the first accumulated sum over n. -/
theorem host1_v20_apply (j : Fin 128) :
    StableHlo.after hostOps1 W (main_v20 : DevRef τ sig) (ix2 (0 : Fin 1) j)
      = Ideal.div (W (main_v18_1 : DevRef τ sig) (ix2 (0 : Fin 1) j)) Cert.Spec.nN := by
  rw [host1_v20]
  show Ideal.div (W (main_v18_1 : DevRef τ sig) (ix2 (0 : Fin 1) j))
      (broadcastInDim S1x128 ![] bcast_S_S1x128 (constant (F := Ideal) S_ .f32 0x47435000#32) (ix2 (0 : Fin 1) j)) = _
  rw [wordRow_apply]
  rfl

/-- The variance row at (0, j): the second accumulated sum over n, minus the squared mean, clamped at zero. -/
theorem host1_v26_apply (j : Fin 128) :
    StableHlo.after hostOps1 W (main_v26 : DevRef τ sig) (ix2 (0 : Fin 1) j)
      = max (Ideal.div (W (main_v18_2 : DevRef τ sig) (ix2 (0 : Fin 1) j)) Cert.Spec.nN
          - Ideal.div (W (main_v18_1 : DevRef τ sig) (ix2 (0 : Fin 1) j)) Cert.Spec.nN
            * Ideal.div (W (main_v18_1 : DevRef τ sig) (ix2 (0 : Fin 1) j)) Cert.Spec.nN) 0 := by
  rw [host1_v26]
  show max (Ideal.div (W (main_v18_2 : DevRef τ sig) (ix2 (0 : Fin 1) j))
          (broadcastInDim S1x128 ![] bcast_S_S1x128 (constant (F := Ideal) S_ .f32 0x47435000#32) (ix2 (0 : Fin 1) j))
        - Ideal.div (W (main_v18_1 : DevRef τ sig) (ix2 (0 : Fin 1) j))
            (broadcastInDim S1x128 ![] bcast_S_S1x128 (constant (F := Ideal) S_ .f32 0x47435000#32) (ix2 (0 : Fin 1) j))
          * Ideal.div (W (main_v18_1 : DevRef τ sig) (ix2 (0 : Fin 1) j))
            (broadcastInDim S1x128 ![] bcast_S_S1x128 (constant (F := Ideal) S_ .f32 0x47435000#32) (ix2 (0 : Fin 1) j)))
      (broadcastInDim S1x128 ![] bcast_S_S1x128 (constant (F := Ideal) S_ .f32 0x00000000#32) (ix2 (0 : Fin 1) j)) = _
  rw [wordRow_apply, wordRow_apply, Ideal.ofBits_zero_f32]
  rfl

/-- The one-row scale at (0, j) is the scale at j. -/
theorem host1_v27_apply (j : Fin 128) :
    StableHlo.after hostOps1 W (main_v27 : DevRef τ sig) (ix2 (0 : Fin 1) j) = W (main_arg7 : DevRef τ sig) (ix1 j) := by
  rw [host1_v27]
  exact shapeCast_a_1a_apply (W (main_arg7 : DevRef τ sig)) shapeCasts_S128_S1x128 (0 : Fin 1) j

/-- The one-row shift at (0, j) is the shift at j. -/
theorem host1_v28_apply (j : Fin 128) :
    StableHlo.after hostOps1 W (main_v28 : DevRef τ sig) (ix2 (0 : Fin 1) j) = W (main_arg8 : DevRef τ sig) (ix1 j) := by
  rw [host1_v28]
  exact shapeCast_a_1a_apply (W (main_arg8 : DevRef τ sig)) shapeCasts_S128_S1x128 (0 : Fin 1) j

/-- A buffer the stretch between the regions does not write keeps its contents. -/
theorem host1_keep (r : Ref sig .tc) (h : r ∉ hostOps1_W) :
    StableHlo.after hostOps1 W (r : DevRef τ sig) = W (r : DevRef τ sig) :=
  after_of_writes_sub hostOps1 _ hostOps1_writes h

/-! ## The two programs aggregate alike -/

/-- The kernel's program and the reference aggregate by the same operations over the same shapes and dimension
    numbers: the two spellings are one term. -/
theorem aggK_eq_agg (x : FVec Ideal S50000x128 .f32) (ei : IVec S2x800000 32) (ea : FVec Ideal S800000x128 .f32) :
    aggK x ei ea = Cert.ReferenceIdeal.Hand.agg x ei ea := by
  unfold aggK Cert.ReferenceIdeal.Hand.agg
  rfl

end Cert.KernelIdeal.Hand

end
-- ==== Proof.KernelIdeal.Mats.lean ====
/-
  The argument arrays of the kernel program, read as the matrices and vectors the specification is stated over:
  the node features, the aggregated messages (the host chain's result on the first three arguments), the two weight
  matrices, the two biases, the scale and the shift.
-/
import proofs.«174337_j74947179316231_2_alg».proof.Proof.KernelIdeal.HostK
import proofs.«174337_j74947179316231_2_alg».proof.Proof.Spec
import Idealize.ShloMosaic.Lib.ValueIdx

noncomputable section

namespace Cert.KernelIdeal.Hand

open Cert.KernelIdeal Idealize.ShloMosaic Idealize.ShloMosaic.TcCoe Idealize.SL.Sem Idealize.ShloMosaic.ValueIdx

variable (m : (ℓ : Loc nD τ sig) → Buf (Elt Ideal) ℓ) (c : Dev nD)

def matX : Cert.Spec.Mat 50000 128 := fun r j => m ((c.tc : Thread nD τ).loc main_arg0) (ix2 r j)
def matAgg : Cert.Spec.Mat 50000 128 := fun r j =>
  aggK (m ((c.tc : Thread nD τ).loc main_arg0)) (m ((c.tc : Thread nD τ).loc main_arg1)) (m ((c.tc : Thread nD τ).loc main_arg2)) (ix2 r j)
def matW1 : Cert.Spec.Mat 128 128 := fun l k => m ((c.tc : Thread nD τ).loc main_arg3) (ix2 l k)
def matW2 : Cert.Spec.Mat 128 128 := fun k j => m ((c.tc : Thread nD τ).loc main_arg5) (ix2 k j)
def vecB1 : Fin 128 → EReal := fun k => m ((c.tc : Thread nD τ).loc main_arg4) (ix1 k)
def vecB2 : Fin 128 → EReal := fun j => m ((c.tc : Thread nD τ).loc main_arg6) (ix1 j)
def vecG : Fin 128 → EReal := fun j => m ((c.tc : Thread nD τ).loc main_arg7) (ix1 j)
def vecBe : Fin 128 → EReal := fun j => m ((c.tc : Thread nD τ).loc main_arg8) (ix1 j)

/-- The kernel's result as the specification states it. -/
def outSpec : Cert.Spec.Mat 50000 128 :=
  Cert.Spec.outK (matX m c) (matAgg m c) (matW1 m c) (matW2 m c) (vecB1 m c) (vecB2 m c) (vecG m c) (vecBe m c)

end Cert.KernelIdeal.Hand

end
-- ==== Proof.KernelIdeal.Value.lean ====
/-
  The kernel program's result, index by index, is the specification's normalised output.

  Region 0 is entered with the node features, the aggregated messages (the host chain on the first three arguments),
  the two weight matrices and the two biases as rows; so after it the big array holds the residual layer H, the two
  small arrays its column sums and the column sums of its squares. The host stretch between the regions divides both
  by the row count and forms mean and max(mean of squares − squared mean, 0). Region 1 writes, tile by tile,
  (H − mean) · rsqrt(variance + eps) · gamma + beta.
-/
import proofs.«174337_j74947179316231_2_alg».proof.Proof.KernelIdeal.Value0
import proofs.«174337_j74947179316231_2_alg».proof.Proof.KernelIdeal.Blocks1
import proofs.«174337_j74947179316231_2_alg».proof.Proof.KernelIdeal.Run
import proofs.«174337_j74947179316231_2_alg».proof.Proof.KernelIdeal.HostK
import proofs.«174337_j74947179316231_2_alg».proof.Proof.KernelIdeal.Mats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg) (c : Dev nD)

/-! ## Region 0's entry contents are the arguments and the aggregated messages -/

theorem eX_eq : eX (V3 m ρ) c = matX m c := by
  funext r j
  exact congrFun (host0_keep (W0 m ρ c) main_arg0 (by decide) (by decide) (by decide)) (ix2 r j)
theorem eA_eq : eA (V3 m ρ) c = matAgg m c := by
  funext r j
  exact congrFun (host0_v15 (W0 m ρ c)) (ix2 r j)
theorem eW1_eq : eW1 (V3 m ρ) c = matW1 m c := by
  funext l k
  exact congrFun (host0_keep (W0 m ρ c) main_arg3 (by decide) (by decide) (by decide)) (ix2 l k)
theorem eW2_eq : eW2 (V3 m ρ) c = matW2 m c := by
  funext k j
  exact congrFun (host0_keep (W0 m ρ c) main_arg5 (by decide) (by decide) (by decide)) (ix2 k j)
theorem eB1_eq : eB1 (V3 m ρ) c = vecB1 m c := by
  funext k
  exact host0_v16_apply (W0 m ρ c) k
theorem eB2_eq : eB2 (V3 m ρ) c = vecB2 m c := by
  funext j
  exact host0_v17_apply (W0 m ρ c) j

/-- The residual layer on the arguments. -/
abbrev mH : Cert.Spec.Mat 50000 128 := Cert.Spec.H (matX m c) (matAgg m c) (matW1 m c) (matW2 m c) (vecB1 m c) (vecB2 m c)

theorem eH_eq : eH (V3 m ρ) c = mH m c := by
  unfold eH
  rw [eX_eq, eA_eq, eW1_eq, eW2_eq, eB1_eq, eB2_eq]

/-! ## After region 0 -/

theorem W4_v18_0 (r : Fin 50000) (j : Fin 128) :
    (W4 m ρ c (Proc.devRef .tc main_v18_0) : S50000x128.Idx → EReal) (ix2 r j) = mH m c r j := by
  rw [← eH_eq m ρ c]
  exact (congrFun (W4_arr m ρ c 6) (ix2 r j)).trans (arr6_eq (V3 m ρ) c r j)
theorem W4_v18_1 (j : Fin 128) :
    (W4 m ρ c (Proc.devRef .tc main_v18_1) : S1x128.Idx → EReal) (ix2 (0 : Fin 1) j)
      = Cert.Spec.colSum (matX m c) (matAgg m c) (matW1 m c) (matW2 m c) (vecB1 m c) (vecB2 m c) j := by
  rw [← eX_eq m ρ c, ← eA_eq m ρ c, ← eW1_eq m ρ c, ← eW2_eq m ρ c, ← eB1_eq m ρ c, ← eB2_eq m ρ c]
  exact (congrFun (W4_arr m ρ c 7) (ix2 (0 : Fin 1) j)).trans (arr7_eq (V3 m ρ) c j)
theorem W4_v18_2 (j : Fin 128) :
    (W4 m ρ c (Proc.devRef .tc main_v18_2) : S1x128.Idx → EReal) (ix2 (0 : Fin 1) j)
      = Cert.Spec.colSumSq (matX m c) (matAgg m c) (matW1 m c) (matW2 m c) (vecB1 m c) (vecB2 m c) j := by
  rw [← eX_eq m ρ c, ← eA_eq m ρ c, ← eW1_eq m ρ c, ← eW2_eq m ρ c, ← eB1_eq m ρ c, ← eB2_eq m ρ c]
  exact (congrFun (W4_arr m ρ c 8) (ix2 (0 : Fin 1) j)).trans (arr8_eq (V3 m ρ) c j)
/-- Region 0 leaves the arguments' buffers alone. -/
theorem W4_arg7 : W4 m ρ c (Proc.devRef .tc main_arg7) = m ((c : Thread nD τ).loc main_arg7) :=
  (W4_of_ne m ρ c main_arg7 (by decide)).trans (host0_keep (W0 m ρ c) main_arg7 (by decide) (by decide) (by decide))
theorem W4_arg8 : W4 m ρ c (Proc.devRef .tc main_arg8) = m ((c : Thread nD τ).loc main_arg8) :=
  (W4_of_ne m ρ c main_arg8 (by decide)).trans (host0_keep (W0 m ρ c) main_arg8 (by decide) (by decide) (by decide))

/-! ## Region 1's entry contents -/

theorem V5_h (r : Fin 50000) (j : Fin 128) :
    (V5 m ρ c main_v18_0 : S50000x128.Idx → EReal) (ix2 r j) = mH m c r j :=
  (congrFun (host1_keep (W4 m ρ c) main_v18_0 (by decide)) (ix2 r j)).trans (W4_v18_0 m ρ c r j)
theorem V5_mean (j : Fin 128) :
    (V5 m ρ c main_v20 : S1x128.Idx → EReal) (ix2 (0 : Fin 1) j)
      = Cert.Spec.mean (matX m c) (matAgg m c) (matW1 m c) (matW2 m c) (vecB1 m c) (vecB2 m c) j := by
  refine (host1_v20_apply (W4 m ρ c) j).trans ?_
  rw [W4_v18_1]; rfl
theorem V5_var (j : Fin 128) :
    (V5 m ρ c main_v26 : S1x128.Idx → EReal) (ix2 (0 : Fin 1) j)
      = Cert.Spec.varK (matX m c) (matAgg m c) (matW1 m c) (matW2 m c) (vecB1 m c) (vecB2 m c) j := by
  refine (host1_v26_apply (W4 m ρ c) j).trans ?_
  rw [W4_v18_1, W4_v18_2]; rfl
theorem V5_gamma (j : Fin 128) : (V5 m ρ c main_v27 : S1x128.Idx → EReal) (ix2 (0 : Fin 1) j) = vecG m c j :=
  (host1_v27_apply (W4 m ρ c) j).trans (congrFun (W4_arg7 m ρ c) (ix1 j))
theorem V5_beta (j : Fin 128) : (V5 m ρ c main_v28 : S1x128.Idx → EReal) (ix2 (0 : Fin 1) j) = vecBe m c j :=
  (host1_v28_apply (W4 m ρ c) j).trans (congrFun (W4_arg8 m ρ c) (ix1 j))

/-! ## The result -/

/-- One entry of a normalised tile, over a variable buffer for the tile. -/
theorem tile1_apply (t : Fin cfg1.N) (X : Vec Ideal S2000x128 .f32)
    (hX : X = k1_pay1 (F := Ideal) (iblk1 (V5 m ρ) c 2 t) (iblk1 (V5 m ρ) c 0 t) (iblk1 (V5 m ρ) c 1 t) (iblk1 (V5 m ρ) c 3 t) (iblk1 (V5 m ρ) c 4 t))
    (p : Fin 2000) (j : Fin 128) :
    X (ix2 p j) = outSpec m c ⟨2000 * t.val + p.val, by have := lt25' t.isLt; omega⟩ j := by
  subst hX
  refine (k1_pay1_apply (iblk1 (V5 m ρ) c 2 t) (iblk1 (V5 m ρ) c 0 t) (iblk1 (V5 m ρ) c 1 t) (iblk1 (V5 m ρ) c 3 t) (iblk1 (V5 m ρ) c 4 t) p j).trans ?_
  simp only [iblk1_0_apply, iblk1_1_apply, iblk1_2_apply, iblk1_3_apply, iblk1_4_apply]
  rw [V5_h, V5_mean, V5_var, V5_gamma, V5_beta]
  rfl

/-- The result buffer after the whole run, index by index. -/
theorem kernel_value (r : Fin 50000) (j : Fin 128) :
    (W6 m ρ c (Proc.devRef .tc main_v29) : S50000x128.Idx → EReal) (ix2 r j) = outSpec m c r j := by
  refine (congrFun (W6_arr m ρ c 5) (ix2 r j)).trans ?_
  refine (arr1_5_apply (V5 m ρ) c r j).trans ?_
  have hq : r.val / 2000 < cfg1.N := lt_cfg1N (by have := r.isLt; omega)
  refine (tile1_apply m ρ c ⟨r.val / 2000, hq⟩ _ (out1_eq (V5 m ρ) c ⟨r.val / 2000, hq⟩) ⟨r.val % 2000, Nat.mod_lt _ (by norm_num)⟩ j).trans ?_
  exact congrArg (fun r' => outSpec m c r' j) (Fin.ext (by dsimp only; omega))

end Cert.KernelIdeal.Hand

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.SpecLaw.lean ====
/-
  The two forms of the batch variance agree on real inputs.

  The row count the programs divide by is the f32 word of 50000, which denotes exactly the real number 50000.
  When every entry of x, agg, the two weight matrices and the two biases is a real number, every entry of the
  residual layer H is a real number: it is built from them by finitely many sums, products and maxima with zero.
  For a column of 50000 real numbers the mean of the squares minus the square of the mean is the mean of the
  squared deviations, a nonnegative number, so clamping it at zero changes nothing: the two variances are the
  same extended real, and with them the two normalised outputs. Nothing is asked of the scale gamma and the
  shift beta, which enter both outputs in the same way.
-/
import proofs.«174337_j74947179316231_2_alg».proof.Proof.Spec
import proofs.«174337_j74947179316231_2_alg».proof.Proof.LibRealSums

noncomputable section

namespace Cert.Spec

open Idealize.ShloMosaic Cert.RealSums

/-- The f32 word 0x47435000 has exponent field 142 and fraction 4411392: (2^23 + 4411392) · 2^(142 − 150) = 50000. -/
theorem nN_eq : nN = ((50000 : ℝ) : EReal) := by
  unfold nN
  simp [Ideal.ofBits, Ideal.ieee, -EReal.coe_mul]
  norm_num

/-- Every entry of the residual layer is a real number when all its inputs are. -/
theorem H_isReal (x agg : Mat 50000 128) (W1 W2 : Mat 128 128) (b1 b2 : Fin 128 → EReal)
    (hx : ∀ r j, IsReal (x r j)) (hagg : ∀ r j, IsReal (agg r j))
    (hW1 : ∀ l k, IsReal (W1 l k)) (hW2 : ∀ k j, IsReal (W2 k j))
    (hb1 : ∀ k, IsReal (b1 k)) (hb2 : ∀ j, IsReal (b2 j)) :
    ∀ r j, IsReal (H x agg W1 W2 b1 b2 r j) := by
  intro r j
  unfold H hid
  exact isReal_add (hx r j) (isReal_add
    (isReal_sum _ (fun k => isReal_mul
      (isReal_max (isReal_add
        (isReal_sum _ (fun l => isReal_mul (isReal_add (hx r l) (hagg r l)) (hW1 l k))) (hb1 k)) isReal_zero)
      (hW2 k j)))
    (hb2 j))

/-- On real inputs the clamped difference-of-means variance is the mean of the squared deviations. -/
theorem varK_eq_varR (x agg : Mat 50000 128) (W1 W2 : Mat 128 128) (b1 b2 : Fin 128 → EReal)
    (hx : ∀ r j, IsReal (x r j)) (hagg : ∀ r j, IsReal (agg r j))
    (hW1 : ∀ l k, IsReal (W1 l k)) (hW2 : ∀ k j, IsReal (W2 k j))
    (hb1 : ∀ k, IsReal (b1 k)) (hb2 : ∀ j, IsReal (b2 j)) :
    varK x agg W1 W2 b1 b2 = varR x agg W1 W2 b1 b2 := by
  funext j
  unfold varK varR mean colSum colSumSq
  rw [nN_eq]
  exact var_law (fun r => H x agg W1 W2 b1 b2 r j)
    (fun r => H_isReal x agg W1 W2 b1 b2 hx hagg hW1 hW2 hb1 hb2 r j) 50000 (by simp) (by norm_num)

/-- On real inputs the two normalised outputs are the same matrix. -/
theorem outK_eq_outR (x agg : Mat 50000 128) (W1 W2 : Mat 128 128) (b1 b2 gamma beta : Fin 128 → EReal)
    (hx : ∀ r j, IsReal (x r j)) (hagg : ∀ r j, IsReal (agg r j))
    (hW1 : ∀ l k, IsReal (W1 l k)) (hW2 : ∀ k j, IsReal (W2 k j))
    (hb1 : ∀ k, IsReal (b1 k)) (hb2 : ∀ j, IsReal (b2 j)) :
    outK x agg W1 W2 b1 b2 gamma beta = outR x agg W1 W2 b1 b2 gamma beta := by
  unfold outK outR
  rw [varK_eq_varR x agg W1 W2 b1 b2 hx hagg hW1 hW2 hb1 hb2]

end Cert.Spec

end
-- ==== Proof.LibScatterRows.lean ====
/-
  An accumulating scatter of rows, and of single entries, at a column of indices, read at an index, over the
  extended reals.

  What segment_sum lowers to: E update rows (or E update entries) are added into an N × D matrix (a vector of N
  entries) at the row numbers idx[e, 0], read as signed integers and NOT clamped: an update whose index is outside
  [0, N) is dropped. At (p, q) the result is the operand's entry plus the sum over the updates e of
  (the update's entry (e, q) if idx[e, 0] = p, else 0).
-/
import Idealize.ShloMosaic.Lib.ValueIdx
import Idealize.ShloMosaic.PureOps.Ideal.Laws

noncomputable section

open scoped BigOperators

namespace Idealize.ShloMosaic.ScatterRows

open Idealize.ShloMosaic Idealize.ShloMosaic.ValueIdx

/-- The dimension numbers of a row scatter: operand [N, D], scatter indices [E, 1], updates [E, D]. -/
abbrev rowDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

theorem row_start0 : (rowDims N D E wf).start (ix2 e q') idx 0 = (idx (ix2 e (0 : Fin 1))).toInt := by
  unfold ScatterDims.start
  rw [dif_pos (show (0 : Fin 2) ∈ (rowDims N D E wf).scatterDimsToOperandDims from List.mem_singleton.mpr rfl)]
  have hsi : (rowDims N D E wf).siIdx (ix2 e q') ⟨List.idxOf (0 : Fin 2) (rowDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem row_start1 : (rowDims N D E wf).start (ix2 e q') idx 1 = 0 := by
  unfold ScatterDims.start
  rw [dif_neg (show ¬ (1 : Fin 2) ∈ (rowDims N D E wf).scatterDimsToOperandDims from by
    show ¬ (1 : Fin 2) ∈ ([0] : List (Fin 2)); decide)]

theorem row_window0 : (rowDims N D E wf).window (ix2 e q') 0 = 0 := by
  unfold ScatterDims.window
  rw [dif_neg (show ¬ (0 : Fin 2) ∈ (rowDims N D E wf).sKept from by
    simp [ScatterDims.sKept, Shape.kept])]

theorem row_window1 : (rowDims N D E wf).window (ix2 e q') 1 = q'.val := by
  unfold ScatterDims.window
  rw [dif_pos (show (1 : Fin 2) ∈ (rowDims N D E wf).sKept from by
    simp [ScatterDims.sKept, Shape.kept])]
  rfl

/-- An update entry (e, q') lands on (p, q) exactly when its row index is p and its column is q. -/
theorem row_resultIdx_iff (p : Fin N) (q : Fin D) :
    (rowDims N D E wf).resultIdx? (ix2 e q') idx = some (ix2 p q)
      ↔ (idx (ix2 e (0 : Fin 1))).toInt = (p.val : Int) ∧ q' = q := by
  unfold ScatterDims.resultIdx?
  constructor
  · intro h
    split at h
    · next hall =>
      have h0 := congrFun (Option.some.inj h) 0
      have h1 := congrFun (Option.some.inj h) 1
      have e0 := congrArg Fin.val h0
      have e1 := congrArg Fin.val h1
      simp only [row_start0, row_start1, row_window0, row_window1] at e0 e1 hall
      have hb := (hall 0).1
      simp only [row_start0, row_window0] at hb
      refine ⟨?_, Fin.ext ?_⟩
      · have : ((idx (ix2 e (0 : Fin 1))).toInt + ((0 : Nat) : Int)).toNat = p.val := e0
        omega
      · have : ((0 : Int) + (q'.val : Int)).toNat = q.val := e1
        omega
    · exact absurd h (by simp)
  · rintro ⟨hp, rfl⟩
    have hall : ∀ a : Fin 2, 0 ≤ (rowDims N D E wf).start (ix2 e q') idx a + ((rowDims N D E wf).window (ix2 e q') a : Int)
        ∧ (rowDims N D E wf).start (ix2 e q') idx a + ((rowDims N D E wf).window (ix2 e q') a : Int)
          < ((⟨2, ![N, D]⟩ : Shape).size a : Int) := by
      intro a
      match a with
      | ⟨0, _⟩ =>
        show 0 ≤ (rowDims N D E wf).start (ix2 e q') idx 0 + ((rowDims N D E wf).window (ix2 e q') 0 : Int)
          ∧ (rowDims N D E wf).start (ix2 e q') idx 0 + ((rowDims N D E wf).window (ix2 e q') 0 : Int) < (N : Int)
        rw [row_start0, row_window0, hp]
        have := p.isLt
        omega
      | ⟨1, _⟩ =>
        show 0 ≤ (rowDims N D E wf).start (ix2 e q') idx 1 + ((rowDims N D E wf).window (ix2 e q') 1 : Int)
          ∧ (rowDims N D E wf).start (ix2 e q') idx 1 + ((rowDims N D E wf).window (ix2 e q') 1 : Int) < (D : Int)
        rw [row_start1, row_window1]
        have := q'.isLt
        omega
    rw [dif_pos hall]
    refine congrArg some (funext fun a => Fin.ext ?_)
    match a with
    | ⟨0, _⟩ =>
      show ((rowDims N D E wf).start (ix2 e q') idx 0 + ((rowDims N D E wf).window (ix2 e q') 0 : Int)).toNat = p.val
      rw [row_start0, row_window0, hp]; omega
    | ⟨1, _⟩ =>
      show ((rowDims N D E wf).start (ix2 e q') idx 1 + ((rowDims N D E wf).window (ix2 e q') 1 : Int)).toNat = q'.val
      rw [row_start1, row_window1]; omega

end Rows

/-- THE ROW SCATTER READ AT (p, q): the operand's entry plus, over the updates e, the entry (e, q) of the updates
    whose row index is p. -/
theorem scatterAdd_rows_apply {N D E w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (p : Fin N) (q : Fin D) :
    Host.scatterAdd (rowDims N D E wf) x idx upd (ix2 p q)
      = x (ix2 p q) + ∑ e : Fin E, if (idx (ix2 e (0 : Fin 1))).toInt = (p.val : Int) then upd (ix2 e q) else 0 := by
  show Ideal.hostScatterAdd (rowDims N D E wf) x idx upd (ix2 p q) = _
  unfold Ideal.hostScatterAdd
  refine congrArg (x (ix2 p q) + ·) ?_
  rw [Finset.sum_filter, sum_idx2]
  refine Finset.sum_congr rfl fun e _ => ?_
  simp only [row_resultIdx_iff wf idx e _ p q]
  by_cases hp : (idx (ix2 e (0 : Fin 1))).toInt = (p.val : Int)
  · simp only [hp, true_and, if_true]
    rw [Finset.sum_ite_eq' Finset.univ q (fun b => upd (ix2 e b))]
    simp
  · simp only [hp, false_and, if_false, Finset.sum_const_zero]

/-- The dimension numbers of an entry scatter: operand [N], scatter indices [E, 1], updates [E]. -/
abbrev entryDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Entries
variable {N E w : Nat} (wf : ScatterDims.WF ⟨1, ![N]⟩ ⟨2, ![E, 1]⟩ ⟨1, ![E]⟩ [] [0] [0] 1)
  (idx : IVec ⟨2, ![E, 1]⟩ w) (e : Fin E)

theorem entry_start0 : (entryDims N E wf).start (ix1 e) idx 0 = (idx (ix2 e (0 : Fin 1))).toInt := by
  unfold ScatterDims.start
  rw [dif_pos (show (0 : Fin 1) ∈ (entryDims N E wf).scatterDimsToOperandDims from List.mem_singleton.mpr rfl)]
  have hsi : (entryDims N E wf).siIdx (ix1 e) ⟨List.idxOf (0 : Fin 1) (entryDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem entry_window0 : (entryDims N E wf).window (ix1 e) 0 = 0 := by
  unfold ScatterDims.window
  rw [dif_neg (show ¬ (0 : Fin 1) ∈ (entryDims N E wf).sKept from by
    simp [ScatterDims.sKept, Shape.kept])]

/-- An update entry e lands on p exactly when its index is p. -/
theorem entry_resultIdx_iff (p : Fin N) :
    (entryDims N E wf).resultIdx? (ix1 e) idx = some (ix1 p) ↔ (idx (ix2 e (0 : Fin 1))).toInt = (p.val : Int) := by
  unfold ScatterDims.resultIdx?
  constructor
  · intro h
    split at h
    · next hall =>
      have h0 := congrFun (Option.some.inj h) 0
      have e0 := congrArg Fin.val h0
      have hb := (hall 0).1
      simp only [entry_start0, entry_window0] at hb
      have : ((entryDims N E wf).start (ix1 e) idx 0 + ((entryDims N E wf).window (ix1 e) 0 : Int)).toNat = p.val := e0
      rw [entry_start0, entry_window0] at this
      omega
    · exact absurd h (by simp)
  · intro hp
    have hall : ∀ a : Fin 1, 0 ≤ (entryDims N E wf).start (ix1 e) idx a + ((entryDims N E wf).window (ix1 e) a : Int)
        ∧ (entryDims N E wf).start (ix1 e) idx a + ((entryDims N E wf).window (ix1 e) a : Int)
          < ((⟨1, ![N]⟩ : Shape).size a : Int) := by
      intro a
      obtain rfl : a = 0 := Subsingleton.elim _ _
      rw [entry_start0, entry_window0, hp]
      have := p.isLt
      show (0 : Int) ≤ (p.val : Int) + ((0 : Nat) : Int) ∧ (p.val : Int) + ((0 : Nat) : Int) < (N : Int)
      omega
    rw [dif_pos hall]
    refine congrArg some (funext fun a => Fin.ext ?_)
    obtain rfl : a = 0 := Subsingleton.elim _ _
    show ((entryDims N E wf).start (ix1 e) idx 0 + ((entryDims N E wf).window (ix1 e) 0 : Int)).toNat = p.val
    rw [entry_start0, entry_window0, hp]; omega

end Entries

/-- A sum over a rank-1 index is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE ENTRY SCATTER READ AT p: the operand's entry plus, over the updates e, the update whose index is p. -/
theorem scatterAdd_entries_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (p : Fin N) :
    Host.scatterAdd (entryDims N E wf) x idx upd (ix1 p)
      = x (ix1 p) + ∑ e : Fin E, if (idx (ix2 e (0 : Fin 1))).toInt = (p.val : Int) then upd (ix1 e) else 0 := by
  show Ideal.hostScatterAdd (entryDims N E wf) x idx upd (ix1 p) = _
  unfold Ideal.hostScatterAdd
  refine congrArg (x (ix1 p) + ·) ?_
  rw [Finset.sum_filter, sum_idx1]
  refine Finset.sum_congr rfl fun e _ => ?_
  simp only [entry_resultIdx_iff wf idx e p]

end Idealize.ShloMosaic.ScatterRows

end
-- ==== Proof.AggReal.lean ====
/-
  The aggregated messages are real numbers when the node features and the edge attributes are.

  A message is max(x[src e] + edge_attr e, 0), entry by entry: the row of x that a gather reads for edge e is
  some row of x, whichever index the integer column names, so each entry of a message is the maximum of a sum
  of two real numbers and zero, a real number. The aggregation adds the messages into a zero matrix at the rows
  the second integer column names: its entry at (p, q) is zero plus the sum, over the edges e, of the message's
  entry (e, q) when e's row index is p and of zero otherwise, a finite sum of real numbers. Nothing is asked
  of the two index columns.
-/
import proofs.«174337_j74947179316231_2_alg».proof.Proof.Spec
import proofs.«174337_j74947179316231_2_alg».proof.Proof.LibRealSums
import proofs.«174337_j74947179316231_2_alg».proof.Proof.LibScatterRows
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx Cert.RealSums

/-- The zero word of f32 is the real number zero. -/
theorem isReal_zeroWord : IsReal (Ideal.ofBits .f32 0x00000000#32) :=
  ⟨0, by rw [Ideal.ofBits_zero_f32]; rfl⟩

/-- Every entry of segment_sum(max(x[i1] + ea, 0), i2) is a real number when x and ea have real entries. -/
theorem agg_isReal
    (gd : GatherDims ⟨2, ![50000, 128]⟩ ⟨2, ![800000, 1]⟩ ⟨2, ![800000, 128]⟩)
    (swf : ScatterDims.WF ⟨2, ![50000, 128]⟩ ⟨2, ![800000, 1]⟩ ⟨2, ![800000, 128]⟩ [1] [0] [0] 1)
    (bcE : (⟨0, ![]⟩ : Shape).BroadcastsInDim ⟨2, ![800000, 128]⟩ (![] : Fin 0 → Fin 2))
    (bcN : (⟨0, ![]⟩ : Shape).BroadcastsInDim ⟨2, ![50000, 128]⟩ (![] : Fin 0 → Fin 2))
    (x : FVec Ideal ⟨2, ![50000, 128]⟩ .f32) (ea : FVec Ideal ⟨2, ![800000, 128]⟩ .f32)
    (i1 i2 : IVec ⟨2, ![800000, 1]⟩ 32)
    (hx : ∀ i, IsReal (x i)) (hea : ∀ i, IsReal (ea i)) :
    ∀ i, IsReal (Host.scatterAdd (F := Ideal) (ScatterRows.rowDims 50000 128 800000 swf)
          (broadcastInDim ⟨2, ![50000, 128]⟩ ![] bcN (constant (F := Ideal) ⟨0, ![]⟩ .f32 0x00000000#32)) i2
          (maximumf (addf (Host.gather gd x i1) ea)
            (broadcastInDim ⟨2, ![800000, 128]⟩ ![] bcE (constant (F := Ideal) ⟨0, ![]⟩ .f32 0x00000000#32))) i) := by
  intro i
  obtain ⟨p, q, rfl⟩ : ∃ (p : Fin 50000) (q : Fin 128), i = ix2 p q := ⟨i 0, i 1, eq_ix2 i⟩
  rw [ScatterRows.scatterAdd_rows_apply]
  refine isReal_add isReal_zeroWord (isReal_sum _ fun e => ?_)
  split_ifs
  · exact isReal_max (isReal_add (hx _) (hea _)) isReal_zeroWord
  · exact isReal_zero

end Cert.Spec

end
-- ==== Proof.LibFiniteAll.lean ====
/-
  "Every entry is finite", written as a program, says every entry is a real number.

  A program tests finiteness of a float array x by comparing |x| with +inf entry by entry, and-reducing the
  resulting bits over all axes from the bit 1 into a single bit. On the extended reals |x| = max x (−x), the
  f32 word 0x7F800000 denotes +inf, and max x (−x) < +inf fails exactly at x = +inf and x = −inf (where the
  maximum is +inf). An and-reduction over all axes is 1 only when every bit is 1. So the single bit being 1
  says every entry of x is the image of a real number.
-/
import Idealize.ShloMosaic.PureOps.Ideal
import Idealize.ShloMosaic.Lib.ReduceAll
import Idealize.ShloMosaic.Lib.ValueIdx

noncomputable section

namespace Cert.FiniteAll

open Idealize.ShloMosaic Idealize.ShloMosaic.ValueIdx

/-- The f32 word with all exponent bits set and no fraction bit denotes +inf. -/
theorem ofBits_inf_f32 : Ideal.ofBits .f32 0x7F800000#32 = (⊤ : EReal) := by
  simp [Ideal.ofBits, Ideal.ieee]

/-- An extended real whose absolute value max x (−x) is strictly below +inf is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- A rank-0 shape has one index. -/
instance subsingleton_idx0 : Subsingleton (⟨0, ![]⟩ : Shape).Idx := ⟨fun a b => funext fun d => d.elim0⟩

/-- The finiteness test of a float array of any shape: if the and-reduction over all axes of the bits
    |x| < +inf (the bound a broadcast rank-0 constant, the reduction started from the bit 1) is the bit 1,
    every entry of the array is a real number. -/
theorem all_real_of_test {s : Shape} {axes : List (Fin s.rank)}
    (bc : (⟨0, ![]⟩ : Shape).BroadcastsInDim s (![] : Fin 0 → Fin s.rank))
    (rd : s.ReducesTo axes (⟨0, ![]⟩ : Shape)) (hu : 0 < (⟨0, ![]⟩ : Shape).numel)
    (a : FVec Ideal s .f32)
    (h : Host.reduce IntOp.andi
          (cmpf .olt (Host.absf a)
            (broadcastInDim s ![] bc (constant (F := Ideal) (⟨0, ![]⟩ : Shape) .f32 0x7F800000#32)))
          (constantI (⟨0, ![]⟩ : Shape) 1 1#1) rd hu ix0 = 1#1) :
    ∀ i, ∃ r : ℝ, a i = (r : EReal) := by
  intro i
  exact real_of_abs_lt_inf (a i) (Host.reduce_andi_all _ _ rd hu ix0 h i)

end Cert.FiniteAll

end
-- ==== Proof.PreReal.lean ====
/-
  The precondition, decoded: every float argument has only real entries.

  The precondition tests each of the eight float arguments for finiteness (|a| < +inf at every entry, and-reduced
  to one bit) and and-s the eight bits together; the integer argument is not tested. The conjunction being the
  bit 1 gives each of the eight bits, and each bit says that every entry of its argument is a real number.
-/
import proofs.«174337_j74947179316231_2_alg».proof.Pre_finite_inputs
import proofs.«174337_j74947179316231_2_alg».proof.Proof.Gen.Pre_finite_inputs
import proofs.«174337_j74947179316231_2_alg».proof.Proof.Spec
import proofs.«174337_j74947179316231_2_alg».proof.Proof.LibFiniteAll
import Idealize.ShloMosaic.Lib.ReduceAll

noncomputable section

namespace Cert.Spec

open Idealize.ShloMosaic Idealize.ShloMosaic.ValueIdx Cert.Pre_finite_inputs Cert.FiniteAll

/-- If the precondition holds, every entry of every float argument is a real number. -/
theorem pre_isReal [Cert.Pre_finite_inputs.Facts]
    (a0 : FVec Ideal S50000x128 .f32) (a1 : IVec S2x800000 32) (a2 : FVec Ideal S800000x128 .f32)
    (a3 : FVec Ideal S128x128 .f32) (a4 : FVec Ideal S128 .f32) (a5 : FVec Ideal S128x128 .f32)
    (a6 : FVec Ideal S128 .f32) (a7 : FVec Ideal S128 .f32) (a8 : FVec Ideal S128 .f32)
    (h : Cert.Pre_finite_inputs.fn (F := Ideal) a0 a1 a2 a3 a4 a5 a6 a7 a8 = (fun _ => 1#1)) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have h0 := congrFun h ix0
  dsimp only [fn, fn_part1, fn_part2] at h0
  simp only [Idealize.ShloMosaic.andi, IntOp.andi_eq_one] at h0
  obtain ⟨⟨⟨⟨⟨⟨⟨t0, t2⟩, t3⟩, t4⟩, t5⟩, t6⟩, t7⟩, t8⟩ := h0
  exact ⟨all_real_of_test _ _ _ a0 t0, all_real_of_test _ _ _ a2 t2, all_real_of_test _ _ _ a3 t3,
    all_real_of_test _ _ _ a4 t4, all_real_of_test _ _ _ a5 t5, all_real_of_test _ _ _ a6 t6,
    all_real_of_test _ _ _ a7 t7, all_real_of_test _ _ _ a8 t8⟩

end Cert.Spec

end
-- ==== Proof.LibWordsAt.lean ====
/-
  Words and bits read at an index, and two float words as extended reals.

  The integer operations of a vector (and, exclusive or, sum, comparison) read at an index are the word
  operations on the entries; a select between equal conditions and equal branches is equal; the 32-bit float
  word of 1.0 denotes the extended real 1 and the word of −∞ denotes the bottom element.
-/
import Idealize.ShloMosaic.Lib.ValueIdx
import Idealize.ShloMosaic.PureOps.Ideal.Laws

noncomputable section

namespace Idealize.ShloMosaic.WordsAt

open Idealize.ShloMosaic

variable {s : Shape} {w : Nat}

/-- A vector's bitwise and at an index is the and of the entries. -/
theorem andi_apply (x y : IVec s w) (i : s.Idx) : andi x y i = IntOp.andi (x i) (y i) := rfl
/-- A vector's exclusive or at an index is the exclusive or of the entries. -/
theorem xori_apply (x y : IVec s w) (i : s.Idx) : xori x y i = IntOp.xori (x i) (y i) := rfl
/-- A vector's integer sum at an index is the sum of the entries. -/
theorem addi_apply (x y : IVec s w) (i : s.Idx) : addi x y i = IntOp.addi (x i) (y i) := rfl
/-- A vector's integer comparison at an index compares the entries. -/
theorem cmpi_apply (p : CmpIPredicate) (x y : IVec s w) (i : s.Idx) : cmpi p x y i = IntOp.cmpi p (x i) (y i) := rfl

/-- Selects with equal conditions and equal branches are equal. -/
theorem select_congr {α : Type} {c c' : BitVec 1} {a a' b b' : α} (hc : c = c') (ha : a = a') (hb : b = b') :
    Scalar.select c a b = Scalar.select c' a' b' := by rw [hc, ha, hb]

/-- The 32-bit float word of 1.0 denotes 1. -/
theorem ofBits_one_f32 : Ideal.ofBits .f32 0x3F800000#32 = 1 := by
  simp [Ideal.ofBits, Ideal.ieee]
  first
    | (rw [← EReal.coe_mul]; norm_num; done)
    | (norm_num [← EReal.coe_mul]; done)

/-- The 32-bit float word of −∞ denotes the bottom element. -/
theorem ofBits_neg_inf_f32 : Ideal.ofBits .f32 0xFF800000#32 = ⊥ := by simp [Ideal.ofBits, Ideal.ieee]

end Idealize.ShloMosaic.WordsAt

end
-- ==== Proof.RefValue.lean ====
/-
  The reference's result read at an index.

  Every operation of the reference after the aggregation is read at an index: a row vector spread over the rows
  reads its own entry at the column; a scalar spread over an array reads its one entry; the column sum from the
  zero word is the sum over the 50000 rows; a plain product is the sum over the contracted index; the leading
  1.0 · x is x; relu is the maximum with zero.  Inside the variance function the divisor 50000 − 0 is the word of
  50000, which is greater than zero, so the selection takes the quotient.  Put together, the result at (r, j) is
  the specification's normalised output with the mean-of-squared-deviations variance, for any aggregated messages.
  No finiteness is used: both sides are the same expression of extended reals.
-/
import proofs.«174337_j74947179316231_2_alg».proof.Proof.RefRun
import proofs.«174337_j74947179316231_2_alg».proof.Proof.Spec
import proofs.«174337_j74947179316231_2_alg».proof.Proof.LibPlainDot
import proofs.«174337_j74947179316231_2_alg».proof.Proof.LibRowSpread
import proofs.«174337_j74947179316231_2_alg».proof.Proof.LibWordsAt
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## Layout operations at an index -/

/-- A vector of 128 entries laid out as one row reads entry j at (0, j). -/
theorem vecRow_apply {α : Type} (v : S128.Idx → α) (j : Fin 128) :
    broadcastInDim S1x128 ![1] bcast_S128_S1x128_1 v (ix2 (0 : Fin 1) j) = v (ix1 j) :=
  broadcastInDim_apply ![1] bcast_S128_S1x128_1 v (ix2 (0 : Fin 1) j) (ix1 j) fun a => by
    match a with
    | ⟨0, _⟩ => exact (show j.val = if (128 : ℕ) = 1 then 0 else j.val from (if_neg (by decide)).symm)

/-- A vector of 128 entries spread over the 50000 rows reads entry j at (r, j). -/
theorem rowSpread_apply {α : Type} (v : S128.Idx → α) (r : Fin 50000) (j : Fin 128) :
    broadcastInDim S50000x128 ![0, 1] bcast_S1x128_S50000x128_0_1 (broadcastInDim S1x128 ![1] bcast_S128_S1x128_1 v) (ix2 r j)
      = v (ix1 j) :=
  (RowSpread.rowInDim2_apply (broadcastInDim S1x128 ![1] bcast_S128_S1x128_1 v) bcast_S1x128_S50000x128_0_1 r j).trans
    (vecRow_apply v j)

/-! ## Sums and products at an index -/

/-- The column sum from the zero word, at column j: the sum over the 50000 rows. -/
theorem colSum_apply (h : FVec Ideal S50000x128 .f32) (j : Fin 128) :
    Host.reduceAdd (F := Ideal) h (constant (F := Ideal) S_ .f32 0x00000000#32) reducesTo_S50000x128_S128_d0 h_S_ (ix1 j)
      = ∑ r : Fin 50000, h (ix2 r j) := by
  have hR : S50000x128.Reduces [0] S128 := by decide
  show Ideal.hostReduceAdd reducesTo_S50000x128_S128_d0 h (Ideal.ofBits .f32 0x00000000#32) (ix1 j) = _
  rw [Ideal.hostReduceAdd_single reducesTo_S50000x128_S128_d0 hR, Ideal.ofBits_zero_f32, zero_add]
  show ∑ p : Fin 50000, h (hR.lift (ix1 j) p) = _
  refine Finset.sum_congr rfl fun p _ => congrArg h ?_
  exact funext fun c => Fin.ext (by match c with | ⟨0, _⟩ => rfl | ⟨1, _⟩ => rfl)

/-- The 50000 × 128 by 128 × 128 product at (r, j): the sum over the contracted index. -/
theorem dot_apply (l : FVec Ideal S50000x128 .f32) (w : FVec Ideal S128x128 .f32) (r : Fin 50000) (j : Fin 128) :
    Host.dotGeneral (F := Ideal) dot_S50000x128_S128x128_S50000x128_1_0_0_1_n_n none l w (ix2 r j)
      = ∑ k : Fin 128, l (ix2 r k) * w (ix2 k j) :=
  PlainDot.dotGeneral_apply (M := 50000) (K := 128) (N := 128) none .single l w r j

/-! ## The words -/

/-- The divisor's word denotes the real number 50000. -/
theorem nN_real : Ideal.ofBits .f32 0x47435000#32 = ((50000 : ℝ) : EReal) := by
  simp [Ideal.ofBits, Ideal.ieee]
  rw [← EReal.coe_mul]
  norm_num

/-- The integer zero converted to a float is zero. -/
theorem sitofp_zero : FloatOps.sitofp (F := Ideal) .f32 (0#32 : BitVec 32) = 0 := by
  show (((0#32 : BitVec 32).toInt : ℝ) : EReal) = 0
  simp

/-- The variance function's divisor 50000 − 0 is the word of 50000. -/
theorem den_apply : (subf (constant (F := Ideal) S_ .f32 0x47435000#32) (sitofp (F := Ideal) .f32 (constantI S_ 32 0#32))) ix0 = Spec.nN := by
  show Ideal.ofBits .f32 0x47435000#32 - FloatOps.sitofp (F := Ideal) .f32 (0#32 : BitVec 32) = Spec.nN
  rw [sitofp_zero, sub_zero]
  rfl

/-- The divisor is greater than zero: the comparison's bit is 1. -/
theorem den_pos : cmpf .ogt (subf (constant (F := Ideal) S_ .f32 0x47435000#32) (sitofp (F := Ideal) .f32 (constantI S_ 32 0#32))) (constant (F := Ideal) S_ .f32 0x00000000#32) ix0 = 1#1 := by
  show Ideal.cmp .ogt ((subf (constant (F := Ideal) S_ .f32 0x47435000#32) (sitofp (F := Ideal) .f32 (constantI S_ 32 0#32))) ix0) (Ideal.ofBits .f32 0x00000000#32) = 1#1
  rw [den_apply, Ideal.ofBits_zero_f32]
  show BitVec.ofBool (decide ((0 : EReal) < Spec.nN)) = 1#1
  have : (0 : EReal) < Spec.nN := by
    show (0 : EReal) < Ideal.ofBits .f32 0x47435000#32
    rw [nN_real]
    exact_mod_cast (by norm_num : (0 : ℝ) < 50000)
  rw [decide_eq_true this]
  rfl

/-! ## The residual perceptron -/

/-- Stretch B at (r, j): the specification's H, for any aggregated messages. -/
theorem hval_apply (x a : FVec Ideal S50000x128 .f32) (W1 : FVec Ideal S128x128 .f32) (b1 : FVec Ideal S128 .f32)
    (W2 : FVec Ideal S128x128 .f32) (b2 : FVec Ideal S128 .f32) (r : Fin 50000) (j : Fin 128) :
    hval x a W1 b1 W2 b2 (ix2 r j)
      = Cert.Spec.H (fun r j => x (ix2 r j)) (fun r j => a (ix2 r j)) (fun l k => W1 (ix2 l k)) (fun k j => W2 (ix2 k j))
        (fun k => b1 (ix1 k)) (fun j => b2 (ix1 j)) r j := by
  unfold hval Cert.Spec.H Cert.Spec.hid
  rw [addf_apply, addf_apply, dot_apply, rowSpread_apply]
  refine congrArg (fun s => x (ix2 r j) + (s + b2 (ix1 j))) (Finset.sum_congr rfl fun k _ => ?_)
  rw [maximumf_apply, addf_apply, dot_apply, rowSpread_apply, RowSpread.scalarInDim_apply, constant_apply,
    Ideal.ofBits_zero_f32]
  refine congrArg (fun s => max (s + b1 (ix1 k)) 0 * W2 (ix2 k j)) (Finset.sum_congr rfl fun l _ => ?_)
  rw [addf_apply, mulf_apply, RowSpread.scalarInDim_apply, constant_apply, WordsAt.ofBits_one_f32, one_mul]

/-! ## The batch normalisation -/

/-- The column mean at j: the column sum over the word of 50000. -/
theorem meanV_apply (h : FVec Ideal S50000x128 .f32) (j : Fin 128) :
    meanV h (ix1 j) = Ideal.div (∑ r : Fin 50000, h (ix2 r j)) Cert.Spec.nN := by
  unfold meanV
  show Ideal.div (Host.reduceAdd (F := Ideal) h (constant (F := Ideal) S_ .f32 0x00000000#32) reducesTo_S50000x128_S128_d0 h_S_ (ix1 j))
      (broadcastInDim S128 ![] bcast_S_S128 (constant (F := Ideal) S_ .f32 0x47435000#32) (ix1 j)) = _
  rw [colSum_apply, RowSpread.scalarInDim_apply]
  rfl

/-- The deviation inside the variance function at (r, j): the entry minus its column's mean. -/
theorem devV_apply (h : FVec Ideal S50000x128 .f32) (r : Fin 50000) (j : Fin 128) :
    devV h (ix2 r j) = h (ix2 r j) - Ideal.div (∑ r' : Fin 50000, h (ix2 r' j)) Cert.Spec.nN := by
  unfold devV
  rw [subf_apply, RowSpread.rowInDim2_apply]
  show h (ix2 r j) - Ideal.div
      (broadcastInDim S1x128 ![1] bcast_S128_S1x128_1 (Host.reduceAdd (F := Ideal) h (constant (F := Ideal) S_ .f32 0x00000000#32) reducesTo_S50000x128_S128_d0 h_S_) (ix2 (0 : Fin 1) j))
      (broadcastInDim S1x128 ![] bcast_S_S1x128 (constant (F := Ideal) S_ .f32 0x47435000#32) (ix2 (0 : Fin 1) j)) = _
  rw [vecRow_apply, colSum_apply, RowSpread.scalarInDim_apply]
  rfl

/-- The variance function's result at j: the column sum of the squared deviations over the word of 50000. -/
theorem varV_apply (h : FVec Ideal S50000x128 .f32) (j : Fin 128) :
    varV h (ix1 j) = Ideal.div (∑ r : Fin 50000, devV h (ix2 r j) * devV h (ix2 r j)) Cert.Spec.nN := by
  unfold varV
  rw [select_apply, RowSpread.scalarInDim_apply, den_pos, select_one]
  show Ideal.div (Host.reduceAdd (F := Ideal) (mulf (devV h) (devV h)) (constant (F := Ideal) S_ .f32 0x00000000#32) reducesTo_S50000x128_S128_d0 h_S_ (ix1 j))
      (broadcastInDim S128 ![] bcast_S_S128 (subf (constant (F := Ideal) S_ .f32 0x47435000#32) (sitofp (F := Ideal) .f32 (constantI S_ 32 0#32))) (ix1 j)) = _
  rw [colSum_apply, RowSpread.scalarInDim_apply, den_apply]
  rfl

/-- Stretch C at (r, j): centre, scale by the reciprocal root of the variance plus the stabiliser, then the
    feature's scale and shift. -/
theorem norm_apply (h : FVec Ideal S50000x128 .f32) (gamma beta : FVec Ideal S128 .f32) (r : Fin 50000) (j : Fin 128) :
    norm h gamma beta (ix2 r j)
      = (h (ix2 r j) - meanV h (ix1 j)) * Ideal.rsqrt (varV h (ix1 j) + Cert.Spec.eps) * gamma (ix1 j) + beta (ix1 j) := by
  unfold norm
  rw [addf_apply, mulf_apply, mulf_apply, subf_apply, rowSpread_apply, rowSpread_apply, rowSpread_apply, rowSpread_apply]
  show (h (ix2 r j) - meanV h (ix1 j))
      * Ideal.rsqrt (varV h (ix1 j) + broadcastInDim S128 ![] bcast_S_S128 (constant (F := Ideal) S_ .f32 0x3727C5AC#32) (ix1 j))
      * gamma (ix1 j) + beta (ix1 j) = _
  rw [RowSpread.scalarInDim_apply]
  rfl

/-! ## The result -/

/-- The reference's result at (r, j) is the specification's output with the mean-of-squared-deviations variance, the
    aggregated messages being whatever stretch A computed. -/
theorem res_apply (x : FVec Ideal S50000x128 .f32) (ei : IVec S2x800000 32) (ea : FVec Ideal S800000x128 .f32)
    (W1 : FVec Ideal S128x128 .f32) (b1 : FVec Ideal S128 .f32) (W2 : FVec Ideal S128x128 .f32) (b2 : FVec Ideal S128 .f32)
    (gamma beta : FVec Ideal S128 .f32) (r : Fin 50000) (j : Fin 128) :
    res x ei ea W1 b1 W2 b2 gamma beta (ix2 r j)
      = Cert.Spec.outR (fun r j => x (ix2 r j)) (fun r j => agg x ei ea (ix2 r j)) (fun l k => W1 (ix2 l k)) (fun k j => W2 (ix2 k j))
          (fun k => b1 (ix1 k)) (fun j => b2 (ix1 j)) (fun j => gamma (ix1 j)) (fun j => beta (ix1 j)) r j := by
  unfold res
  rw [norm_apply, varV_apply, meanV_apply]
  simp only [devV_apply, hval_apply]
  rfl

end Cert.ReferenceIdeal.Hand

end
-- ==== Proof.Bridge.lean ====
/-
  The specification's clamped-variance output, over the kernel program's argument arrays, is the reference's result.

  The precondition makes every entry of the eight float arguments a real number.  The aggregated messages are then
  real numbers too: each is zero plus a finite sum of maxima of sums of two real numbers with zero.  With x, the
  aggregated messages, the two weight matrices and the two biases real, every entry of the residual layer is real,
  and on a column of real numbers the mean of squares minus the squared mean is the mean of the squared deviations,
  which is nonnegative, so the clamp changes nothing: the specification's two outputs agree.  The reference's result
  read at an index is the second of them over the same arrays, the aggregation being the same term in both programs.
-/
import proofs.«174337_j74947179316231_2_alg».proof.Defs
import proofs.«174337_j74947179316231_2_alg».proof.Proof.Gen.KernelIdeal
import proofs.«174337_j74947179316231_2_alg».proof.Proof.Gen.ReferenceIdeal
import proofs.«174337_j74947179316231_2_alg».proof.Proof.Gen.Pre_finite_inputs
import proofs.«174337_j74947179316231_2_alg».proof.Proof.KernelIdeal.Mats
import proofs.«174337_j74947179316231_2_alg».proof.Proof.SpecLaw
import proofs.«174337_j74947179316231_2_alg».proof.Proof.AggReal
import proofs.«174337_j74947179316231_2_alg».proof.Proof.PreReal
import proofs.«174337_j74947179316231_2_alg».proof.Proof.RefRun
import proofs.«174337_j74947179316231_2_alg».proof.Proof.RefValue

noncomputable section

namespace Cert.Proof

open Idealize.ShloMosaic Idealize.ShloMosaic.TcCoe Idealize.SL.Sem Idealize.ShloMosaic.ValueIdx
open Cert.KernelIdeal.Hand

/-- Under the precondition, the specification's output with the clamped difference-of-means variance, stated over
    the kernel program's argument arrays, equals the reference's result array at every index. -/
theorem bridge [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 50000) (j : Fin 128) :
    Cert.KernelIdeal.Hand.outSpec m c r j
      = Cert.ReferenceIdeal.Hand.res (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) (ix2 r j) := by
  obtain ⟨h0, h2, h3, h4, h5, h6, -, -⟩ := Cert.Spec.pre_isReal _ _ _ _ _ _ _ _ _ (hpre c)
  have hx : ∀ r j, Cert.Spec.IsReal (matX m c r j) := fun r j => h0 (ix2 r j)
  have hW1 : ∀ l k, Cert.Spec.IsReal (matW1 m c l k) := fun l k => h3 (ix2 l k)
  have hb1 : ∀ k, Cert.Spec.IsReal (vecB1 m c k) := fun k => h4 (ix1 k)
  have hW2 : ∀ k j, Cert.Spec.IsReal (matW2 m c k j) := fun k j => h5 (ix2 k j)
  have hb2 : ∀ j, Cert.Spec.IsReal (vecB2 m c j) := fun j => h6 (ix1 j)
  have hagg : ∀ r j, Cert.Spec.IsReal (matAgg m c r j) := fun r j => by
    unfold matAgg aggK
    exact Cert.Spec.agg_isReal Cert.KernelIdeal.gather_S50000x128_S800000x1_S800000x128_1_0_n_n_0_1_1128
      Cert.KernelIdeal.Gen.scatter_S50000x128_S800000x1_S800000x128_1_0_0_1_wf Cert.KernelIdeal.Gen.bcast_S_S800000x128
      Cert.KernelIdeal.Gen.bcast_S_S50000x128 _ _ _ _ h0 h2 (ix2 r j)
  have e : matAgg m c = fun r j => Cert.ReferenceIdeal.Hand.agg (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (ix2 r j) :=
    funext fun r => funext fun j => congrFun (aggK_eq_agg _ _ _) (ix2 r j)
  rw [Cert.ReferenceIdeal.Hand.res_apply]
  unfold outSpec
  rw [Cert.Spec.outK_eq_outR (matX m c) (matAgg m c) (matW1 m c) (matW2 m c) (vecB1 m c) (vecB2 m c) (vecG m c) (vecBe m c)
    hx hagg hW1 hW2 hb1 hb2, e]
  rfl

end Cert.Proof

end
-- ==== Proof.lean ====
/-
  A graph layer with batch normalisation: for node features x, edges (src, dst) with attributes, two weight matrices with
  biases, and a scale and shift per feature,

      agg  = for every node, the sum over its incoming edges of max(x[src] + edge_attr, 0)
      H    = x + ( max( (x + agg)·W1 + b1 , 0 )·W2 + b2 )
      out  = (H − mean) · rsqrt(var + eps) · gamma + beta,   mean and var taken down the 50000 rows of H.

  The kernel program builds agg by host operations, then runs two kernel regions over 25 tiles of 2000 rows: the first
  writes H tile by tile while two accumulators gather the column sums of H and of H², the second normalises with
  var = max( (Σ H²)/n − ((Σ H)/n)² , 0 ). The reference takes var = ( Σ (H − mean)² )/n. Over the extended reals the two
  agree exactly when the entries of H are real numbers (the variance law; at an infinity they differ), and they are:
  the precondition makes every float input finite, every gathered entry is an entry of x, and sums, products and maxima
  of reals are real. Every other step is the same operation on both sides, or a sum regrouped tile by tile.

  The three frames: the kernel program at both instances is run segment by segment — host stretches, the two regions
  with their proof data — by one proof generic in the float instance; the reference is a straight line of host
  operations. The idealisation rewrote nothing, so it preserves trivially. The algebraic claim joins the kernel
  program's result, read index by index as the specification's output, with the reference's through the variance law.
-/
import proofs.«174337_j74947179316231_2_alg».proof.Defs
import proofs.«174337_j74947179316231_2_alg».proof.Proof.Gen.Kernel
import proofs.«174337_j74947179316231_2_alg».proof.Proof.Gen.KernelIdeal
import proofs.«174337_j74947179316231_2_alg».proof.Proof.Gen.ReferenceIdeal
import proofs.«174337_j74947179316231_2_alg».proof.Proof.Gen.Pre_finite_inputs
import proofs.«174337_j74947179316231_2_alg».proof.Proof.Kernel.Run
import proofs.«174337_j74947179316231_2_alg».proof.Proof.KernelIdeal.Value
import proofs.«174337_j74947179316231_2_alg».proof.Proof.RefRun
import proofs.«174337_j74947179316231_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_k : Cert.frame_Kernel := fun m ρ _ => Cert.Kernel.Hand.frame (F := Bits) m ρ

/-- So does its idealisation. -/
theorem frame_ki : Cert.frame_KernelIdeal := fun m ρ _ => Cert.KernelIdeal.Hand.frame (F := Ideal) m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Hand.run m ρ)

/-- The idealisation rewrote no operation. -/
theorem preserves : Cert.preserves_Kernel_KernelIdeal := trivial

/-- From memories that agree on the arguments both programs end with the same result: the kernel program's result
    array is the specification's output with the clamped difference-of-means variance, the reference's is the one with
    the mean of squared deviations, and for finite inputs those are equal. -/
theorem algebraic : Cert.algebraic_KernelIdeal_ReferenceIdeal := by
  intro m ρ m' ρ' hpre hagree
  refine ⟨fun c => Cert.KernelIdeal.Hand.W6 m ρ c (Proc.devRef .tc Cert.KernelIdeal.main_v29), Cert.KernelIdeal.Hand.run_all (F := Ideal) m ρ, ?_⟩
  refine (θ_run Cert.ReferenceIdeal.defs _ _).mono (fun _ h c => ⟨(h c).1.trans ?_, (h c).2⟩) (Cert.ReferenceIdeal.Hand.run m' ρ')
  obtain ⟨e0, e1, e2, e3, e4, e5, e6, e7, e8⟩ := hagree c
  rw [e0, e1, e2, e3, e4, e5, e6, e7, e8]
  funext i
  obtain ⟨r, j, rfl⟩ : ∃ (r : Fin 50000) (j : Fin 128), i = ix2 r j := ⟨i 0, i 1, eq_ix2 i⟩
  rw [← bridge m hpre c r j]
  exact (Cert.KernelIdeal.Hand.kernel_value m ρ c r j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
